-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S1024x1024 .f32) (main_arg2 : FVec F S1024x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S1024x1024 : Shape := ⟨2, ![1024, 1024]⟩
abbrev S8192x1024 : Shape := ⟨2, ![8192, 1024]⟩
abbrev S512x1024 : Shape := ⟨2, ![512, 1024]⟩
abbrev S1x1024x1024 : Shape := ⟨3, ![1, 1024, 1024]⟩
abbrev S1x256x1024 : Shape := ⟨3, ![1, 256, 1024]⟩
abbrev S1024x1 : Shape := ⟨2, ![1024, 1]⟩
abbrev S256x1024 : Shape := ⟨2, ![256, 1024]⟩
abbrev S1024x256 : Shape := ⟨2, ![1024, 256]⟩
abbrev S1024 : Shape := ⟨1, ![1024]⟩
abbrev S4x2048x2048 : Shape := ⟨3, ![4, 2048, 2048]⟩

abbrev nBuf : Space → Nat
  | .hbm => 13
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .hbm, ⟨8, _⟩ => ⟨S4x2048x1024, .f32⟩
  | .hbm, ⟨9, _⟩ => ⟨S4x2048x1024, .f32⟩
  | .hbm, ⟨10, _⟩ => ⟨S4x2048x1024, .bf16⟩
  | .hbm, ⟨11, _⟩ => ⟨S4x2048x1024, .f32⟩
  | .hbm, ⟨12, _⟩ => ⟨S4x2048x2048, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024x1024, .f32⟩
  | .local _ .vmem, ⟨12, _⟩ => ⟨S1x1024x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .bf16⟩
  | .local _ .vmem, ⟨16, _⟩ => ⟨S1x256x1024, .bf16⟩
  | .local _ .vmem, ⟨17, _⟩ => ⟨S1x1024x1024, .f32⟩
  | .local _ .vmem, ⟨18, _⟩ => ⟨S1x1024x1024, .f32⟩
  | .local _ .vmem, ⟨19, _⟩ => ⟨S1024x1, .f32⟩
  | .local _ .vmem, ⟨20, _⟩ => ⟨S1024x1, .f32⟩
  | .local _ .vmem, ⟨21, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![4, 2, 8], ![false, false, false]⟩

def k1_cond2 (i : grid1.Coords) : BitVec 1 :=
  let arg2 : BitVec 32 := BitVec.ofNat 32 (i 2).val
  let c7_i32 : BitVec 32 := 7#32
  let v40 : BitVec 1 := Scalar.cmpi .eq arg2 c7_i32
  let v41 : BitVec 32 := Scalar.extui v40
  let c0_i32_26 : BitVec 32 := 0#32
  let v42 : BitVec 1 := Scalar.cmpi .ne v41 c0_i32_26
  v42

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S1024x256_S1024 : S1024x256.Reduces [1] S1024
  shapeCasts_S1024_S1024x1 : S1024.ShapeCasts S1024x1
  broadcasts_S1024x1_S1024x256 : S1024x1.Broadcasts S1024x256
  broadcasts_S1024x1_S1024x1024 : S1024x1.Broadcasts S1024x1024
  shapeCasts_S1024x1024_S1x1024x1024 : S1024x1024.ShapeCasts S1x1024x1024
  concatenates_S4x2048x1024_S4x2048x1024_S4x2048x2048_d2 : Shape.Concatenates [S4x2048x1024, S4x2048x1024] S4x2048x2048 2
  dot_S512x1024_S1024x1024_S512x1024_1_0_0_1_n_n_wf : DotDims.WF S512x1024 S1024x1024 S512x1024 [1] [0] [0] [1] [] []
  dot_S1024x1024_S256x1024_S1024x256_1_1_0_0_n_n_wf : DotDims.WF S1024x1024 S256x1024 S1024x256 [1] [1] [0] [0] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .f32 = 32 ∨ (Rect.block (s := S8192x1024) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .f32 = 32 ∨ (Rect.block (s := S8192x1024) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .bf16 = 32 ∨ (Rect.block (s := S8192x1024) S512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .f32 = 32 ∨ (Rect.block (s := S4x2048x1024) S1x1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1024.size a ≤ S4x2048x1024.size a
  hwx1_1 : ∀ i : grid1.Coords, EltTy.bits .f32 = 32 ∨ (Rect.block (s := S4x2048x1024) S1x256x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1024.size a ≤ S4x2048x1024.size a
  hwx1_2 : ∀ i : grid1.Coords, EltTy.bits .bf16 = 32 ∨ (Rect.block (s := S4x2048x1024) S1x256x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x1024.size a
  hwx1_3 : ∀ i : grid1.Coords, EltTy.bits .f32 = 32 ∨ (Rect.block (s := S4x2048x1024) S1x1024x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x2048, .f32⟩
  | .hbm, ⟨16, _⟩ => ⟨S_, .f32⟩
  | .hbm, ⟨17, _⟩ => ⟨S4x2048, .f32⟩
  | .hbm, ⟨18, _⟩ => ⟨S4x2048, .f32⟩
  | .hbm, ⟨19, _⟩ => ⟨S4x2048x1, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S4x2048x1024, .f32⟩
  | .hbm, ⟨29, _⟩ => ⟨S4x2048x2048, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  concatenates_S4x2048x1024_S4x2048x1024_S4x2048x2048_d2 : Shape.Concatenates [S4x2048x1024, S4x2048x1024] S4x2048x2048 2
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Region0.lean ====
import proofs.«104834_j14302241096180_2_alg».proof.Proof.Gen.KernelIdeal.Launch
import proofs.«104834_j14302241096180_2_alg».proof.Proof.Gen.KernelIdeal.Skeleton
import proofs.«104834_j14302241096180_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-! # The projection kernel's region: proof data and body obligation

The first pallas_call of the kernel program runs the projection kernel on a grid of 16 points. At each point the
pipeline hands the body a block of 512 rows of `x` and the three weight matrices whole, and the body writes the
three projected blocks (the scaled query block, the key block, and the value block truncated to bf16). This module
states, at an arbitrary valuation `V` of the core's buffers at region entry, what every window's staging buffer
holds after the body at each point, and proves the body's separation-logic triple against it. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array at the region-entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The input windows' buffers when the body is called -/

/-- Input window 0's current staging buffer holds its block at every point, whether the pipeline fetched it there
    or not (unfetched, the block index has not moved), for any proof data whose array is the region-entry one and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there
    or not (unfetched, the block index has not moved), for any proof data whose array is the region-entry one and whose
    body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there
    or not (unfetched, the block index has not moved), for any proof data whose array is the region-entry one and whose
    body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the pipeline fetched it there
    or not (unfetched, the block index has not moved), for any proof data whose array is the region-entry one and whose
    body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the projection pipeline on core `c`: the arrays at the region-entry contents; after the body at
    point `t` each input's buffer still at its block, and the three outputs' buffers at the scaled query projection,
    the key projection and the truncated value projection of the point's block of `x` against the respective weight;
    the invariant is the class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay2 (iblk0 V c 0 t) (iblk0 V c 1 t)
    | ⟨5, _⟩ => k0_pay3 (iblk0 V c 0 t) (iblk0 V c 2 t)
    | ⟨6, _⟩ => k0_pay4 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay2 (iblk0 V c 0 t) (iblk0 V c 1 t) := by dsimp only [dat0]
theorem after0_5 (c : Dev nD) (t : Fin cfg0.N) : (dat0 V c).after 5 t = k0_pay3 (iblk0 V c 0 t) (iblk0 V c 2 t) := by dsimp only [dat0]
theorem after0_6 (c : Dev nD) (t : Fin cfg0.N) : (dat0 V c).after 6 t = k0_pay4 (iblk0 V c 0 t) (iblk0 V c 3 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body's accesses -/

/-- The whole block of 512 rows, as the rectangle the body loads and stores through. -/
abbrev rB : Rect S512x1024 := Rect.unit (s := S512x1024) ![0, 0] S512x1024.size inb_S512x1024_S512x1024_0_0
/-- The whole weight matrix, as the rectangle the body loads through. -/
abbrev rW : Rect S1024x1024 := Rect.unit (s := S1024x1024) ![0, 0] S1024x1024.size inb_S1024x1024_S1024x1024_0_0

/-- The rectangles' offsets are zero. -/
theorem hz : (![0, 0] : Fin 2 → Nat) = fun _ => 0 := funext fun a => by fin_cases a <;> rfl

/-- One store through the whole block covers it. -/
theorem coverB {e : EltTy} (p0 : S512x1024.Idx → Elt F e) (y : S512x1024.Idx) :
    ∃ pc ∈ ([⟨rB, p0⟩] : List (View.Piece (Elt F) S512x1024 e)), y ∈ pc.1.set :=
  ⟨_, List.mem_singleton_self _, View.mem_set_unit_zero hz inb_S512x1024_S512x1024_0_0 y⟩

/-! ## What the body leaves in each output window's buffer -/

/-- The query window's buffer after the body: its one store as a piece. -/
def out0_4 (x0 : Vec F S512x1024 .f32) (x1 : Vec F S1024x1024 .f32) : Vec F S512x1024 .f32 :=
  View.canon [⟨rB, k0_pay2 (View.ld x0 rB) (View.ld x1 rW)⟩]
/-- The key window's. -/
def out0_5 (x0 : Vec F S512x1024 .f32) (x2 : Vec F S1024x1024 .f32) : Vec F S512x1024 .f32 :=
  View.canon [⟨rB, k0_pay3 (View.ld x0 rB) (View.ld x2 rW)⟩]
/-- The value window's. -/
def out0_6 (x0 : Vec F S512x1024 .f32) (x3 : Vec F S1024x1024 .f32) : Vec F S512x1024 .bf16 :=
  View.canon [⟨rB, k0_pay4 (View.ld x0 rB) (View.ld x3 rW)⟩]

/-- A whole-buffer store of a payload of whole-buffer loads leaves the payload of the buffers' contents. -/
theorem out0_4_eq (x0 : Vec F S512x1024 .f32) (x1 : Vec F S1024x1024 .f32) : out0_4 x0 x1 = k0_pay2 x0 x1 := by
  unfold out0_4
  rw [View.canon_unit_zero hz]
  simp only [View.ld_unit_zero (S := S512x1024) hz, View.ld_unit_zero (S := S1024x1024) hz]
theorem out0_5_eq (x0 : Vec F S512x1024 .f32) (x2 : Vec F S1024x1024 .f32) : out0_5 x0 x2 = k0_pay3 x0 x2 := by
  unfold out0_5
  rw [View.canon_unit_zero hz]
  simp only [View.ld_unit_zero (S := S512x1024) hz, View.ld_unit_zero (S := S1024x1024) hz]
theorem out0_6_eq (x0 : Vec F S512x1024 .f32) (x3 : Vec F S1024x1024 .f32) : out0_6 x0 x3 = k0_pay4 x0 x3 := by
  unfold out0_6
  rw [View.canon_unit_zero hz]
  simp only [View.ld_unit_zero (S := S512x1024) hz, View.ld_unit_zero (S := S1024x1024) hz]

/-! ## The body's triple -/

set_option maxHeartbeats 1000000 in
/-- The kernel body on whole staging memrefs, the four inputs' at read contents `x0 … x3` and the three outputs' at
    anything, runs to the continuation holding the inputs' as they were and each output's at its store's piece. -/
theorem sound_kernel0_pieces (c : Dev nD) (E : Set ℕ) (i : grid0.Coords)
    (arg1 : Memref sig .tc .vmem S512x1024 .f32) (harg1 : arg1.IsWhole) (arg2 : Memref sig .tc .vmem S1024x1024 .f32) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S512x1024 .f32) (harg5 : arg5.IsWhole) (arg6 : Memref sig .tc .vmem S512x1024 .f32) (harg6 : arg6.IsWhole)
    (arg7 : Memref sig .tc .vmem S512x1024 .bf16) (harg7 : arg7.IsWhole)
    (x0 : Vec F S512x1024 .f32) (x1 : Vec F S1024x1024 .f32) (x2 : Vec F S1024x1024 .f32) (x3 : Vec F S1024x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x2) ∗ owns (c : Thread nD τ) arg7 fullShare (out0_6 x0 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverB _)
  isplitl [H5]
  · iexists _; isplitr
    swap; · iexact H5
    ipureintro
    exact View.read_writes_eq_canon _ _ _ (coverB _)
  iexists _; isplitr
  swap; · iexact H6
  ipureintro
  exact View.read_writes_eq_canon _ _ _ (coverB _)

/-- The same with each output's buffer at the payload itself: the scaled query projection, the key projection and
    the truncated value projection of the block against the weights. -/
theorem sound_kernel0 (c : Dev nD) (E : Set ℕ) (i : grid0.Coords)
    (arg1 : Memref sig .tc .vmem S512x1024 .f32) (harg1 : arg1.IsWhole) (arg2 : Memref sig .tc .vmem S1024x1024 .f32) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S512x1024 .f32) (harg5 : arg5.IsWhole) (arg6 : Memref sig .tc .vmem S512x1024 .f32) (harg6 : arg6.IsWhole)
    (arg7 : Memref sig .tc .vmem S512x1024 .bf16) (harg7 : arg7.IsWhole)
    (x0 : Vec F S512x1024 .f32) (x1 : Vec F S1024x1024 .f32) (x2 : Vec F S1024x1024 .f32) (x3 : Vec F S1024x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay2 x0 x1) ∗ owns (c : Thread nD τ) arg6 fullShare (k0_pay3 x0 x2) ∗ owns (c : Thread nD τ) arg7 fullShare (k0_pay4 x0 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  rw [← out0_4_eq x0 x1, ← out0_5_eq x0 x2, ← out0_6_eq x0 x3]
  exact sound_kernel0_pieces c E i arg1 harg1 arg2 harg2 arg3 harg3 arg4 harg4 arg5 harg5 arg6 harg6 arg7 harg7 x0 x1 x2 x3 K

/-! ## The body obligation, at a generic point -/

/-- What the body is called with at point `t`: the invariant, the core's obligations, and each window's current
    staging buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
/-
  The flash-attention pallas_call, one grid point at a time. A point (b, qi, ki) holds a block of 1024 query rows,
  a block of 256 key rows and the matching 256 value rows; three scratch buffers carry, across the eight key
  blocks of a query block, the running row maximum m, the running denominator l and the running weighted sum acc.
  The first key block (ki = 0) resets them to (-inf, 0, 0) before the update; every block applies the update
    m' = max m (row maximum of the block's scores),  a = exp (m - m'),  p = exp (scores - m'),
    l' = a * l + row sums of p,   acc' = a * acc + p * values;
  the last key block (ki = 7) also stores acc' / l' into the output block.
  This module states that update as one function of the blocks and the scratch contents, proves that the kernel
  body performs it in each of the three situations (first, middle, last key block), and derives what the scratch
  buffers and the output block hold after every grid point.
-/
import proofs.«104834_j14302241096180_2_alg».proof.Proof.Gen.KernelIdeal.Launch
import proofs.«104834_j14302241096180_2_alg».proof.Proof.Gen.KernelIdeal.Skeleton
import proofs.«104834_j14302241096180_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The scratch state and its update -/

/-- What the three scratch buffers hold: the running maximum, the running denominator, the running weighted sum. -/
abbrev Scr (F : FTy → Type) : Type := Vec F S1024x1 .f32 × Vec F S1024x1 .f32 × Vec F S1024x1024 .f32

/-- The scratch contents the first key block starts from: -inf, 0, 0. -/
def scr0 : Scr F := (k1_pay4, k1_pay5, k1_pay6)

/-- One key block's update of the scratch contents, from the query, key and value blocks. -/
def upd (Qb : Vec F S1x1024x1024 .f32) (Kb : Vec F S1x256x1024 .f32) (Vb : Vec F S1x256x1024 .bf16) (s : Scr F) : Scr F :=
  (k1_pay2 (k1_pay9 Qb Kb s.1), k1_pay12 Qb Kb s.1 s.1 s.2.1,
    k1_pay1 (k1_pay7 Vb) (k1_pay11 Qb Kb s.1) (k1_pay13 Qb Kb s.1 s.1 s.2.2))

/-- The output block the last key block stores: the weighted sum over the denominator. -/
def outOf (s : Scr F) : Vec F S1x1024x1024 .f32 := k1_pay3 s.2.2 s.2.1

/-! ## The two branch conditions -/

/-- The first key block's reset is taken. -/
abbrev condA (i : grid1.Coords) : Prop := (Scalar.cmpi .ne (Scalar.extui (Scalar.cmpi .eq (BitVec.ofNat 32 (i 2).val) 0#32)) 0#32) = 1#1
/-- The last key block's store is taken. -/
abbrev condC (i : grid1.Coords) : Prop := k1_cond2 i = 1#1

/-- The reset is taken exactly at the points whose key-block coordinate is 0. -/
theorem hcondA : ∀ t : Fin cfg1.N, condA (grid1.coords t) ↔ t.val % 8 = 0 :=
  (by decide +kernel : ∀ t : Fin grid1.N, condA (grid1.coords t) ↔ t.val % 8 = 0)
/-- The store is taken exactly at the points whose key-block coordinate is 7. -/
theorem hcondC : ∀ t : Fin cfg1.N, condC (grid1.coords t) ↔ t.val % 8 = 7 :=
  (by decide +kernel : ∀ t : Fin grid1.N, condC (grid1.coords t) ↔ t.val % 8 = 7)

/-! ## Whole-buffer stores read back -/

theorem hz2 : (![0, 0] : Fin 2 → ℕ) = fun _ => 0 := by funext a; fin_cases a <;> rfl
theorem hz3 : (![0, 0, 0] : Fin 3 → ℕ) = fun _ => 0 := by funext a; fin_cases a <;> rfl

/-- A store through the whole-shape rectangle, made last, leaves its payload whatever was stored before. -/
theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The body on any staging memrefs -/

set_option maxHeartbeats 4000000 in
/-- A middle key block: the scratch buffers at s on entry are at upd … s on exit; the blocks and the output buffer
    are left as found. -/
theorem run_mid (c : Dev nD) (E : Set ℕ) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole)
    (hA : ¬condA i) (hC : ¬condC i)
    (Qb : Vec F S1x1024x1024 .f32) (Kb : Vec F S1x256x1024 .f32) (Vb : Vec F S1x256x1024 .bf16) (y : Vec F S1x1024x1024 .f32) (s : Scr F)
    (K : PUnit → sProp 𝕄) :
    iprop(owns (c : Thread nD τ) arg3 fullShare Qb ∗ owns (c : Thread nD τ) arg4 fullShare Kb ∗ owns (c : Thread nD τ) arg5 fullShare Vb
        ∗ owns (c : Thread nD τ) arg6 fullShare y
        ∗ owns (c : Thread nD τ) arg7 fullShare s.1 ∗ owns (c : Thread nD τ) arg8 fullShare s.2.1 ∗ owns (c : Thread nD τ) arg9 fullShare s.2.2
        ∗ (iprop(owns (c : Thread nD τ) arg3 fullShare Qb ∗ owns (c : Thread nD τ) arg4 fullShare Kb ∗ owns (c : Thread nD τ) arg5 fullShare Vb
            ∗ owns (c : Thread nD τ) arg6 fullShare y
            ∗ owns (c : Thread nD τ) arg7 fullShare (upd Qb Kb Vb s).1 ∗ owns (c : Thread nD τ) arg8 fullShare (upd Qb Kb Vb s).2.1
            ∗ owns (c : Thread nD τ) arg9 fullShare (upd Qb Kb Vb s).2.2) -∗ K ⟨⟩))
      ⊢ wp frame (wpE (defs₀ (F := F)) Variants.none c none) E (cc1_kernel i arg3 harg3 arg4 harg4 arg5 harg5 arg6 harg6 arg7 harg7 arg8 harg8 arg9 harg9) K := by
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6
  obtain rfl := harg7.eq_unread hf7; obtain rfl := harg8.eq_unread hf8; obtain rfl := harg9.eq_unread hf9
  sl_exec (disch := first | exact hA | exact hC)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_store_whole _ _ hz2 _ _ _).trans ?_
    simp only [View.readAt_eq_ld, Memref.IsWhole.read_unread, View.ld_unit_zero (S := S1024x1) hz2, View.ld_unit_zero (S := S1024x1024) hz2, View.ld_unit_zero (S := S1x1024x1024) hz3, View.ld_unit_zero (S := S1x256x1024) hz3]
    rfl
  isplitl [H8]
  · iexists _; isplitr
    swap; · iexact H8
    ipureintro
    refine (read_store_whole _ _ hz2 _ _ _).trans ?_
    simp only [View.readAt_eq_ld, Memref.IsWhole.read_unread, View.ld_unit_zero (S := S1024x1) hz2, View.ld_unit_zero (S := S1024x1024) hz2, View.ld_unit_zero (S := S1x1024x1024) hz3, View.ld_unit_zero (S := S1x256x1024) hz3]
    rfl
  · iexists _; isplitr
    swap; · iexact H9
    ipureintro
    refine (read_store_whole _ _ hz2 _ _ _).trans ?_
    simp only [View.readAt_eq_ld, Memref.IsWhole.read_unread, View.ld_unit_zero (S := S1024x1) hz2, View.ld_unit_zero (S := S1024x1024) hz2, View.ld_unit_zero (S := S1x1024x1024) hz3, View.ld_unit_zero (S := S1x256x1024) hz3]
    rfl

set_option maxHeartbeats 4000000 in
/-- The first key block: whatever the scratch buffers held, they are reset and then updated. -/
theorem run_first (c : Dev nD) (E : Set ℕ) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole)
    (hA : condA i) (hC : ¬condC i)
    (Qb : Vec F S1x1024x1024 .f32) (Kb : Vec F S1x256x1024 .f32) (Vb : Vec F S1x256x1024 .bf16) (y : Vec F S1x1024x1024 .f32)
    (K : PUnit → sProp 𝕄) :
    iprop(owns (c : Thread nD τ) arg3 fullShare Qb ∗ owns (c : Thread nD τ) arg4 fullShare Kb ∗ owns (c : Thread nD τ) arg5 fullShare Vb
        ∗ owns (c : Thread nD τ) arg6 fullShare y
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare Qb ∗ owns (c : Thread nD τ) arg4 fullShare Kb ∗ owns (c : Thread nD τ) arg5 fullShare Vb
            ∗ owns (c : Thread nD τ) arg6 fullShare y
            ∗ owns (c : Thread nD τ) arg7 fullShare (upd Qb Kb Vb scr0).1 ∗ owns (c : Thread nD τ) arg8 fullShare (upd Qb Kb Vb scr0).2.1
            ∗ owns (c : Thread nD τ) arg9 fullShare (upd Qb Kb Vb scr0).2.2) -∗ K ⟨⟩))
      ⊢ wp frame (wpE (defs₀ (F := F)) Variants.none c none) E (cc1_kernel i arg3 harg3 arg4 harg4 arg5 harg5 arg6 harg6 arg7 harg7 arg8 harg8 arg9 harg9) K := by
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg3.eq_unread hf3; obtain rfl := harg4.eq_unread hf4; obtain rfl := harg5.eq_unread hf5
  obtain rfl := harg6.eq_unread hf6
  sl_exec (disch := first | exact hA | exact hC)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_store_whole _ _ hz2 _ _ _).trans ?_
    simp only [View.readAt_eq_ld, Memref.IsWhole.read_unread, View.ld_unit_zero (S := S1024x1) hz2, View.ld_unit_zero (S := S1024x1024) hz2, View.ld_unit_zero (S := S1x1024x1024) hz3, View.ld_unit_zero (S := S1x256x1024) hz3, View.readCov_unit_zero (S := S1024x1) _ hz2, View.readCov_unit_zero (S := S1024x1024) _ hz2]
    rfl
  isplitl [H8]
  · iexists _; isplitr
    swap; · iexact H8
    ipureintro
    refine (read_store_whole _ _ hz2 _ _ _).trans ?_
    simp only [View.readAt_eq_ld, Memref.IsWhole.read_unread, View.ld_unit_zero (S := S1024x1) hz2, View.ld_unit_zero (S := S1024x1024) hz2, View.ld_unit_zero (S := S1x1024x1024) hz3, View.ld_unit_zero (S := S1x256x1024) hz3, View.readCov_unit_zero (S := S1024x1) _ hz2, View.readCov_unit_zero (S := S1024x1024) _ hz2]
    rfl
  · iexists _; isplitr
    swap; · iexact H9
    ipureintro
    refine (read_store_whole _ _ hz2 _ _ _).trans ?_
    simp only [View.readAt_eq_ld, Memref.IsWhole.read_unread, View.ld_unit_zero (S := S1024x1) hz2, View.ld_unit_zero (S := S1024x1024) hz2, View.ld_unit_zero (S := S1x1024x1024) hz3, View.ld_unit_zero (S := S1x256x1024) hz3, View.readCov_unit_zero (S := S1024x1) _ hz2, View.readCov_unit_zero (S := S1024x1024) _ hz2]
    rfl

set_option maxHeartbeats 4000000 in
/-- The last key block: the update, then the output buffer receives acc / l of the updated scratch contents. -/
theorem run_last (c : Dev nD) (E : Set ℕ) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole)
    (hA : ¬condA i) (hC : condC i)
    (Qb : Vec F S1x1024x1024 .f32) (Kb : Vec F S1x256x1024 .f32) (Vb : Vec F S1x256x1024 .bf16) (s : Scr F)
    (K : PUnit → sProp 𝕄) :
    iprop(owns (c : Thread nD τ) arg3 fullShare Qb ∗ owns (c : Thread nD τ) arg4 fullShare Kb ∗ owns (c : Thread nD τ) arg5 fullShare Vb
        ∗ (∃ d, owns (c : Thread nD τ) arg6 fullShare d)
        ∗ owns (c : Thread nD τ) arg7 fullShare s.1 ∗ owns (c : Thread nD τ) arg8 fullShare s.2.1 ∗ owns (c : Thread nD τ) arg9 fullShare s.2.2
        ∗ (iprop(owns (c : Thread nD τ) arg3 fullShare Qb ∗ owns (c : Thread nD τ) arg4 fullShare Kb ∗ owns (c : Thread nD τ) arg5 fullShare Vb
            ∗ owns (c : Thread nD τ) arg6 fullShare (outOf (upd Qb Kb Vb s))
            ∗ owns (c : Thread nD τ) arg7 fullShare (upd Qb Kb Vb s).1 ∗ owns (c : Thread nD τ) arg8 fullShare (upd Qb Kb Vb s).2.1
            ∗ owns (c : Thread nD τ) arg9 fullShare (upd Qb Kb Vb s).2.2) -∗ K ⟨⟩))
      ⊢ wp frame (wpE (defs₀ (F := F)) Variants.none c none) E (cc1_kernel i arg3 harg3 arg4 harg4 arg5 harg5 arg6 harg6 arg7 harg7 arg8 harg8 arg9 harg9) K := by
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg7.eq_unread hf7; obtain rfl := harg8.eq_unread hf8; obtain rfl := harg9.eq_unread hf9
  sl_exec (disch := first | exact hA | exact hC)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_store_whole _ _ hz3 _ _ _).trans ?_
    simp only [View.readAt_eq_ld, Memref.IsWhole.read_unread, View.ld_unit_zero (S := S1024x1) hz2, View.ld_unit_zero (S := S1024x1024) hz2, View.ld_unit_zero (S := S1x1024x1024) hz3, View.ld_unit_zero (S := S1x256x1024) hz3, View.readCov_unit_zero (S := S1024x1) _ hz2, View.readCov_unit_zero (S := S1024x1024) _ hz2]
    rfl
  isplitl [H7]
  · iexists _; isplitr
    swap; · iexact H7
    ipureintro
    refine (read_store_whole _ _ hz2 _ _ _).trans ?_
    simp only [View.readAt_eq_ld, Memref.IsWhole.read_unread, View.ld_unit_zero (S := S1024x1) hz2, View.ld_unit_zero (S := S1024x1024) hz2, View.ld_unit_zero (S := S1x1024x1024) hz3, View.ld_unit_zero (S := S1x256x1024) hz3, View.readCov_unit_zero (S := S1024x1) _ hz2, View.readCov_unit_zero (S := S1024x1024) _ hz2]
    rfl
  isplitl [H8]
  · iexists _; isplitr
    swap; · iexact H8
    ipureintro
    refine (read_store_whole _ _ hz2 _ _ _).trans ?_
    simp only [View.readAt_eq_ld, Memref.IsWhole.read_unread, View.ld_unit_zero (S := S1024x1) hz2, View.ld_unit_zero (S := S1024x1024) hz2, View.ld_unit_zero (S := S1x1024x1024) hz3, View.ld_unit_zero (S := S1x256x1024) hz3, View.readCov_unit_zero (S := S1024x1) _ hz2, View.readCov_unit_zero (S := S1024x1024) _ hz2]
    rfl
  · iexists _; isplitr
    swap; · iexact H9
    ipureintro
    refine (read_store_whole _ _ hz2 _ _ _).trans ?_
    simp only [View.readAt_eq_ld, Memref.IsWhole.read_unread, View.ld_unit_zero (S := S1024x1) hz2, View.ld_unit_zero (S := S1024x1024) hz2, View.ld_unit_zero (S := S1x1024x1024) hz3, View.ld_unit_zero (S := S1x256x1024) hz3, View.readCov_unit_zero (S := S1024x1) _ hz2, View.readCov_unit_zero (S := S1024x1024) _ hz2]
    rfl

/-! ## The windows' blocks, and what the scratch buffers hold after each point -/

section Region
-- the buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch contents after the point at position n: the update applied to the point's blocks, from the reset
    contents at a first key block and from what the point before left otherwise. -/
def scrAt1 (c : Dev nD) : (n : ℕ) → n < cfg1.N → Scr F
  | 0, hn => upd (iblk1 V c 0 ⟨0, hn⟩) (iblk1 V c 1 ⟨0, hn⟩) (iblk1 V c 2 ⟨0, hn⟩) scr0
  | n + 1, hn => upd (iblk1 V c 0 ⟨n + 1, hn⟩) (iblk1 V c 1 ⟨n + 1, hn⟩) (iblk1 V c 2 ⟨n + 1, hn⟩)
      (if (n + 1) % 8 = 0 then scr0 else scrAt1 c n (Nat.lt_of_succ_lt hn))

/-- At a first key block the update starts from the reset contents. -/
theorem scrAt1_first (c : Dev nD) (t : Fin cfg1.N) (h : t.val % 8 = 0) :
    scrAt1 V c t.val t.isLt = upd (iblk1 V c 0 t) (iblk1 V c 1 t) (iblk1 V c 2 t) scr0 := by
  obtain ⟨n, hn⟩ := t
  cases n with
  | zero => rfl
  | succ n => exact congrArg (upd _ _ _) (if_pos h)

/-- At any other key block it starts from what the point before left. -/
theorem scrAt1_next (c : Dev nD) (t : Fin cfg1.N) (h : ¬t.val % 8 = 0) :
    scrAt1 V c t.val t.isLt = upd (iblk1 V c 0 t) (iblk1 V c 1 t) (iblk1 V c 2 t)
      (scrAt1 V c (t.val - 1) (Nat.lt_of_le_of_lt (Nat.sub_le _ _) t.isLt)) := by
  obtain ⟨n, hn⟩ := t
  cases n with
  | zero => exact absurd (Nat.zero_mod _) h
  | succ n => exact congrArg (upd _ _ _) (if_neg h)

/-! ## The region invariant -/

/-- The three scratch buffers as whole memrefs. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2

/-- What the invariant holds besides the scratch buffers: the other pallas_call's staging buffers, each whole at
    some contents, and the generator register at some state. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ r, prngReg c r))

/-- The class invariant hands out the scratch buffers at some contents, -/
theorem PhiA1_open (c : Dev nD) :
    (Pipeline.ΦA spec1 c : sProp 𝕄) ⊢ iprop((∃ d, owns (c : Thread nD τ) scM1_0 fullShare d) ∗ (∃ d, owns (c : Thread nD τ) scM1_1 fullShare d)
      ∗ (∃ d, owns (c : Thread nD τ) scM1_2 fullShare d) ∗ rest1 c) := by
  unfold Pipeline.ΦA rest1; rw [scopedRest1_eq]; simp only [scM1_0, scM1_1, scM1_2, owns_whole]
  iintro ⟨⟨B0, B1, B2, B3, B4, B5, B6, B7, B8, B9, B10, S0, S1, S2⟩, Hr⟩
  isplitl [S0]; · iexact S0
  isplitl [S1]; · iexact S1
  isplitl [S2]; · iexact S2
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  iexact Hr

/-- and takes them back at any contents. -/
theorem PhiA1_close (c : Dev nD) :
    (iprop((∃ d, owns (c : Thread nD τ) scM1_0 fullShare d) ∗ (∃ d, owns (c : Thread nD τ) scM1_1 fullShare d)
      ∗ (∃ d, owns (c : Thread nD τ) scM1_2 fullShare d) ∗ rest1 c) : sProp 𝕄) ⊢ Pipeline.ΦA spec1 c := by
  unfold Pipeline.ΦA rest1; rw [scopedRest1_eq]; simp only [scM1_0, scM1_1, scM1_2, owns_whole]
  iintro ⟨S0, S1, S2, B0, B1, B2, B3, B4, B5, B6, B7, B8, B9, B10, Hr⟩
  isplitr [Hr]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [S0]; · iexact S0
    isplitl [S1]; · iexact S1
    iexact S2
  iexact Hr

/-- The invariant before position n: the class's before the first point; afterwards the scratch buffers at what the
    point before left in them, beside the rest. -/
def PhiS1 (c : Dev nD) : (n : ℕ) → n ≤ cfg1.N → sProp 𝕄
  | 0, _ => Pipeline.ΦA spec1 c
  | n + 1, hn => iprop(owns (c : Thread nD τ) scM1_0 fullShare (scrAt1 V c n hn).1 ∗ owns (c : Thread nD τ) scM1_1 fullShare (scrAt1 V c n hn).2.1
      ∗ owns (c : Thread nD τ) scM1_2 fullShare (scrAt1 V c n hn).2.2 ∗ rest1 c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (scrAt1 V c n hn).1 ∗ owns (c : Thread nD τ) scM1_1 fullShare (scrAt1 V c n hn).2.1
      ∗ owns (c : Thread nD τ) scM1_2 fullShare (scrAt1 V c n hn).2.2 ∗ rest1 c) := rfl

theorem PhiS1_pos (c : Dev nD) (n : ℕ) (h : n ≤ cfg1.N) (hz : n ≠ 0) :
    PhiS1 V c n h = iprop(owns (c : Thread nD τ) scM1_0 fullShare (scrAt1 V c (n - 1) (by omega)).1 ∗ owns (c : Thread nD τ) scM1_1 fullShare (scrAt1 V c (n - 1) (by omega)).2.1
      ∗ owns (c : Thread nD τ) scM1_2 fullShare (scrAt1 V c (n - 1) (by omega)).2.2 ∗ rest1 c) := by
  cases n with
  | zero => exact absurd rfl hz
  | succ n => rfl

/-- Before any point the invariant yields the scratch buffers at some contents beside the rest. -/
theorem PhiS1_any (c : Dev nD) (n : ℕ) (h : n ≤ cfg1.N) :
    PhiS1 V c n h ⊢ iprop((∃ d, owns (c : Thread nD τ) scM1_0 fullShare d) ∗ (∃ d, owns (c : Thread nD τ) scM1_1 fullShare d)
      ∗ (∃ d, owns (c : Thread nD τ) scM1_2 fullShare d) ∗ rest1 c) := by
  cases n with
  | zero => exact PhiA1_open c
  | succ n =>
    rw [PhiS1_succ]
    iintro ⟨S0, S1, S2, Hr⟩
    isplitl [S0]; · iexists _; iexact S0
    isplitl [S1]; · iexists _; iexact S1
    isplitl [S2]; · iexists _; iexact S2
    iexact Hr

/-! ## The pipeline's proof data -/

/-- The proof data of the flash-attention pipeline on core c: the arrays as the region finds them; after the body at
    point t each input's buffer at its block and the output's at acc / l of the scratch contents there (consulted only
    where the block is written back, at the last key block); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outOf (scrAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outOf (scrAt1 V c t.val t.isLt) := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key block the output window is idle and not written back. -/
theorem idleAt1_3 : ∀ t : Fin cfg1.N, ¬condC (grid1.coords t) → cfg1.idle 3 (grid1.coords t) = true := by decide +kernel
theorem noFlush1_3 : ∀ t : Fin cfg1.N, ¬condC (grid1.coords t) → (cfg1.win 3).flush t = false := by decide +kernel
/-- At the last key block it is live. -/
theorem liveAt1_3 : ∀ t : Fin cfg1.N, condC (grid1.coords t) → cfg1.idle 3 (grid1.coords t) = false := by decide +kernel

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the key-block coordinate says which of the three
    situations the point is in; the invariant hands the body the scratch buffers at what the point before left (at
    anything before a first key block) and takes them back at this point's contents; away from the last key block
    the output buffer is handed back as found, at the last it holds acc / l. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [PhiS1_castSucc V c t]
  have hN : t.val < 64 := lt_of_lt_of_eq t.isLt (show cfg1.N = 64 from N_1)
  by_cases h0 : t.val % 8 = 0
  · have hA : condA (grid1.coords t) := (hcondA t).mpr h0
    have hC : ¬condC (grid1.coords t) := fun h => by have := (hcondC t).mp h; omega
    rw [Dat.leavesExact_idle (dat1 V c) 3 t (idleAt1_3 t hC) (noFlush1_3 t hC)]
    rw [scrAt1_first V c t h0]
    iintro ⟨HΦ, Ho, ⟨%d0, H0⟩, ⟨%d1, H1⟩, ⟨%d2, H2⟩, ⟨%d3, H3⟩⟩
    ihave HΦ' := (PhiS1_any V c _ _) $$ HΦ
    icases HΦ' with ⟨S0, S1, S2, Hr⟩
    iapply (run_first c Set.univ (grid1.coords t) _ _ _ _ _ _ _ _ _ _ _ _ _ _ hA hC (iblk1 V c 0 t) (iblk1 V c 1 t) (iblk1 V c 2 t) ((dat1 V c).before 3 t d3) _)
    isplitl [H0]; · iexact H0
    isplitl [H1]; · iexact H1
    isplitl [H2]; · iexact H2
    isplitl [H3]; · iexact H3
    isplitl [S0]; · iexact S0
    isplitl [S1]; · iexact S1
    isplitl [S2]; · iexact S2
    iintro ⟨H0, H1, H2, H3, S0, S1, S2⟩
    isplitl [S0 S1 S2 Hr]
    · isplitl [S0]; · iexact S0
      isplitl [S1]; · iexact S1
      isplitl [S2]; · iexact S2
      iexact Hr
    isplitl [Ho]; · iexact Ho
    isplitl [H0]; · iexact H0
    isplitl [H1]; · iexact H1
    isplitl [H2]; · iexact H2
    iexists _; iexact H3

  · have hA : ¬condA (grid1.coords t) := fun h => h0 ((hcondA t).mp h)
    have hz : t.val ≠ 0 := fun e => h0 (by rw [e])
    rw [PhiS1_pos V c _ _ hz, scrAt1_next V c t h0]
    by_cases h7 : t.val % 8 = 7
    · have hC : condC (grid1.coords t) := (hcondC t).mpr h7
      rw [show (dat1 V c).leavesExact 3 t = owns (c : Thread nD τ) (st1_3 t) fullShare ((dat1 V c).after 3 t) from by
        unfold Dat.leavesExact; rw [liveAt1_3 t hC], after1_3, scrAt1_next V c t h0]
      iintro ⟨⟨S0, S1, S2, Hr⟩, Ho, ⟨%d0, H0⟩, ⟨%d1, H1⟩, ⟨%d2, H2⟩, ⟨%d3, H3⟩⟩
      iapply (run_last c Set.univ (grid1.coords t) _ _ _ _ _ _ _ _ _ _ _ _ _ _ hA hC (iblk1 V c 0 t) (iblk1 V c 1 t) (iblk1 V c 2 t) (scrAt1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [S0]; · iexact S0
      isplitl [S1]; · iexact S1
      isplitl [S2]; · iexact S2
      iintro ⟨H0, H1, H2, H3, S0, S1, S2⟩
      isplitl [S0 S1 S2 Hr]
      · isplitl [S0]; · iexact S0
        isplitl [S1]; · iexact S1
        isplitl [S2]; · iexact S2
        iexact Hr
      isplitl [Ho]; · iexact Ho
      isplitl [H0]; · iexact H0
      isplitl [H1]; · iexact H1
      isplitl [H2]; · iexact H2
      iexact H3

    · have hC : ¬condC (grid1.coords t) := fun h => h7 ((hcondC t).mp h)
      rw [Dat.leavesExact_idle (dat1 V c) 3 t (idleAt1_3 t hC) (noFlush1_3 t hC)]
      iintro ⟨⟨S0, S1, S2, Hr⟩, Ho, ⟨%d0, H0⟩, ⟨%d1, H1⟩, ⟨%d2, H2⟩, ⟨%d3, H3⟩⟩
      iapply (run_mid c Set.univ (grid1.coords t) _ _ _ _ _ _ _ _ _ _ _ _ _ _ hA hC (iblk1 V c 0 t) (iblk1 V c 1 t) (iblk1 V c 2 t) ((dat1 V c).before 3 t d3) (scrAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [S0]; · iexact S0
      isplitl [S1]; · iexact S1
      isplitl [S2]; · iexact S2
      iintro ⟨H0, H1, H2, H3, S0, S1, S2⟩
      isplitl [S0 S1 S2 Hr]
      · isplitl [S0]; · iexact S0
        isplitl [S1]; · iexact S1
        isplitl [S2]; · iexact S2
        iexact Hr
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the scratch buffers' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  exact (PhiS1_any V c _ _).trans (PhiA1_close c)

end Region

end Cert.KernelIdeal.Hand

end
-- ==== Proof.Run.lean ====
/-
  The whole program as a chain of five segments — a reshape of x into rows, the projection pallas_call, three
  reshapes of its results back to [4, 2048, 1024], the flash-attention pallas_call, the concatenation of x with its
  result — and the buffer contents at every boundary between them, folded from the launch memory: a stretch of host
  operations applies them; a pallas_call leaves in each of its arrays what its write-backs leave and every other
  buffer as entered. Every weakly fair execution terminates, and every final memory holds each unscoped buffer at
  the last boundary's contents.
-/
import proofs.«104834_j14302241096180_2_alg».proof.Proof.Region0
import proofs.«104834_j14302241096180_2_alg».proof.Proof.Region1
import proofs.«104834_j14302241096180_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the reshape of x into rows: the projection pallas_call's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection pallas_call. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three reshapes back: the flash-attention pallas_call's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the flash-attention pallas_call. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the concatenation: the end. -/
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owing part. -/
abbrev Tₙ (c : Dev nD) : sProp 𝕄 := iprop(StableHlo.held (c : Thread nD τ) (Pipeline.ucRefs τ sig) (W5 m ρ c) ∗ ∃ r, prngReg c r)

/-! ## The pallas_calls as segments -/

set_option backward.isDefEq.respectTransparency.types false in
/-- The pallas_call 0 over the thread state: entered with every unscoped buffer at the contents before it, left with
    them at the contents after it; its arrays split out of the unscoped buffers and put back at what the write-backs
    leave; the generator register into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pallas_call 1 over the thread state: entered with every unscoped buffer at the contents before it, left with
    them at the contents after it; its arrays split out of the unscoped buffers and put back at what the write-backs
    leave; the generator register into the invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) (Val := Elt F) spec1 c) : sProp 𝕄) ⊢ Pipeline.ΦA spec1 c := by
      unfold Pipeline.ΦA
      iintro ⟨Hp, -, Hr⟩
      isplitl [Hr]; · iexact Hr
      iexact Hp
    exact h1.trans (hin1 (V3 m ρ) c)
  hout c := by
    rw [Pipeline.ownSems0_none]
    have h2 : (Pipeline.ΦA spec1 c : sProp 𝕄) ⊢ iprop((∃ r, prngReg c r) ∗ emp
        ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (V3 m ρ) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- Every weakly fair execution of the program from memory m with zero counters terminates, nothing faulting, and every
    final memory holds every unscoped buffer at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄) ⊢ _
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c _ (mem_uc b hb))

/-! ## The arguments end as launched -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- x is no array of either pallas_call and no host operation writes it. -/
theorem W5_main_arg0 (c : Dev nD) : W5 m ρ c (Proc.devRef .tc main_arg0) = m ((c : Thread nD τ).loc main_arg0) :=
  (W5_of m ρ c main_arg0 (by decide)).trans <| (W4_of_ne m ρ c main_arg0 (by decide)).trans <| (W3_of m ρ c main_arg0 (by decide)).trans <|
    (W2_of_ne m ρ c main_arg0 (by decide)).trans <| (W1_of m ρ c main_arg0 (by decide)).trans rfl
/-- x before the flash-attention pallas_call's exit, the same way. -/
theorem W4_main_arg0 (c : Dev nD) : W4 m ρ c (Proc.devRef .tc main_arg0) = m ((c : Thread nD τ).loc main_arg0) :=
  (W4_of_ne m ρ c main_arg0 (by decide)).trans <| (W3_of m ρ c main_arg0 (by decide)).trans <|
    (W2_of_ne m ρ c main_arg0 (by decide)).trans <| (W1_of m ρ c main_arg0 (by decide)).trans rfl
/-- A weight is an input array of the projection pallas_call, which leaves it as entered. -/
theorem W2_main_arg1 (c : Dev nD) : W2 m ρ c (Proc.devRef .tc main_arg1) = m ((c : Thread nD τ).loc main_arg1) :=
  (W2_arr m ρ c 1).trans <| ((dat0 (V1 m ρ) c).arrAt_in 1 rfl _).trans <| (A_eq0 (V1 m ρ) c 1).trans <| (W1_of m ρ c main_arg1 (by decide)).trans rfl
theorem W2_main_arg2 (c : Dev nD) : W2 m ρ c (Proc.devRef .tc main_arg2) = m ((c : Thread nD τ).loc main_arg2) :=
  (W2_arr m ρ c 2).trans <| ((dat0 (V1 m ρ) c).arrAt_in 2 rfl _).trans <| (A_eq0 (V1 m ρ) c 2).trans <| (W1_of m ρ c main_arg2 (by decide)).trans rfl
theorem W2_main_arg3 (c : Dev nD) : W2 m ρ c (Proc.devRef .tc main_arg3) = m ((c : Thread nD τ).loc main_arg3) :=
  (W2_arr m ρ c 3).trans <| ((dat0 (V1 m ρ) c).arrAt_in 3 rfl _).trans <| (A_eq0 (V1 m ρ) c 3).trans <| (W1_of m ρ c main_arg3 (by decide)).trans rfl
theorem W5_main_arg1 (c : Dev nD) : W5 m ρ c (Proc.devRef .tc main_arg1) = m ((c : Thread nD τ).loc main_arg1) :=
  (W5_of m ρ c main_arg1 (by decide)).trans <| (W4_of_ne m ρ c main_arg1 (by decide)).trans <| (W3_of m ρ c main_arg1 (by decide)).trans <| W2_main_arg1 m ρ c
theorem W5_main_arg2 (c : Dev nD) : W5 m ρ c (Proc.devRef .tc main_arg2) = m ((c : Thread nD τ).loc main_arg2) :=
  (W5_of m ρ c main_arg2 (by decide)).trans <| (W4_of_ne m ρ c main_arg2 (by decide)).trans <| (W3_of m ρ c main_arg2 (by decide)).trans <| W2_main_arg2 m ρ c
theorem W5_main_arg3 (c : Dev nD) : W5 m ρ c (Proc.devRef .tc main_arg3) = m ((c : Thread nD τ).loc main_arg3) :=
  (W5_of m ρ c main_arg3 (by decide)).trans <| (W4_of_ne m ρ c main_arg3 (by decide)).trans <| (W3_of m ρ c main_arg3 (by decide)).trans <| W2_main_arg3 m ρ c

/-- The frame: every weakly fair execution terminates and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c main_arg0 (by decide)).trans (W5_main_arg0 m ρ c), (h c main_arg1 (by decide)).trans (W5_main_arg1 m ρ c),
     (h c main_arg2 (by decide)).trans (W5_main_arg2 m ρ c), (h c main_arg3 (by decide)).trans (W5_main_arg3 m ρ c)⟩) (run_all m ρ)

end Cert.KernelIdeal.Hand

end
-- ==== Proof.Region0K.lean ====
import proofs.«104834_j14302241096180_2_alg».proof.Proof.Gen.Kernel.Launch
import proofs.«104834_j14302241096180_2_alg».proof.Proof.Gen.Kernel.Skeleton
import proofs.«104834_j14302241096180_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-! # The projection kernel's region: proof data and body obligation

The first pallas_call of the kernel program runs the projection kernel on a grid of 16 points. At each point the
pipeline hands the body a block of 512 rows of `x` and the three weight matrices whole, and the body writes the
three projected blocks (the scaled query block, the key block, and the value block truncated to bf16). This module
states, at an arbitrary valuation `V` of the core's buffers at region entry, what every window's staging buffer
holds after the body at each point, and proves the body's separation-logic triple against it. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array at the region-entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The input windows' buffers when the body is called -/

/-- Input window 0's current staging buffer holds its block at every point, whether the pipeline fetched it there
    or not (unfetched, the block index has not moved), for any proof data whose array is the region-entry one and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there
    or not (unfetched, the block index has not moved), for any proof data whose array is the region-entry one and whose
    body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there
    or not (unfetched, the block index has not moved), for any proof data whose array is the region-entry one and whose
    body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the pipeline fetched it there
    or not (unfetched, the block index has not moved), for any proof data whose array is the region-entry one and whose
    body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the projection pipeline on core `c`: the arrays at the region-entry contents; after the body at
    point `t` each input's buffer still at its block, and the three outputs' buffers at the scaled query projection,
    the key projection and the truncated value projection of the point's block of `x` against the respective weight;
    the invariant is the class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay2 (iblk0 V c 0 t) (iblk0 V c 1 t)
    | ⟨5, _⟩ => k0_pay3 (iblk0 V c 0 t) (iblk0 V c 2 t)
    | ⟨6, _⟩ => k0_pay4 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay2 (iblk0 V c 0 t) (iblk0 V c 1 t) := by dsimp only [dat0]
theorem after0_5 (c : Dev nD) (t : Fin cfg0.N) : (dat0 V c).after 5 t = k0_pay3 (iblk0 V c 0 t) (iblk0 V c 2 t) := by dsimp only [dat0]
theorem after0_6 (c : Dev nD) (t : Fin cfg0.N) : (dat0 V c).after 6 t = k0_pay4 (iblk0 V c 0 t) (iblk0 V c 3 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body's accesses -/

/-- The whole block of 512 rows, as the rectangle the body loads and stores through. -/
abbrev rB : Rect S512x1024 := Rect.unit (s := S512x1024) ![0, 0] S512x1024.size inb_S512x1024_S512x1024_0_0
/-- The whole weight matrix, as the rectangle the body loads through. -/
abbrev rW : Rect S1024x1024 := Rect.unit (s := S1024x1024) ![0, 0] S1024x1024.size inb_S1024x1024_S1024x1024_0_0

/-- The rectangles' offsets are zero. -/
theorem hz : (![0, 0] : Fin 2 → Nat) = fun _ => 0 := funext fun a => by fin_cases a <;> rfl

/-- One store through the whole block covers it. -/
theorem coverB {e : EltTy} (p0 : S512x1024.Idx → Elt F e) (y : S512x1024.Idx) :
    ∃ pc ∈ ([⟨rB, p0⟩] : List (View.Piece (Elt F) S512x1024 e)), y ∈ pc.1.set :=
  ⟨_, List.mem_singleton_self _, View.mem_set_unit_zero hz inb_S512x1024_S512x1024_0_0 y⟩

/-! ## What the body leaves in each output window's buffer -/

/-- The query window's buffer after the body: its one store as a piece. -/
def out0_4 (x0 : Vec F S512x1024 .f32) (x1 : Vec F S1024x1024 .f32) : Vec F S512x1024 .f32 :=
  View.canon [⟨rB, k0_pay2 (View.ld x0 rB) (View.ld x1 rW)⟩]
/-- The key window's. -/
def out0_5 (x0 : Vec F S512x1024 .f32) (x2 : Vec F S1024x1024 .f32) : Vec F S512x1024 .f32 :=
  View.canon [⟨rB, k0_pay3 (View.ld x0 rB) (View.ld x2 rW)⟩]
/-- The value window's. -/
def out0_6 (x0 : Vec F S512x1024 .f32) (x3 : Vec F S1024x1024 .f32) : Vec F S512x1024 .bf16 :=
  View.canon [⟨rB, k0_pay4 (View.ld x0 rB) (View.ld x3 rW)⟩]

/-- A whole-buffer store of a payload of whole-buffer loads leaves the payload of the buffers' contents. -/
theorem out0_4_eq (x0 : Vec F S512x1024 .f32) (x1 : Vec F S1024x1024 .f32) : out0_4 x0 x1 = k0_pay2 x0 x1 := by
  unfold out0_4
  rw [View.canon_unit_zero hz]
  simp only [View.ld_unit_zero (S := S512x1024) hz, View.ld_unit_zero (S := S1024x1024) hz]
theorem out0_5_eq (x0 : Vec F S512x1024 .f32) (x2 : Vec F S1024x1024 .f32) : out0_5 x0 x2 = k0_pay3 x0 x2 := by
  unfold out0_5
  rw [View.canon_unit_zero hz]
  simp only [View.ld_unit_zero (S := S512x1024) hz, View.ld_unit_zero (S := S1024x1024) hz]
theorem out0_6_eq (x0 : Vec F S512x1024 .f32) (x3 : Vec F S1024x1024 .f32) : out0_6 x0 x3 = k0_pay4 x0 x3 := by
  unfold out0_6
  rw [View.canon_unit_zero hz]
  simp only [View.ld_unit_zero (S := S512x1024) hz, View.ld_unit_zero (S := S1024x1024) hz]

/-! ## The body's triple -/

set_option maxHeartbeats 1000000 in
/-- The kernel body on whole staging memrefs, the four inputs' at read contents `x0 … x3` and the three outputs' at
    anything, runs to the continuation holding the inputs' as they were and each output's at its store's piece. -/
theorem sound_kernel0_pieces (c : Dev nD) (E : Set ℕ) (i : grid0.Coords)
    (arg1 : Memref sig .tc .vmem S512x1024 .f32) (harg1 : arg1.IsWhole) (arg2 : Memref sig .tc .vmem S1024x1024 .f32) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S512x1024 .f32) (harg5 : arg5.IsWhole) (arg6 : Memref sig .tc .vmem S512x1024 .f32) (harg6 : arg6.IsWhole)
    (arg7 : Memref sig .tc .vmem S512x1024 .bf16) (harg7 : arg7.IsWhole)
    (x0 : Vec F S512x1024 .f32) (x1 : Vec F S1024x1024 .f32) (x2 : Vec F S1024x1024 .f32) (x3 : Vec F S1024x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x2) ∗ owns (c : Thread nD τ) arg7 fullShare (out0_6 x0 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverB _)
  isplitl [H5]
  · iexists _; isplitr
    swap; · iexact H5
    ipureintro
    exact View.read_writes_eq_canon _ _ _ (coverB _)
  iexists _; isplitr
  swap; · iexact H6
  ipureintro
  exact View.read_writes_eq_canon _ _ _ (coverB _)

/-- The same with each output's buffer at the payload itself: the scaled query projection, the key projection and
    the truncated value projection of the block against the weights. -/
theorem sound_kernel0 (c : Dev nD) (E : Set ℕ) (i : grid0.Coords)
    (arg1 : Memref sig .tc .vmem S512x1024 .f32) (harg1 : arg1.IsWhole) (arg2 : Memref sig .tc .vmem S1024x1024 .f32) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S512x1024 .f32) (harg5 : arg5.IsWhole) (arg6 : Memref sig .tc .vmem S512x1024 .f32) (harg6 : arg6.IsWhole)
    (arg7 : Memref sig .tc .vmem S512x1024 .bf16) (harg7 : arg7.IsWhole)
    (x0 : Vec F S512x1024 .f32) (x1 : Vec F S1024x1024 .f32) (x2 : Vec F S1024x1024 .f32) (x3 : Vec F S1024x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay2 x0 x1) ∗ owns (c : Thread nD τ) arg6 fullShare (k0_pay3 x0 x2) ∗ owns (c : Thread nD τ) arg7 fullShare (k0_pay4 x0 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  rw [← out0_4_eq x0 x1, ← out0_5_eq x0 x2, ← out0_6_eq x0 x3]
  exact sound_kernel0_pieces c E i arg1 harg1 arg2 harg2 arg3 harg3 arg4 harg4 arg5 harg5 arg6 harg6 arg7 harg7 x0 x1 x2 x3 K

/-! ## The body obligation, at a generic point -/

/-- What the body is called with at point `t`: the invariant, the core's obligations, and each window's current
    staging buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Region1K.lean ====
/-
  The flash-attention pallas_call, one grid point at a time. A point (b, qi, ki) holds a block of 1024 query rows,
  a block of 256 key rows and the matching 256 value rows; three scratch buffers carry, across the eight key
  blocks of a query block, the running row maximum m, the running denominator l and the running weighted sum acc.
  The first key block (ki = 0) resets them to (-inf, 0, 0) before the update; every block applies the update
    m' = max m (row maximum of the block's scores),  a = exp (m - m'),  p = exp (scores - m'),
    l' = a * l + row sums of p,   acc' = a * acc + p * values;
  the last key block (ki = 7) also stores acc' / l' into the output block.
  This module states that update as one function of the blocks and the scratch contents, proves that the kernel
  body performs it in each of the three situations (first, middle, last key block), and derives what the scratch
  buffers and the output block hold after every grid point.
-/
import proofs.«104834_j14302241096180_2_alg».proof.Proof.Gen.Kernel.Launch
import proofs.«104834_j14302241096180_2_alg».proof.Proof.Gen.Kernel.Skeleton
import proofs.«104834_j14302241096180_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The scratch state and its update -/

/-- What the three scratch buffers hold: the running maximum, the running denominator, the running weighted sum. -/
abbrev Scr (F : FTy → Type) : Type := Vec F S1024x1 .f32 × Vec F S1024x1 .f32 × Vec F S1024x1024 .f32

/-- The scratch contents the first key block starts from: -inf, 0, 0. -/
def scr0 : Scr F := (k1_pay4, k1_pay5, k1_pay6)

/-- One key block's update of the scratch contents, from the query, key and value blocks. -/
def upd (Qb : Vec F S1x1024x1024 .f32) (Kb : Vec F S1x256x1024 .f32) (Vb : Vec F S1x256x1024 .bf16) (s : Scr F) : Scr F :=
  (k1_pay2 (k1_pay9 Qb Kb s.1), k1_pay12 Qb Kb s.1 s.1 s.2.1,
    k1_pay1 (k1_pay7 Vb) (k1_pay11 Qb Kb s.1) (k1_pay13 Qb Kb s.1 s.1 s.2.2))

/-- The output block the last key block stores: the weighted sum over the denominator. -/
def outOf (s : Scr F) : Vec F S1x1024x1024 .f32 := k1_pay3 s.2.2 s.2.1

/-! ## The two branch conditions -/

/-- The first key block's reset is taken. -/
abbrev condA (i : grid1.Coords) : Prop := (Scalar.cmpi .ne (Scalar.extui (Scalar.cmpi .eq (BitVec.ofNat 32 (i 2).val) 0#32)) 0#32) = 1#1
/-- The last key block's store is taken. -/
abbrev condC (i : grid1.Coords) : Prop := k1_cond2 i = 1#1

/-- The reset is taken exactly at the points whose key-block coordinate is 0. -/
theorem hcondA : ∀ t : Fin cfg1.N, condA (grid1.coords t) ↔ t.val % 8 = 0 :=
  (by decide +kernel : ∀ t : Fin grid1.N, condA (grid1.coords t) ↔ t.val % 8 = 0)
/-- The store is taken exactly at the points whose key-block coordinate is 7. -/
theorem hcondC : ∀ t : Fin cfg1.N, condC (grid1.coords t) ↔ t.val % 8 = 7 :=
  (by decide +kernel : ∀ t : Fin grid1.N, condC (grid1.coords t) ↔ t.val % 8 = 7)

/-! ## Whole-buffer stores read back -/

theorem hz2 : (![0, 0] : Fin 2 → ℕ) = fun _ => 0 := by funext a; fin_cases a <;> rfl
theorem hz3 : (![0, 0, 0] : Fin 3 → ℕ) = fun _ => 0 := by funext a; fin_cases a <;> rfl

/-- A store through the whole-shape rectangle, made last, leaves its payload whatever was stored before. -/
theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The body on any staging memrefs -/

set_option maxHeartbeats 4000000 in
/-- A middle key block: the scratch buffers at s on entry are at upd … s on exit; the blocks and the output buffer
    are left as found. -/
theorem run_mid (c : Dev nD) (E : Set ℕ) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole)
    (hA : ¬condA i) (hC : ¬condC i)
    (Qb : Vec F S1x1024x1024 .f32) (Kb : Vec F S1x256x1024 .f32) (Vb : Vec F S1x256x1024 .bf16) (y : Vec F S1x1024x1024 .f32) (s : Scr F)
    (K : PUnit → sProp 𝕄) :
    iprop(owns (c : Thread nD τ) arg3 fullShare Qb ∗ owns (c : Thread nD τ) arg4 fullShare Kb ∗ owns (c : Thread nD τ) arg5 fullShare Vb
        ∗ owns (c : Thread nD τ) arg6 fullShare y
        ∗ owns (c : Thread nD τ) arg7 fullShare s.1 ∗ owns (c : Thread nD τ) arg8 fullShare s.2.1 ∗ owns (c : Thread nD τ) arg9 fullShare s.2.2
        ∗ (iprop(owns (c : Thread nD τ) arg3 fullShare Qb ∗ owns (c : Thread nD τ) arg4 fullShare Kb ∗ owns (c : Thread nD τ) arg5 fullShare Vb
            ∗ owns (c : Thread nD τ) arg6 fullShare y
            ∗ owns (c : Thread nD τ) arg7 fullShare (upd Qb Kb Vb s).1 ∗ owns (c : Thread nD τ) arg8 fullShare (upd Qb Kb Vb s).2.1
            ∗ owns (c : Thread nD τ) arg9 fullShare (upd Qb Kb Vb s).2.2) -∗ K ⟨⟩))
      ⊢ wp frame (wpE (defs₀ (F := F)) Variants.none c none) E (cc1_kernel i arg3 harg3 arg4 harg4 arg5 harg5 arg6 harg6 arg7 harg7 arg8 harg8 arg9 harg9) K := by
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6
  obtain rfl := harg7.eq_unread hf7; obtain rfl := harg8.eq_unread hf8; obtain rfl := harg9.eq_unread hf9
  sl_exec (disch := first | exact hA | exact hC)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_store_whole _ _ hz2 _ _ _).trans ?_
    simp only [View.readAt_eq_ld, Memref.IsWhole.read_unread, View.ld_unit_zero (S := S1024x1) hz2, View.ld_unit_zero (S := S1024x1024) hz2, View.ld_unit_zero (S := S1x1024x1024) hz3, View.ld_unit_zero (S := S1x256x1024) hz3]
    rfl
  isplitl [H8]
  · iexists _; isplitr
    swap; · iexact H8
    ipureintro
    refine (read_store_whole _ _ hz2 _ _ _).trans ?_
    simp only [View.readAt_eq_ld, Memref.IsWhole.read_unread, View.ld_unit_zero (S := S1024x1) hz2, View.ld_unit_zero (S := S1024x1024) hz2, View.ld_unit_zero (S := S1x1024x1024) hz3, View.ld_unit_zero (S := S1x256x1024) hz3]
    rfl
  · iexists _; isplitr
    swap; · iexact H9
    ipureintro
    refine (read_store_whole _ _ hz2 _ _ _).trans ?_
    simp only [View.readAt_eq_ld, Memref.IsWhole.read_unread, View.ld_unit_zero (S := S1024x1) hz2, View.ld_unit_zero (S := S1024x1024) hz2, View.ld_unit_zero (S := S1x1024x1024) hz3, View.ld_unit_zero (S := S1x256x1024) hz3]
    rfl

set_option maxHeartbeats 4000000 in
/-- The first key block: whatever the scratch buffers held, they are reset and then updated. -/
theorem run_first (c : Dev nD) (E : Set ℕ) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole)
    (hA : condA i) (hC : ¬condC i)
    (Qb : Vec F S1x1024x1024 .f32) (Kb : Vec F S1x256x1024 .f32) (Vb : Vec F S1x256x1024 .bf16) (y : Vec F S1x1024x1024 .f32)
    (K : PUnit → sProp 𝕄) :
    iprop(owns (c : Thread nD τ) arg3 fullShare Qb ∗ owns (c : Thread nD τ) arg4 fullShare Kb ∗ owns (c : Thread nD τ) arg5 fullShare Vb
        ∗ owns (c : Thread nD τ) arg6 fullShare y
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare Qb ∗ owns (c : Thread nD τ) arg4 fullShare Kb ∗ owns (c : Thread nD τ) arg5 fullShare Vb
            ∗ owns (c : Thread nD τ) arg6 fullShare y
            ∗ owns (c : Thread nD τ) arg7 fullShare (upd Qb Kb Vb scr0).1 ∗ owns (c : Thread nD τ) arg8 fullShare (upd Qb Kb Vb scr0).2.1
            ∗ owns (c : Thread nD τ) arg9 fullShare (upd Qb Kb Vb scr0).2.2) -∗ K ⟨⟩))
      ⊢ wp frame (wpE (defs₀ (F := F)) Variants.none c none) E (cc1_kernel i arg3 harg3 arg4 harg4 arg5 harg5 arg6 harg6 arg7 harg7 arg8 harg8 arg9 harg9) K := by
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg3.eq_unread hf3; obtain rfl := harg4.eq_unread hf4; obtain rfl := harg5.eq_unread hf5
  obtain rfl := harg6.eq_unread hf6
  sl_exec (disch := first | exact hA | exact hC)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_store_whole _ _ hz2 _ _ _).trans ?_
    simp only [View.readAt_eq_ld, Memref.IsWhole.read_unread, View.ld_unit_zero (S := S1024x1) hz2, View.ld_unit_zero (S := S1024x1024) hz2, View.ld_unit_zero (S := S1x1024x1024) hz3, View.ld_unit_zero (S := S1x256x1024) hz3, View.readCov_unit_zero (S := S1024x1) _ hz2, View.readCov_unit_zero (S := S1024x1024) _ hz2]
    rfl
  isplitl [H8]
  · iexists _; isplitr
    swap; · iexact H8
    ipureintro
    refine (read_store_whole _ _ hz2 _ _ _).trans ?_
    simp only [View.readAt_eq_ld, Memref.IsWhole.read_unread, View.ld_unit_zero (S := S1024x1) hz2, View.ld_unit_zero (S := S1024x1024) hz2, View.ld_unit_zero (S := S1x1024x1024) hz3, View.ld_unit_zero (S := S1x256x1024) hz3, View.readCov_unit_zero (S := S1024x1) _ hz2, View.readCov_unit_zero (S := S1024x1024) _ hz2]
    rfl
  · iexists _; isplitr
    swap; · iexact H9
    ipureintro
    refine (read_store_whole _ _ hz2 _ _ _).trans ?_
    simp only [View.readAt_eq_ld, Memref.IsWhole.read_unread, View.ld_unit_zero (S := S1024x1) hz2, View.ld_unit_zero (S := S1024x1024) hz2, View.ld_unit_zero (S := S1x1024x1024) hz3, View.ld_unit_zero (S := S1x256x1024) hz3, View.readCov_unit_zero (S := S1024x1) _ hz2, View.readCov_unit_zero (S := S1024x1024) _ hz2]
    rfl

set_option maxHeartbeats 4000000 in
/-- The last key block: the update, then the output buffer receives acc / l of the updated scratch contents. -/
theorem run_last (c : Dev nD) (E : Set ℕ) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole)
    (hA : ¬condA i) (hC : condC i)
    (Qb : Vec F S1x1024x1024 .f32) (Kb : Vec F S1x256x1024 .f32) (Vb : Vec F S1x256x1024 .bf16) (s : Scr F)
    (K : PUnit → sProp 𝕄) :
    iprop(owns (c : Thread nD τ) arg3 fullShare Qb ∗ owns (c : Thread nD τ) arg4 fullShare Kb ∗ owns (c : Thread nD τ) arg5 fullShare Vb
        ∗ (∃ d, owns (c : Thread nD τ) arg6 fullShare d)
        ∗ owns (c : Thread nD τ) arg7 fullShare s.1 ∗ owns (c : Thread nD τ) arg8 fullShare s.2.1 ∗ owns (c : Thread nD τ) arg9 fullShare s.2.2
        ∗ (iprop(owns (c : Thread nD τ) arg3 fullShare Qb ∗ owns (c : Thread nD τ) arg4 fullShare Kb ∗ owns (c : Thread nD τ) arg5 fullShare Vb
            ∗ owns (c : Thread nD τ) arg6 fullShare (outOf (upd Qb Kb Vb s))
            ∗ owns (c : Thread nD τ) arg7 fullShare (upd Qb Kb Vb s).1 ∗ owns (c : Thread nD τ) arg8 fullShare (upd Qb Kb Vb s).2.1
            ∗ owns (c : Thread nD τ) arg9 fullShare (upd Qb Kb Vb s).2.2) -∗ K ⟨⟩))
      ⊢ wp frame (wpE (defs₀ (F := F)) Variants.none c none) E (cc1_kernel i arg3 harg3 arg4 harg4 arg5 harg5 arg6 harg6 arg7 harg7 arg8 harg8 arg9 harg9) K := by
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg7.eq_unread hf7; obtain rfl := harg8.eq_unread hf8; obtain rfl := harg9.eq_unread hf9
  sl_exec (disch := first | exact hA | exact hC)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_store_whole _ _ hz3 _ _ _).trans ?_
    simp only [View.readAt_eq_ld, Memref.IsWhole.read_unread, View.ld_unit_zero (S := S1024x1) hz2, View.ld_unit_zero (S := S1024x1024) hz2, View.ld_unit_zero (S := S1x1024x1024) hz3, View.ld_unit_zero (S := S1x256x1024) hz3, View.readCov_unit_zero (S := S1024x1) _ hz2, View.readCov_unit_zero (S := S1024x1024) _ hz2]
    rfl
  isplitl [H7]
  · iexists _; isplitr
    swap; · iexact H7
    ipureintro
    refine (read_store_whole _ _ hz2 _ _ _).trans ?_
    simp only [View.readAt_eq_ld, Memref.IsWhole.read_unread, View.ld_unit_zero (S := S1024x1) hz2, View.ld_unit_zero (S := S1024x1024) hz2, View.ld_unit_zero (S := S1x1024x1024) hz3, View.ld_unit_zero (S := S1x256x1024) hz3, View.readCov_unit_zero (S := S1024x1) _ hz2, View.readCov_unit_zero (S := S1024x1024) _ hz2]
    rfl
  isplitl [H8]
  · iexists _; isplitr
    swap; · iexact H8
    ipureintro
    refine (read_store_whole _ _ hz2 _ _ _).trans ?_
    simp only [View.readAt_eq_ld, Memref.IsWhole.read_unread, View.ld_unit_zero (S := S1024x1) hz2, View.ld_unit_zero (S := S1024x1024) hz2, View.ld_unit_zero (S := S1x1024x1024) hz3, View.ld_unit_zero (S := S1x256x1024) hz3, View.readCov_unit_zero (S := S1024x1) _ hz2, View.readCov_unit_zero (S := S1024x1024) _ hz2]
    rfl
  · iexists _; isplitr
    swap; · iexact H9
    ipureintro
    refine (read_store_whole _ _ hz2 _ _ _).trans ?_
    simp only [View.readAt_eq_ld, Memref.IsWhole.read_unread, View.ld_unit_zero (S := S1024x1) hz2, View.ld_unit_zero (S := S1024x1024) hz2, View.ld_unit_zero (S := S1x1024x1024) hz3, View.ld_unit_zero (S := S1x256x1024) hz3, View.readCov_unit_zero (S := S1024x1) _ hz2, View.readCov_unit_zero (S := S1024x1024) _ hz2]
    rfl

/-! ## The windows' blocks, and what the scratch buffers hold after each point -/

section Region
-- the buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch contents after the point at position n: the update applied to the point's blocks, from the reset
    contents at a first key block and from what the point before left otherwise. -/
def scrAt1 (c : Dev nD) : (n : ℕ) → n < cfg1.N → Scr F
  | 0, hn => upd (iblk1 V c 0 ⟨0, hn⟩) (iblk1 V c 1 ⟨0, hn⟩) (iblk1 V c 2 ⟨0, hn⟩) scr0
  | n + 1, hn => upd (iblk1 V c 0 ⟨n + 1, hn⟩) (iblk1 V c 1 ⟨n + 1, hn⟩) (iblk1 V c 2 ⟨n + 1, hn⟩)
      (if (n + 1) % 8 = 0 then scr0 else scrAt1 c n (Nat.lt_of_succ_lt hn))

/-- At a first key block the update starts from the reset contents. -/
theorem scrAt1_first (c : Dev nD) (t : Fin cfg1.N) (h : t.val % 8 = 0) :
    scrAt1 V c t.val t.isLt = upd (iblk1 V c 0 t) (iblk1 V c 1 t) (iblk1 V c 2 t) scr0 := by
  obtain ⟨n, hn⟩ := t
  cases n with
  | zero => rfl
  | succ n => exact congrArg (upd _ _ _) (if_pos h)

/-- At any other key block it starts from what the point before left. -/
theorem scrAt1_next (c : Dev nD) (t : Fin cfg1.N) (h : ¬t.val % 8 = 0) :
    scrAt1 V c t.val t.isLt = upd (iblk1 V c 0 t) (iblk1 V c 1 t) (iblk1 V c 2 t)
      (scrAt1 V c (t.val - 1) (Nat.lt_of_le_of_lt (Nat.sub_le _ _) t.isLt)) := by
  obtain ⟨n, hn⟩ := t
  cases n with
  | zero => exact absurd (Nat.zero_mod _) h
  | succ n => exact congrArg (upd _ _ _) (if_neg h)

/-! ## The region invariant -/

/-- The three scratch buffers as whole memrefs. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2

/-- What the invariant holds besides the scratch buffers: the other pallas_call's staging buffers, each whole at
    some contents, and the generator register at some state. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ r, prngReg c r))

/-- The class invariant hands out the scratch buffers at some contents, -/
theorem PhiA1_open (c : Dev nD) :
    (Pipeline.ΦA spec1 c : sProp 𝕄) ⊢ iprop((∃ d, owns (c : Thread nD τ) scM1_0 fullShare d) ∗ (∃ d, owns (c : Thread nD τ) scM1_1 fullShare d)
      ∗ (∃ d, owns (c : Thread nD τ) scM1_2 fullShare d) ∗ rest1 c) := by
  unfold Pipeline.ΦA rest1; rw [scopedRest1_eq]; simp only [scM1_0, scM1_1, scM1_2, owns_whole]
  iintro ⟨⟨B0, B1, B2, B3, B4, B5, B6, B7, B8, B9, B10, S0, S1, S2⟩, Hr⟩
  isplitl [S0]; · iexact S0
  isplitl [S1]; · iexact S1
  isplitl [S2]; · iexact S2
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  iexact Hr

/-- and takes them back at any contents. -/
theorem PhiA1_close (c : Dev nD) :
    (iprop((∃ d, owns (c : Thread nD τ) scM1_0 fullShare d) ∗ (∃ d, owns (c : Thread nD τ) scM1_1 fullShare d)
      ∗ (∃ d, owns (c : Thread nD τ) scM1_2 fullShare d) ∗ rest1 c) : sProp 𝕄) ⊢ Pipeline.ΦA spec1 c := by
  unfold Pipeline.ΦA rest1; rw [scopedRest1_eq]; simp only [scM1_0, scM1_1, scM1_2, owns_whole]
  iintro ⟨S0, S1, S2, B0, B1, B2, B3, B4, B5, B6, B7, B8, B9, B10, Hr⟩
  isplitr [Hr]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [S0]; · iexact S0
    isplitl [S1]; · iexact S1
    iexact S2
  iexact Hr

/-- The invariant before position n: the class's before the first point; afterwards the scratch buffers at what the
    point before left in them, beside the rest. -/
def PhiS1 (c : Dev nD) : (n : ℕ) → n ≤ cfg1.N → sProp 𝕄
  | 0, _ => Pipeline.ΦA spec1 c
  | n + 1, hn => iprop(owns (c : Thread nD τ) scM1_0 fullShare (scrAt1 V c n hn).1 ∗ owns (c : Thread nD τ) scM1_1 fullShare (scrAt1 V c n hn).2.1
      ∗ owns (c : Thread nD τ) scM1_2 fullShare (scrAt1 V c n hn).2.2 ∗ rest1 c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (scrAt1 V c n hn).1 ∗ owns (c : Thread nD τ) scM1_1 fullShare (scrAt1 V c n hn).2.1
      ∗ owns (c : Thread nD τ) scM1_2 fullShare (scrAt1 V c n hn).2.2 ∗ rest1 c) := rfl

theorem PhiS1_pos (c : Dev nD) (n : ℕ) (h : n ≤ cfg1.N) (hz : n ≠ 0) :
    PhiS1 V c n h = iprop(owns (c : Thread nD τ) scM1_0 fullShare (scrAt1 V c (n - 1) (by omega)).1 ∗ owns (c : Thread nD τ) scM1_1 fullShare (scrAt1 V c (n - 1) (by omega)).2.1
      ∗ owns (c : Thread nD τ) scM1_2 fullShare (scrAt1 V c (n - 1) (by omega)).2.2 ∗ rest1 c) := by
  cases n with
  | zero => exact absurd rfl hz
  | succ n => rfl

/-- Before any point the invariant yields the scratch buffers at some contents beside the rest. -/
theorem PhiS1_any (c : Dev nD) (n : ℕ) (h : n ≤ cfg1.N) :
    PhiS1 V c n h ⊢ iprop((∃ d, owns (c : Thread nD τ) scM1_0 fullShare d) ∗ (∃ d, owns (c : Thread nD τ) scM1_1 fullShare d)
      ∗ (∃ d, owns (c : Thread nD τ) scM1_2 fullShare d) ∗ rest1 c) := by
  cases n with
  | zero => exact PhiA1_open c
  | succ n =>
    rw [PhiS1_succ]
    iintro ⟨S0, S1, S2, Hr⟩
    isplitl [S0]; · iexists _; iexact S0
    isplitl [S1]; · iexists _; iexact S1
    isplitl [S2]; · iexists _; iexact S2
    iexact Hr

/-! ## The pipeline's proof data -/

/-- The proof data of the flash-attention pipeline on core c: the arrays as the region finds them; after the body at
    point t each input's buffer at its block and the output's at acc / l of the scratch contents there (consulted only
    where the block is written back, at the last key block); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outOf (scrAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outOf (scrAt1 V c t.val t.isLt) := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key block the output window is idle and not written back. -/
theorem idleAt1_3 : ∀ t : Fin cfg1.N, ¬condC (grid1.coords t) → cfg1.idle 3 (grid1.coords t) = true := by decide +kernel
theorem noFlush1_3 : ∀ t : Fin cfg1.N, ¬condC (grid1.coords t) → (cfg1.win 3).flush t = false := by decide +kernel
/-- At the last key block it is live. -/
theorem liveAt1_3 : ∀ t : Fin cfg1.N, condC (grid1.coords t) → cfg1.idle 3 (grid1.coords t) = false := by decide +kernel

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the key-block coordinate says which of the three
    situations the point is in; the invariant hands the body the scratch buffers at what the point before left (at
    anything before a first key block) and takes them back at this point's contents; away from the last key block
    the output buffer is handed back as found, at the last it holds acc / l. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [PhiS1_castSucc V c t]
  have hN : t.val < 64 := lt_of_lt_of_eq t.isLt (show cfg1.N = 64 from N_1)
  by_cases h0 : t.val % 8 = 0
  · have hA : condA (grid1.coords t) := (hcondA t).mpr h0
    have hC : ¬condC (grid1.coords t) := fun h => by have := (hcondC t).mp h; omega
    rw [Dat.leavesExact_idle (dat1 V c) 3 t (idleAt1_3 t hC) (noFlush1_3 t hC)]
    rw [scrAt1_first V c t h0]
    iintro ⟨HΦ, Ho, ⟨%d0, H0⟩, ⟨%d1, H1⟩, ⟨%d2, H2⟩, ⟨%d3, H3⟩⟩
    ihave HΦ' := (PhiS1_any V c _ _) $$ HΦ
    icases HΦ' with ⟨S0, S1, S2, Hr⟩
    iapply (run_first c Set.univ (grid1.coords t) _ _ _ _ _ _ _ _ _ _ _ _ _ _ hA hC (iblk1 V c 0 t) (iblk1 V c 1 t) (iblk1 V c 2 t) ((dat1 V c).before 3 t d3) _)
    isplitl [H0]; · iexact H0
    isplitl [H1]; · iexact H1
    isplitl [H2]; · iexact H2
    isplitl [H3]; · iexact H3
    isplitl [S0]; · iexact S0
    isplitl [S1]; · iexact S1
    isplitl [S2]; · iexact S2
    iintro ⟨H0, H1, H2, H3, S0, S1, S2⟩
    isplitl [S0 S1 S2 Hr]
    · isplitl [S0]; · iexact S0
      isplitl [S1]; · iexact S1
      isplitl [S2]; · iexact S2
      iexact Hr
    isplitl [Ho]; · iexact Ho
    isplitl [H0]; · iexact H0
    isplitl [H1]; · iexact H1
    isplitl [H2]; · iexact H2
    iexists _; iexact H3

  · have hA : ¬condA (grid1.coords t) := fun h => h0 ((hcondA t).mp h)
    have hz : t.val ≠ 0 := fun e => h0 (by rw [e])
    rw [PhiS1_pos V c _ _ hz, scrAt1_next V c t h0]
    by_cases h7 : t.val % 8 = 7
    · have hC : condC (grid1.coords t) := (hcondC t).mpr h7
      rw [show (dat1 V c).leavesExact 3 t = owns (c : Thread nD τ) (st1_3 t) fullShare ((dat1 V c).after 3 t) from by
        unfold Dat.leavesExact; rw [liveAt1_3 t hC], after1_3, scrAt1_next V c t h0]
      iintro ⟨⟨S0, S1, S2, Hr⟩, Ho, ⟨%d0, H0⟩, ⟨%d1, H1⟩, ⟨%d2, H2⟩, ⟨%d3, H3⟩⟩
      iapply (run_last c Set.univ (grid1.coords t) _ _ _ _ _ _ _ _ _ _ _ _ _ _ hA hC (iblk1 V c 0 t) (iblk1 V c 1 t) (iblk1 V c 2 t) (scrAt1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [S0]; · iexact S0
      isplitl [S1]; · iexact S1
      isplitl [S2]; · iexact S2
      iintro ⟨H0, H1, H2, H3, S0, S1, S2⟩
      isplitl [S0 S1 S2 Hr]
      · isplitl [S0]; · iexact S0
        isplitl [S1]; · iexact S1
        isplitl [S2]; · iexact S2
        iexact Hr
      isplitl [Ho]; · iexact Ho
      isplitl [H0]; · iexact H0
      isplitl [H1]; · iexact H1
      isplitl [H2]; · iexact H2
      iexact H3

    · have hC : ¬condC (grid1.coords t) := fun h => h7 ((hcondC t).mp h)
      rw [Dat.leavesExact_idle (dat1 V c) 3 t (idleAt1_3 t hC) (noFlush1_3 t hC)]
      iintro ⟨⟨S0, S1, S2, Hr⟩, Ho, ⟨%d0, H0⟩, ⟨%d1, H1⟩, ⟨%d2, H2⟩, ⟨%d3, H3⟩⟩
      iapply (run_mid c Set.univ (grid1.coords t) _ _ _ _ _ _ _ _ _ _ _ _ _ _ hA hC (iblk1 V c 0 t) (iblk1 V c 1 t) (iblk1 V c 2 t) ((dat1 V c).before 3 t d3) (scrAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [S0]; · iexact S0
      isplitl [S1]; · iexact S1
      isplitl [S2]; · iexact S2
      iintro ⟨H0, H1, H2, H3, S0, S1, S2⟩
      isplitl [S0 S1 S2 Hr]
      · isplitl [S0]; · iexact S0
        isplitl [S1]; · iexact S1
        isplitl [S2]; · iexact S2
        iexact Hr
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the scratch buffers' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  exact (PhiS1_any V c _ _).trans (PhiA1_close c)

end Region

end Cert.Kernel.Hand

end
-- ==== Proof.RunK.lean ====
/-
  The whole program as a chain of five segments — a reshape of x into rows, the projection pallas_call, three
  reshapes of its results back to [4, 2048, 1024], the flash-attention pallas_call, the concatenation of x with its
  result — and the buffer contents at every boundary between them, folded from the launch memory: a stretch of host
  operations applies them; a pallas_call leaves in each of its arrays what its write-backs leave and every other
  buffer as entered. Every weakly fair execution terminates, and every final memory holds each unscoped buffer at
  the last boundary's contents.
-/
import proofs.«104834_j14302241096180_2_alg».proof.Proof.Region0K
import proofs.«104834_j14302241096180_2_alg».proof.Proof.Region1K
import proofs.«104834_j14302241096180_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the reshape of x into rows: the projection pallas_call's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection pallas_call. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three reshapes back: the flash-attention pallas_call's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the flash-attention pallas_call. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the concatenation: the end. -/
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owing part. -/
abbrev Tₙ (c : Dev nD) : sProp 𝕄 := iprop(StableHlo.held (c : Thread nD τ) (Pipeline.ucRefs τ sig) (W5 m ρ c) ∗ ∃ r, prngReg c r)

/-! ## The pallas_calls as segments -/

set_option backward.isDefEq.respectTransparency.types false in
/-- The pallas_call 0 over the thread state: entered with every unscoped buffer at the contents before it, left with
    them at the contents after it; its arrays split out of the unscoped buffers and put back at what the write-backs
    leave; the generator register into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pallas_call 1 over the thread state: entered with every unscoped buffer at the contents before it, left with
    them at the contents after it; its arrays split out of the unscoped buffers and put back at what the write-backs
    leave; the generator register into the invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) (Val := Elt F) spec1 c) : sProp 𝕄) ⊢ Pipeline.ΦA spec1 c := by
      unfold Pipeline.ΦA
      iintro ⟨Hp, -, Hr⟩
      isplitl [Hr]; · iexact Hr
      iexact Hp
    exact h1.trans (hin1 (V3 m ρ) c)
  hout c := by
    rw [Pipeline.ownSems0_none]
    have h2 : (Pipeline.ΦA spec1 c : sProp 𝕄) ⊢ iprop((∃ r, prngReg c r) ∗ emp
        ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (V3 m ρ) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- Every weakly fair execution of the program from memory m with zero counters terminates, nothing faulting, and every
    final memory holds every unscoped buffer at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄) ⊢ _
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c _ (mem_uc b hb))

/-! ## The arguments end as launched -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- x is no array of either pallas_call and no host operation writes it. -/
theorem W5_main_arg0 (c : Dev nD) : W5 m ρ c (Proc.devRef .tc main_arg0) = m ((c : Thread nD τ).loc main_arg0) :=
  (W5_of m ρ c main_arg0 (by decide)).trans <| (W4_of_ne m ρ c main_arg0 (by decide)).trans <| (W3_of m ρ c main_arg0 (by decide)).trans <|
    (W2_of_ne m ρ c main_arg0 (by decide)).trans <| (W1_of m ρ c main_arg0 (by decide)).trans rfl
/-- x before the flash-attention pallas_call's exit, the same way. -/
theorem W4_main_arg0 (c : Dev nD) : W4 m ρ c (Proc.devRef .tc main_arg0) = m ((c : Thread nD τ).loc main_arg0) :=
  (W4_of_ne m ρ c main_arg0 (by decide)).trans <| (W3_of m ρ c main_arg0 (by decide)).trans <|
    (W2_of_ne m ρ c main_arg0 (by decide)).trans <| (W1_of m ρ c main_arg0 (by decide)).trans rfl
/-- A weight is an input array of the projection pallas_call, which leaves it as entered. -/
theorem W2_main_arg1 (c : Dev nD) : W2 m ρ c (Proc.devRef .tc main_arg1) = m ((c : Thread nD τ).loc main_arg1) :=
  (W2_arr m ρ c 1).trans <| ((dat0 (V1 m ρ) c).arrAt_in 1 rfl _).trans <| (A_eq0 (V1 m ρ) c 1).trans <| (W1_of m ρ c main_arg1 (by decide)).trans rfl
theorem W2_main_arg2 (c : Dev nD) : W2 m ρ c (Proc.devRef .tc main_arg2) = m ((c : Thread nD τ).loc main_arg2) :=
  (W2_arr m ρ c 2).trans <| ((dat0 (V1 m ρ) c).arrAt_in 2 rfl _).trans <| (A_eq0 (V1 m ρ) c 2).trans <| (W1_of m ρ c main_arg2 (by decide)).trans rfl
theorem W2_main_arg3 (c : Dev nD) : W2 m ρ c (Proc.devRef .tc main_arg3) = m ((c : Thread nD τ).loc main_arg3) :=
  (W2_arr m ρ c 3).trans <| ((dat0 (V1 m ρ) c).arrAt_in 3 rfl _).trans <| (A_eq0 (V1 m ρ) c 3).trans <| (W1_of m ρ c main_arg3 (by decide)).trans rfl
theorem W5_main_arg1 (c : Dev nD) : W5 m ρ c (Proc.devRef .tc main_arg1) = m ((c : Thread nD τ).loc main_arg1) :=
  (W5_of m ρ c main_arg1 (by decide)).trans <| (W4_of_ne m ρ c main_arg1 (by decide)).trans <| (W3_of m ρ c main_arg1 (by decide)).trans <| W2_main_arg1 m ρ c
theorem W5_main_arg2 (c : Dev nD) : W5 m ρ c (Proc.devRef .tc main_arg2) = m ((c : Thread nD τ).loc main_arg2) :=
  (W5_of m ρ c main_arg2 (by decide)).trans <| (W4_of_ne m ρ c main_arg2 (by decide)).trans <| (W3_of m ρ c main_arg2 (by decide)).trans <| W2_main_arg2 m ρ c
theorem W5_main_arg3 (c : Dev nD) : W5 m ρ c (Proc.devRef .tc main_arg3) = m ((c : Thread nD τ).loc main_arg3) :=
  (W5_of m ρ c main_arg3 (by decide)).trans <| (W4_of_ne m ρ c main_arg3 (by decide)).trans <| (W3_of m ρ c main_arg3 (by decide)).trans <| W2_main_arg3 m ρ c

/-- The frame: every weakly fair execution terminates and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c main_arg0 (by decide)).trans (W5_main_arg0 m ρ c), (h c main_arg1 (by decide)).trans (W5_main_arg1 m ρ c),
     (h c main_arg2 (by decide)).trans (W5_main_arg2 m ρ c), (h c main_arg3 (by decide)).trans (W5_main_arg3 m ρ c)⟩) (run_all m ρ)

end Cert.Kernel.Hand

end
-- ==== Proof.Spec.lean ====
/-
  The function both programs compute, index by index on the extended reals: single-head self-attention
  over x : [4, 2048, 1024] with three projections, the result laid beside x along the last axis.

  For a batch b, a query row q and a key row k,
    score b q k = (Σ_e Q b q e · K b k e) · (1/32),          Q = x·Wq, K = x·Wk, V = x·Wv,
    top b q     = the largest score of the row (the supremum over k),
    wexp b q k  = exp (score b q k − top b q),                den b q = Σ_k wexp b q k,
    attn b q d  = Σ_k (wexp b q k / den b q) · V b k d,
  and out b s j = x b s j for j < 1024, attn b s (j − 1024) for j ≥ 1024.
-/
import Idealize.ShloMosaic.PureOps.Ideal
import Idealize.ShloMosaic.Lib.ValueIdx

noncomputable section

open scoped BigOperators

namespace Cert.Attn

open Idealize.ShloMosaic Idealize.ShloMosaic.ValueIdx

/-- The shapes: the activations, a weight matrix, the result. -/
abbrev SX : Shape := ⟨3, ![4, 2048, 1024]⟩
abbrev SW : Shape := ⟨2, ![1024, 1024]⟩
abbrev SO : Shape := ⟨3, ![4, 2048, 2048]⟩

/-- One projection x·W at (b, s, e): the contraction over the model axis. -/
def proj (x : SX.Idx → EReal) (w : SW.Idx → EReal) (b : Fin 4) (s : Fin 2048) (e : Fin 1024) : EReal :=
  ∑ d : Fin 1024, x (ix3 b s d) * w (ix2 d e)

/-- The scale 1/√1024 = 1/32. -/
def scale : EReal := ((1 / 32 : ℝ) : EReal)

/-- The scaled score of query row q against key row k. -/
def score (Q K : Fin 4 → Fin 2048 → Fin 1024 → EReal) (b : Fin 4) (q k : Fin 2048) : EReal :=
  (∑ e : Fin 1024, Q b q e * K b k e) * scale

/-- The row's largest score. -/
def top (Q K : Fin 4 → Fin 2048 → Fin 1024 → EReal) (b : Fin 4) (q : Fin 2048) : EReal :=
  Finset.univ.sup fun k : Fin 2048 => score Q K b q k

/-- The exponential of a score relative to the row's largest. -/
def wexp (Q K : Fin 4 → Fin 2048 → Fin 1024 → EReal) (b : Fin 4) (q k : Fin 2048) : EReal :=
  Ideal.exp (score Q K b q k - top Q K b q)

/-- The row's normaliser. -/
def den (Q K : Fin 4 → Fin 2048 → Fin 1024 → EReal) (b : Fin 4) (q : Fin 2048) : EReal :=
  ∑ k : Fin 2048, wexp Q K b q k

/-- The attention output at (b, q, d): the softmax-weighted sum of the value rows. -/
def attn (Q K V : Fin 4 → Fin 2048 → Fin 1024 → EReal) (b : Fin 4) (q : Fin 2048) (d : Fin 1024) : EReal :=
  ∑ k : Fin 2048, Ideal.div (wexp Q K b q k) (den Q K b q) * V b k d

/-- The whole result: x beside the attention output along the last axis. -/
def G (x : SX.Idx → EReal) (wq wk wv : SW.Idx → EReal) : SO.Idx → EReal := fun i =>
  if h : (i 2).val < 1024 then x (ix3 (i 0) (i 1) ⟨(i 2).val, h⟩)
  else attn (proj x wq) (proj x wk) (proj x wv) (i 0) (i 1) ⟨(i 2).val - 1024, by have h2 : (i 2).val < 2048 := (i 2).isLt; omega⟩

end Cert.Attn

end
-- ==== Proof.RefSide.lean ====
/-
  The reference program's side: its run, with its result identified as the specification
  `Cert.Attn.G` of the argument arrays.

  The reference is read one operation at a time, each stage at an index built from its coordinates:
  the three projections are `proj`, the scalar 1/√1024 is 1/32, the scaled batched product is
  `score`, the row maximum from −∞ is the supremum `top`, the exponentials are `wexp`, their row
  sum from 0 is `den`, the quotient contracted with the value rows is `attn`, and the
  concatenation with x along the last axis is `G`.
-/
import proofs.«104834_j14302241096180_2_alg».proof.Proof.Gen.ReferenceIdeal.Read
import proofs.«104834_j14302241096180_2_alg».proof.Proof.Spec

noncomputable section

open scoped BigOperators
open Idealize.ShloMosaic Idealize.ShloMosaic.TcCoe Idealize.SL.Sem Idealize.ShloMosaic.ValueIdx

namespace Cert.RefSide

open Cert.ReferenceIdeal Cert.ReferenceIdeal.Gen Cert.ReferenceIdeal.Read Cert.Attn

/-! ## The scalar constants -/

/-- The f32 word 0x44800000 is 1024. -/
theorem ofBits_1024 : Ideal.ofBits .f32 0x44800000#32 = ((1024 : ℝ) : EReal) := by
  simp [Ideal.ofBits, Ideal.ieee, -EReal.coe_mul]; norm_num

/-- The f32 word 0x3F800000 is 1. -/
theorem ofBits_one : Ideal.ofBits .f32 0x3F800000#32 = ((1 : ℝ) : EReal) := by
  simp [Ideal.ofBits, Ideal.ieee, -EReal.coe_mul]; norm_num

/-- The f32 word 0xFF800000 is −∞. -/
theorem ofBits_neg_inf : Ideal.ofBits .f32 0xFF800000#32 = (⊥ : EReal) := by
  simp [Ideal.ofBits, Ideal.ieee]

theorem sqrt_1024 : Real.sqrt 1024 = 32 := by
  rw [show (1024 : ℝ) = 32 ^ 2 by norm_num]
  exact Real.sqrt_sq (by norm_num)

/-- The reference's scale 1 / √1024 is 1/32. -/
theorem scale_eq :
    Ideal.div (Ideal.ofBits .f32 0x3F800000#32) (Ideal.sqrt (Ideal.ofBits .f32 0x44800000#32)) = Cert.Attn.scale := by
  rw [ofBits_one, ofBits_1024, Ideal.sqrt_coe, if_neg (by norm_num), sqrt_1024,
    Ideal.div_coe (by norm_num : (32 : ℝ) ≠ 0)]
  unfold Cert.Attn.scale
  rw [← EReal.coe_mul]; norm_num

/-- A fold of the maximum from −∞ over a finite range is the supremum over it. -/
theorem fold_max_eq_sup {n : Nat} (c : EReal) (hc : c = ⊥) (f g : Fin n → EReal) (hfg : ∀ k, f k = g k) :
    (Finset.univ : Finset (Fin n)).fold (FloatOps.maximumf (F := Ideal) (φ := .f32)) c f = Finset.univ.sup g := by
  subst hc
  rw [show f = g from funext hfg]
  rfl

/-! ## The index functions of the stages, at coordinates -/

section Idx
variable (b : Fin 4) (s q k' : Fin 2048) (e d : Fin 1024)

theorem lidx0 (k : Fin 1024) : lidx_main_v0 (ix3 b s e) k = ix3 b s k :=
  funext fun a => match a with | ⟨0, _⟩ => rfl | ⟨1, _⟩ => rfl | ⟨2, _⟩ => rfl
theorem ridx0 (k : Fin 1024) : ridx_main_v0 (ix3 b s e) k = ix2 k e :=
  funext fun a => match a with | ⟨0, _⟩ => rfl | ⟨1, _⟩ => rfl
theorem lidx1 (k : Fin 1024) : lidx_main_v1 (ix3 b s e) k = ix3 b s k :=
  funext fun a => match a with | ⟨0, _⟩ => rfl | ⟨1, _⟩ => rfl | ⟨2, _⟩ => rfl
theorem ridx1 (k : Fin 1024) : ridx_main_v1 (ix3 b s e) k = ix2 k e :=
  funext fun a => match a with | ⟨0, _⟩ => rfl | ⟨1, _⟩ => rfl
theorem lidx2 (k : Fin 1024) : lidx_main_v2 (ix3 b s e) k = ix3 b s k :=
  funext fun a => match a with | ⟨0, _⟩ => rfl | ⟨1, _⟩ => rfl | ⟨2, _⟩ => rfl
theorem ridx2 (k : Fin 1024) : ridx_main_v2 (ix3 b s e) k = ix2 k e :=
  funext fun a => match a with | ⟨0, _⟩ => rfl | ⟨1, _⟩ => rfl
theorem lidx5 : lidx_main_v5 (ix3 b q k') e = ix3 b q e :=
  funext fun a => match a with | ⟨0, _⟩ => rfl | ⟨1, _⟩ => rfl | ⟨2, _⟩ => rfl
theorem ridx5 : ridx_main_v5 (ix3 b q k') e = ix3 b k' e :=
  funext fun a => match a with | ⟨0, _⟩ => rfl | ⟨1, _⟩ => rfl | ⟨2, _⟩ => rfl
theorem idx12 : idx_main_v11 (idx_main_v12 (ix3 b q k')) = ix2 b q :=
  funext fun a => match a with | ⟨0, _⟩ => rfl | ⟨1, _⟩ => rfl
theorem idx17 : idx_main_v16 (idx_main_v17 (ix3 b q k')) = ix2 b q :=
  funext fun a => match a with | ⟨0, _⟩ => rfl | ⟨1, _⟩ => rfl
theorem idx15 : idx_main_v15 (ix2 b q) k' = ix3 b q k' :=
  funext fun a => match a with | ⟨0, _⟩ => rfl | ⟨1, _⟩ => rfl | ⟨2, _⟩ => rfl
theorem lidx19 : lidx_main_v19 (ix3 b q d) k' = ix3 b q k' :=
  funext fun a => match a with | ⟨0, _⟩ => rfl | ⟨1, _⟩ => rfl | ⟨2, _⟩ => rfl
theorem ridx19 : ridx_main_v19 (ix3 b q d) k' = ix3 b k' d :=
  funext fun a => match a with | ⟨0, _⟩ => rfl | ⟨1, _⟩ => rfl | ⟨2, _⟩ => rfl

end Idx

/-! ## The stages -/

section Stages
variable (x : (⟨S4x2048x1024, .f32⟩ : BufTy).Contents (Elt Ideal))
  (wq wk wv w : (⟨S1024x1024, .f32⟩ : BufTy).Contents (Elt Ideal))

/-- A projection x·W at (b, s, e). -/
theorem v0_at (b : Fin 4) (s : Fin 2048) (e : Fin 1024) :
    val_main_v0 (F := Ideal) x w (ix3 b s e) = proj x w b s e := by
  rw [val_main_v0_apply]
  unfold proj
  refine Finset.sum_congr rfl fun k _ => ?_
  rw [lidx0, ridx0]
theorem v1_at (b : Fin 4) (s : Fin 2048) (e : Fin 1024) :
    val_main_v1 (F := Ideal) x w (ix3 b s e) = proj x w b s e := by
  rw [val_main_v1_apply]
  unfold proj
  refine Finset.sum_congr rfl fun k _ => ?_
  rw [lidx1, ridx1]
theorem v2_at (b : Fin 4) (s : Fin 2048) (e : Fin 1024) :
    val_main_v2 (F := Ideal) x w (ix3 b s e) = proj x w b s e := by
  rw [val_main_v2_apply]
  unfold proj
  refine Finset.sum_congr rfl fun k _ => ?_
  rw [lidx2, ridx2]

/-- The batched product Q·Kᵀ at (b, q, k). -/
theorem v5_at (b : Fin 4) (q k : Fin 2048) :
    val_main_v5 (F := Ideal) x wq wk (ix3 b q k) = ∑ e : Fin 1024, proj x wq b q e * proj x wk b k e := by
  rw [val_main_v5_apply]
  refine Finset.sum_congr rfl fun e _ => ?_
  rw [lidx5, ridx5, v0_at, v1_at]

/-- The broadcast scale, at every index. -/
theorem v6_at (i : S4x2048x2048.Idx) : val_main_v6 (F := Ideal) i = Cert.Attn.scale := by
  rw [val_main_v6_apply, val_main_v4_apply, val_main_cst_0_apply, val_main_v3_apply, val_main_cst_apply]
  exact scale_eq

/-- The scaled score at (b, q, k). -/
theorem v7_at (b : Fin 4) (q k : Fin 2048) :
    val_main_v7 (F := Ideal) x wq wk (ix3 b q k) = score (proj x wq) (proj x wk) b q k := by
  rw [val_main_v7_apply, v5_at, v6_at]
  rfl

end Stages

section Stages2
variable (x : (⟨S4x2048x1024, .f32⟩ : BufTy).Contents (Elt Ideal))
  (wq wk wv : (⟨S1024x1024, .f32⟩ : BufTy).Contents (Elt Ideal))

/-- The row maximum from −∞ at (b, q): the supremum of the row's scores. -/
theorem v8_at (b : Fin 4) (q : Fin 2048) :
    val_main_v8 (F := Ideal) x wq wk (ix2 b q) = top (proj x wq) (proj x wk) b q := by
  unfold val_main_v8
  have hy : ∀ k : Fin 2048, val_main_v7 (F := Ideal) x wq wk (ix3 b q k) = score (proj x wq) (proj x wk) b q k :=
    fun k => v7_at x wq wk b q k
  generalize val_main_v7 (F := Ideal) x wq wk = y at hy ⊢
  have hR : S4x2048x2048.Reduces [2] S4x2048 := by decide
  refine (Host.reduce_eq_fold_single (FloatOps.maximumf (F := Ideal) (φ := .f32)) y (val_main_cst_1 (F := Ideal))
    reducesTo_S4x2048x2048_S4x2048_d2 hR h_S_ (ix2 b q)).trans ?_
  unfold top
  refine fold_max_eq_sup (n := 2048) _ ofBits_neg_inf _ _ fun k => ?_
  show y (hR.lift (ix2 b q) k) = _
  rw [show hR.lift (ix2 b q) k = ix3 b q k from funext fun a => Fin.ext (by
    match a with | ⟨0, _⟩ => rfl | ⟨1, _⟩ => rfl | ⟨2, _⟩ => rfl)]
  exact hy k

/-- The maximum with the broadcast −∞ changes nothing. -/
theorem v10_at (b : Fin 4) (q : Fin 2048) :
    val_main_v10 (F := Ideal) x wq wk (ix2 b q) = top (proj x wq) (proj x wk) b q := by
  rw [val_main_v10_apply, val_main_v9_apply, val_main_cst_2_apply, v8_at]
  show max (Ideal.ofBits .f32 0xFF800000#32) _ = _
  rw [ofBits_neg_inf]
  exact max_eq_right bot_le

/-- The row maximum broadcast along the keys. -/
theorem v12_at (b : Fin 4) (q k : Fin 2048) :
    val_main_v12 (F := Ideal) x wq wk (ix3 b q k) = top (proj x wq) (proj x wk) b q := by
  rw [val_main_v12_apply, val_main_v11_apply, idx12, v10_at]

/-- The exponential of the score relative to the row maximum. -/
theorem v14_at (b : Fin 4) (q k : Fin 2048) :
    val_main_v14 (F := Ideal) x wq wk (ix3 b q k) = wexp (proj x wq) (proj x wk) b q k := by
  rw [val_main_v14_apply, val_main_v13_apply, v7_at, v12_at]
  rfl

/-- The row sum of the exponentials from 0. -/
theorem v15_at (b : Fin 4) (q : Fin 2048) :
    val_main_v15 (F := Ideal) x wq wk (ix2 b q) = den (proj x wq) (proj x wk) b q := by
  rw [val_main_v15_apply, val_main_cst_3_apply]
  show Ideal.ofBits .f32 0x00000000#32 + _ = _
  rw [Ideal.ofBits_zero_f32, zero_add]
  unfold den
  refine Finset.sum_congr rfl fun k _ => ?_
  rw [idx15, v14_at]

/-- The row sum broadcast along the keys. -/
theorem v17_at (b : Fin 4) (q k : Fin 2048) :
    val_main_v17 (F := Ideal) x wq wk (ix3 b q k) = den (proj x wq) (proj x wk) b q := by
  rw [val_main_v17_apply, val_main_v16_apply, idx17, v15_at]

/-- The normalised weight. -/
theorem v18_at (b : Fin 4) (q k : Fin 2048) :
    val_main_v18 (F := Ideal) x wq wk (ix3 b q k)
      = Ideal.div (wexp (proj x wq) (proj x wk) b q k) (den (proj x wq) (proj x wk) b q) := by
  rw [val_main_v18_apply, v14_at, v17_at]
  rfl

/-- The weights contracted with the value rows. -/
theorem v19_at (b : Fin 4) (q : Fin 2048) (d : Fin 1024) :
    val_main_v19 (F := Ideal) x wq wk wv (ix3 b q d) = attn (proj x wq) (proj x wk) (proj x wv) b q d := by
  rw [val_main_v19_apply]
  unfold attn
  refine Finset.sum_congr rfl fun k _ => ?_
  rw [lidx19, ridx19, v18_at, v2_at]

end Stages2

/-! ## The concatenation, and the specification at coordinates -/

section Result
variable (x : (⟨S4x2048x1024, .f32⟩ : BufTy).Contents (Elt Ideal))
  (wq wk wv : (⟨S1024x1024, .f32⟩ : BufTy).Contents (Elt Ideal))

/-- The specification in the first half of the last axis: x itself. -/
theorem G_left (b : Fin 4) (s j : Fin 2048) (h : j.val < 1024) :
    Cert.Attn.G x wq wk wv (ix3 b s j) = x (ix3 b s ⟨j.val, h⟩) := by
  unfold Cert.Attn.G
  exact dif_pos h

/-- The specification in the second half of the last axis: the attention output, 1024 columns back. -/
theorem G_right (b : Fin 4) (s j : Fin 2048) (h : ¬ j.val < 1024) (h' : j.val - 1024 < 1024) :
    Cert.Attn.G x wq wk wv (ix3 b s j)
      = attn (proj x wq) (proj x wk) (proj x wv) b s ⟨j.val - 1024, h'⟩ := by
  unfold Cert.Attn.G
  exact dif_neg h

end Result

/-- The reference's last stage, as a function of the four argument arrays, is the specification. -/
theorem result_eq (x : (⟨S4x2048x1024, .f32⟩ : BufTy).Contents (Elt Ideal))
    (wq wk wv : (⟨S1024x1024, .f32⟩ : BufTy).Contents (Elt Ideal)) :
    (val_main_v20 (F := Ideal) x wq wk wv : Cert.Attn.SO.Idx → EReal) = Cert.Attn.G x wq wk wv := by
  funext i
  obtain ⟨b, s, j, rfl⟩ : ∃ (b : Fin 4) (s : Fin 2048) (j : Fin 2048), i = ix3 b s j := ⟨i 0, i 1, i 2, eq_ix3 i⟩
  unfold val_main_v20
  generalize hv : val_main_v19 (F := Ideal) x wq wk wv = v
  by_cases h : j.val < 1024
  · refine (concatenate_pair_apply_left (2 : Fin S4x2048x2048.rank) x v
      concatenates_S4x2048x1024_S4x2048x1024_S4x2048x2048_d2 (ix3 b s j) rfl (ix3 b s ⟨j.val, h⟩)
      (fun a => match a with | ⟨0, _⟩ => rfl | ⟨1, _⟩ => rfl | ⟨2, _⟩ => rfl)).trans ?_
    exact (G_left x wq wk wv b s j h).symm
  · have h2 : j.val < 2048 := j.isLt
    have h' : j.val - 1024 < 1024 := by omega
    refine (concatenate_pair_apply_right (2 : Fin S4x2048x2048.rank) x v
      concatenates_S4x2048x1024_S4x2048x1024_S4x2048x2048_d2 (ix3 b s j) rfl rfl (ix3 b s ⟨j.val - 1024, h'⟩)
      (fun a ha => match a, ha with
        | ⟨0, _⟩, _ => rfl
        | ⟨1, _⟩, _ => rfl
        | ⟨2, _⟩, ha => absurd rfl ha)
      (by show j.val - 1024 + 1024 = j.val; omega)).trans ?_
    rw [← hv, v19_at]
    exact (G_right x wq wk wv b s j h h').symm

theorem run_G (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      (r.2.mem ((c.tc : Thread Cert.ReferenceIdeal.nD Cert.ReferenceIdeal.τ).loc Cert.ReferenceIdeal.main_v20) : Cert.Attn.SO.Idx → EReal)
          = Cert.Attn.G (m ((c.tc : Thread _ _).loc Cert.ReferenceIdeal.main_arg0)) (m ((c.tc : Thread _ _).loc Cert.ReferenceIdeal.main_arg1)) (m ((c.tc : Thread _ _).loc Cert.ReferenceIdeal.main_arg2)) (m ((c.tc : Thread _ _).loc Cert.ReferenceIdeal.main_arg3))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)
      ∧ r.2.mem ((c.tc : Thread _ _).loc Cert.ReferenceIdeal.main_arg2) = m ((c.tc : Thread _ _).loc Cert.ReferenceIdeal.main_arg2)
      ∧ r.2.mem ((c.tc : Thread _ _).loc Cert.ReferenceIdeal.main_arg3) = m ((c.tc : Thread _ _).loc Cert.ReferenceIdeal.main_arg3)) :=
  (θ_run _ _ _).mono (fun _ h c => ⟨(h c).1.trans ((val_main_v20_eq _ _ _ _).trans (result_eq _ _ _ _)), (h c).2⟩)
    (Cert.ReferenceIdeal.Value.run (F := Ideal) m ρ)

end Cert.RefSide

end
-- ==== Proof.LibRank3Layout.lean ====
/-
  Layout operations between vectors, matrices and rank-three arrays, read at an index given by coordinates: a matrix
  `[a, b]` viewed as `[a, b, 1]` and laid along a third axis; a vector `[c]` viewed as `[1, 1, c]` and laid over the first
  two axes; a vector `[a]` viewed as a column `[a, 1]` and laid over the columns of `[a, b]`; an array `[a, b, c]` flattened
  to the matrix `[a·b, c]` whose row `p·b + q` is the fibre `(p, q, ·)`, and back; and the index a sum over one axis of a
  rank-three array, or over the columns of a matrix, inserts.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Rank3Layout

open Idealize.ShloMosaic Idealize.ShloMosaic.ValueIdx

variable {α : Type}

/-- A matrix `[a, b]` viewed as `[a, b, 1]` reads, at `(p, q, u)`, the matrix at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A vector `[c]` viewed as `[1, 1, c]` reads, at `(u, v, k)`, the vector at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * c + k.val
    simp [hu, hv])

/-- An array `[a, b, 1]` laid along a third axis of extent `c` reads, at `(p, q, k)`, the array at `(p, q, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ x h (ix3 p q k) = x (ix3 p q (0 : Fin 1)) := by
  refine broadcastTo_apply x h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An array `[1, 1, c]` laid over two leading axes of extents `a` and `b` reads, at `(p, q, k)`, the array at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A vector `[c]` viewed as `[1, 1, c]` and laid over `[a, b, c]` reads, at `(p, q, k)`, the vector at `k`. -/
theorem fibreVector_apply {a b c : ℕ} (x : (⟨1, ![c]⟩ : Shape).Idx → α)
    (h1 : (⟨1, ![c]⟩ : Shape).ShapeCasts ⟨3, ![1, 1, c]⟩) (h2 : (⟨3, ![1, 1, c]⟩ : Shape).Broadcasts ⟨3, ![a, b, c]⟩)
    (p : Fin a) (q : Fin b) (k : Fin c) :
    broadcastTo ⟨3, ![a, b, c]⟩ (shapeCast ⟨3, ![1, 1, c]⟩ x h1) h2 (ix3 p q k) = x (ix1 k) :=
  (broadcastTo_11c_abc_apply _ h2 p q k).trans (shapeCast_c_11c_apply x h1 0 0 k)

/-- A matrix `[a, b]` viewed as `[a, b, 1]` and laid along a third axis reads, at `(p, q, k)`, the matrix at `(p, q)`. -/
theorem alongThird_apply {a b c : ℕ} (x : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, c]⟩)
    (p : Fin a) (q : Fin b) (k : Fin c) :
    broadcastTo ⟨3, ![a, b, c]⟩ (shapeCast ⟨3, ![a, b, 1]⟩ x h1) h2 (ix3 p q k) = x (ix2 p q) :=
  (broadcastTo_ab1_abc_apply _ h2 p q k).trans (shapeCast_ab_ab1_apply x h1 p q 0)

/-- A vector `[a]` viewed as a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` laid over `b` columns reads, at `(p, q)`, the column at row `p`. -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) := by
  refine broadcastTo_apply x h (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[a]` viewed as a column and laid over the columns of `[a, b]` reads, at `(p, q)`, the vector at `p`. -/
theorem columnVector_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ x h1) h2 (ix2 p q) = x (ix1 p) :=
  (broadcastTo_a1_ab_apply _ h2 p q).trans (shapeCast_a_a1_apply x h1 p 0)

/-- An array `[a, b, c]` flattened to a matrix of `n = a·b` rows reads, at row `r = p·b + q` and column `k`, the array at
    `(p, q, k)`. -/
theorem shapeCast_abc_flat_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) : shapeCast ⟨2, ![n, c]⟩ x h (ix2 r k) = x (ix3 p q k) :=
  shapeCast_apply x h _ _ (by
    rw [Shape.rowMajor_val_two, Shape.rowMajor_val_three]
    show (p.val * b + q.val) * c + k.val = r.val * c + k.val
    rw [hr])

/-- A matrix of `n = a·b` rows unflattened to `[a, b, c]` reads, at `(p, q, k)`, the matrix at row `r = p·b + q`, column `k`. -/
theorem shapeCast_flat_abc_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) : shapeCast ⟨3, ![a, b, c]⟩ x h (ix3 p q k) = x (ix2 r k) :=
  shapeCast_apply x h _ _ (by
    rw [Shape.rowMajor_val_two, Shape.rowMajor_val_three]
    show r.val * c + k.val = (p.val * b + q.val) * c + k.val
    rw [hr])

end Cert.Rank3Layout

end
-- ==== Proof.HostStages.lean ====
import proofs.«104834_j14302241096180_2_alg».proof.Proof.Run
import proofs.«104834_j14302241096180_2_alg».proof.Proof.LibRank3Layout
import Idealize.ShloMosaic.Lib.ValueIdx
import Idealize.ShloMosaic.Lib.Pipeline.Value

/-! # The host operations between the pallas_calls, read at an index

Between the launch and the projection pallas_call the program flattens `x : [4, 2048, 1024]` to the matrix of its
8192 rows; between the two pallas_calls it unflattens the three projections back to `[4, 2048, 1024]`; after the
flash-attention pallas_call it joins `x` and the attention output along the last axis. Each is read here at one index:
row `r` of the flattened matrix is the fibre `(r / 2048, r % 2048, ·)`; the fibre `(b, s, ·)` of an unflattened array
is row `b · 2048 + s`; column `j` of the joined array is column `j` of `x` below 1024 and column `j − 1024` of the
attention output from there on. -/

noncomputable section

namespace Cert.KernelIdeal.Hand

open Idealize.ShloMosaic Idealize.ShloMosaic.TcCoe Idealize.ShloMosaic.ValueIdx
open Idealize.SL Idealize.SL.Sem
open Idealize.ShloMosaic.StableHlo (after_cons after_nil reshape_result reshape_result_ne binary_result binary_result_ne)
open Cert.KernelIdeal Cert.KernelIdeal.Gen

variable {F : FTy → Type} [FloatOps F]

variable (m : (ℓ : Loc nD τ sig) → Buf (Elt F) ℓ) (ρ : Dev nD → PrngReg)

/-! ## The buffers as functions of their indices -/

/-- `x` at launch. -/
abbrev w0arg0 (c : Dev nD) : S4x2048x1024.Idx → Elt F .f32 := W0 m ρ c (Proc.devRef .tc main_arg0)
/-- The rows of `x`, after the first reshape. -/
abbrev w1v0 (c : Dev nD) : S8192x1024.Idx → Elt F .f32 := W1 m ρ c (Proc.devRef .tc main_v0)
/-- The three projections as the projection pallas_call leaves them, -/
abbrev w2v1_0 (c : Dev nD) : S8192x1024.Idx → Elt F .f32 := W2 m ρ c (Proc.devRef .tc main_v1_0)
abbrev w2v1_1 (c : Dev nD) : S8192x1024.Idx → Elt F .f32 := W2 m ρ c (Proc.devRef .tc main_v1_1)
abbrev w2v1_2 (c : Dev nD) : S8192x1024.Idx → Elt F .bf16 := W2 m ρ c (Proc.devRef .tc main_v1_2)
/-- and unflattened. -/
abbrev w3v2 (c : Dev nD) : S4x2048x1024.Idx → Elt F .f32 := W3 m ρ c (Proc.devRef .tc main_v2)
abbrev w3v3 (c : Dev nD) : S4x2048x1024.Idx → Elt F .f32 := W3 m ρ c (Proc.devRef .tc main_v3)
abbrev w3v4 (c : Dev nD) : S4x2048x1024.Idx → Elt F .bf16 := W3 m ρ c (Proc.devRef .tc main_v4)
/-- `x` and the attention output after the flash-attention pallas_call, -/
abbrev w4arg0 (c : Dev nD) : S4x2048x1024.Idx → Elt F .f32 := W4 m ρ c (Proc.devRef .tc main_arg0)
abbrev w4v5 (c : Dev nD) : S4x2048x1024.Idx → Elt F .f32 := W4 m ρ c (Proc.devRef .tc main_v5)
/-- and the two joined. -/
abbrev w5v6 (c : Dev nD) : S4x2048x2048.Idx → Elt F .f32 := W5 m ρ c (Proc.devRef .tc main_v6)

/-! ## The operations' results, by name -/

/-- The rows of `x` are `x` flattened. -/
theorem w1v0_eq (c : Dev nD) :
    w1v0 m ρ c = shapeCast S8192x1024 (w0arg0 m ρ c) shapeCasts_S4x2048x1024_S8192x1024 := by
  show StableHlo.after hostOps0 (W0 m ρ c) (Proc.devRef .tc main_v0) = _
  dsimp only [hostOps0]
  after_results
  rfl

/-- Each unflattened projection is the projection unflattened. -/
theorem w3v2_eq (c : Dev nD) :
    w3v2 m ρ c = shapeCast S4x2048x1024 (w2v1_0 m ρ c) shapeCasts_S8192x1024_S4x2048x1024 := by
  show StableHlo.after hostOps1 (W2 m ρ c) (Proc.devRef .tc main_v2) = _
  dsimp only [hostOps1]
  after_results
  rfl
theorem w3v3_eq (c : Dev nD) :
    w3v3 m ρ c = shapeCast S4x2048x1024 (w2v1_1 m ρ c) shapeCasts_S8192x1024_S4x2048x1024 := by
  show StableHlo.after hostOps1 (W2 m ρ c) (Proc.devRef .tc main_v3) = _
  dsimp only [hostOps1]
  after_results
  rfl
theorem w3v4_eq (c : Dev nD) :
    w3v4 m ρ c = shapeCast S4x2048x1024 (w2v1_2 m ρ c) shapeCasts_S8192x1024_S4x2048x1024 := by
  show StableHlo.after hostOps1 (W2 m ρ c) (Proc.devRef .tc main_v4) = _
  dsimp only [hostOps1]
  after_results
  rfl

/-- The last buffer is `x` and the attention output joined along the last axis. -/
theorem w5v6_eq (c : Dev nD) :
    w5v6 m ρ c = concatenate S4x2048x2048 2 [⟨S4x2048x1024, w4arg0 m ρ c⟩, ⟨S4x2048x1024, w4v5 m ρ c⟩]
      concatenates_S4x2048x1024_S4x2048x1024_S4x2048x2048_d2 := by
  show StableHlo.after hostOps2 (W4 m ρ c) (Proc.devRef .tc main_v6) = _
  dsimp only [hostOps2]
  after_results

/-! ## At an index -/

/-- Row `r` of the flattened `x` is its fibre `(r / 2048, r % 2048, ·)`. -/
theorem w1v0_apply (c : Dev nD) (r : Fin 8192) (k : Fin 1024) :
    w1v0 m ρ c (ix2 r k) = w0arg0 m ρ c (ix3 (⟨r.val / 2048, by omega⟩ : Fin 4) (⟨r.val % 2048, by omega⟩ : Fin 2048) k) := by
  rw [w1v0_eq]
  exact Cert.Rank3Layout.shapeCast_abc_flat_apply _ _ _ _ k r (by show r.val = r.val / 2048 * 2048 + r.val % 2048; omega)

/-- The fibre `(b, s, ·)` of an unflattened projection is row `b · 2048 + s` of the projection. -/
theorem w3v2_apply (c : Dev nD) (b : Fin 4) (s : Fin 2048) (e : Fin 1024) :
    w3v2 m ρ c (ix3 b s e) = w2v1_0 m ρ c (ix2 (⟨b.val * 2048 + s.val, by omega⟩ : Fin 8192) e) := by
  rw [w3v2_eq]
  exact Cert.Rank3Layout.shapeCast_flat_abc_apply _ _ b s e _ rfl
theorem w3v3_apply (c : Dev nD) (b : Fin 4) (s : Fin 2048) (e : Fin 1024) :
    w3v3 m ρ c (ix3 b s e) = w2v1_1 m ρ c (ix2 (⟨b.val * 2048 + s.val, by omega⟩ : Fin 8192) e) := by
  rw [w3v3_eq]
  exact Cert.Rank3Layout.shapeCast_flat_abc_apply _ _ b s e _ rfl
theorem w3v4_apply (c : Dev nD) (b : Fin 4) (s : Fin 2048) (e : Fin 1024) :
    w3v4 m ρ c (ix3 b s e) = w2v1_2 m ρ c (ix2 (⟨b.val * 2048 + s.val, by omega⟩ : Fin 8192) e) := by
  rw [w3v4_eq]
  exact Cert.Rank3Layout.shapeCast_flat_abc_apply _ _ b s e _ rfl

/-- Below column 1024 the joined array is `x`. -/
theorem w5v6_left (c : Dev nD) (b : Fin 4) (s : Fin 2048) (j : Fin 2048) (h : j.val < 1024) :
    w5v6 m ρ c (ix3 b s j) = w4arg0 m ρ c (ix3 b s (⟨j.val, h⟩ : Fin 1024)) := by
  rw [w5v6_eq]
  refine concatenate_pair_apply_left (t := S4x2048x2048) (s₁ := S4x2048x1024) (s₂ := S4x2048x1024) (2 : Fin 3) _ _ _ (ix3 b s j) rfl (ix3 b s (⟨j.val, h⟩ : Fin 1024)) fun a => ?_
  match a with
  | ⟨0, _⟩ => rfl
  | ⟨1, _⟩ => rfl
  | ⟨2, _⟩ => rfl

/-- From column 1024 on it is the attention output, 1024 columns to the left. -/
theorem w5v6_right (c : Dev nD) (b : Fin 4) (s : Fin 2048) (j : Fin 2048) (h : ¬ j.val < 1024) :
    w5v6 m ρ c (ix3 b s j) = w4v5 m ρ c (ix3 b s (⟨j.val - 1024, by omega⟩ : Fin 1024)) := by
  rw [w5v6_eq]
  refine concatenate_pair_apply_right (t := S4x2048x2048) (s₁ := S4x2048x1024) (s₂ := S4x2048x1024) (2 : Fin 3) _ _ _ (ix3 b s j) rfl rfl (ix3 b s (⟨j.val - 1024, by omega⟩ : Fin 1024)) (fun a ha => ?_) ?_
  · match a, ha with
    | ⟨0, _⟩, _ => rfl
    | ⟨1, _⟩, _ => rfl
    | ⟨2, _⟩, ha => exact absurd rfl ha
  · show j.val - 1024 + 1024 = j.val
    omega

/-! ## The same, spelled over the boundary valuations -/

theorem W1_v0_apply (c : Dev nD) (r : Fin 8192) (k : Fin 1024) :
    (W1 m ρ c (Proc.devRef .tc main_v0) : S8192x1024.Idx → Elt F .f32) (ix2 r k)
      = (W0 m ρ c (Proc.devRef .tc main_arg0) : S4x2048x1024.Idx → Elt F .f32)
          (ix3 (⟨r.val / 2048, by omega⟩ : Fin 4) (⟨r.val % 2048, by omega⟩ : Fin 2048) k) :=
  w1v0_apply m ρ c r k
theorem W3_v2_apply (c : Dev nD) (b : Fin 4) (s : Fin 2048) (e : Fin 1024) :
    (W3 m ρ c (Proc.devRef .tc main_v2) : S4x2048x1024.Idx → Elt F .f32) (ix3 b s e)
      = (W2 m ρ c (Proc.devRef .tc main_v1_0) : S8192x1024.Idx → Elt F .f32) (ix2 (⟨b.val * 2048 + s.val, by omega⟩ : Fin 8192) e) :=
  w3v2_apply m ρ c b s e
theorem W3_v3_apply (c : Dev nD) (b : Fin 4) (s : Fin 2048) (e : Fin 1024) :
    (W3 m ρ c (Proc.devRef .tc main_v3) : S4x2048x1024.Idx → Elt F .f32) (ix3 b s e)
      = (W2 m ρ c (Proc.devRef .tc main_v1_1) : S8192x1024.Idx → Elt F .f32) (ix2 (⟨b.val * 2048 + s.val, by omega⟩ : Fin 8192) e) :=
  w3v3_apply m ρ c b s e
theorem W3_v4_apply (c : Dev nD) (b : Fin 4) (s : Fin 2048) (e : Fin 1024) :
    (W3 m ρ c (Proc.devRef .tc main_v4) : S4x2048x1024.Idx → Elt F .bf16) (ix3 b s e)
      = (W2 m ρ c (Proc.devRef .tc main_v1_2) : S8192x1024.Idx → Elt F .bf16) (ix2 (⟨b.val * 2048 + s.val, by omega⟩ : Fin 8192) e) :=
  w3v4_apply m ρ c b s e
theorem W5_v6_left (c : Dev nD) (b : Fin 4) (s : Fin 2048) (j : Fin 2048) (h : j.val < 1024) :
    (W5 m ρ c (Proc.devRef .tc main_v6) : S4x2048x2048.Idx → Elt F .f32) (ix3 b s j)
      = (W4 m ρ c (Proc.devRef .tc main_arg0) : S4x2048x1024.Idx → Elt F .f32) (ix3 b s (⟨j.val, h⟩ : Fin 1024)) :=
  w5v6_left m ρ c b s j h
theorem W5_v6_right (c : Dev nD) (b : Fin 4) (s : Fin 2048) (j : Fin 2048) (h : ¬ j.val < 1024) :
    (W5 m ρ c (Proc.devRef .tc main_v6) : S4x2048x2048.Idx → Elt F .f32) (ix3 b s j)
      = (W4 m ρ c (Proc.devRef .tc main_v5) : S4x2048x1024.Idx → Elt F .f32) (ix3 b s (⟨j.val - 1024, by omega⟩ : Fin 1024)) :=
  w5v6_right m ρ c b s j h

end Cert.KernelIdeal.Hand

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.LibHiLoMatmul.lean ====
/-
  A matrix product `A · Bᵀ` of an `[m, k]` by an `[n, k]` operand (both contracted on their last axis) that is computed
  as THREE products into a zero accumulator, each operand split into a leading part and the remainder left after taking
  the leading part away,

      lead A · lead Bᵀ  +  lead A · rest Bᵀ  +  rest A · lead Bᵀ,

  read at an index over the extended reals. There the narrowing to the leading part is the identity, so the remainder
  of a FINITE entry is `a − a = 0`, the two mixed products vanish term by term (`a · 0 = 0`, `0 · b = 0`), and the
  three-product sum at `(p, q)` is the plain inner product `∑ c, A (p, c) · B (q, c)`. Proved here:

  • `sub_self_of_real`: a finite extended real minus itself is zero;
  • `matmul_nt_zero_apply`: one such product into the zero splat, read at `(p, q)`, is the sum over the contracted
    coordinate `c : Fin k` of `A (p, c) · B (q, c)`;
  • `three_matmul_apply`: the three-product sum above, for operands with finite entries, is that same inner product;
  • `sign_select_apply`: the vector term `select (|x| > 0) (select (x < 0) (−1) 1) x` read at an index is `Ideal.sign`
    of the element, at every extended real.
-/
import Idealize.ShloMosaic.Lib.ValueLayout
import Idealize.ShloMosaic.PureOps.Ideal.Laws

namespace Cert.HiLoMatmul

open Idealize.ShloMosaic Idealize.ShloMosaic.ValueIdx

/-- A finite extended real minus itself is zero (which fails at the two infinities). -/
theorem sub_self_of_real {x : EReal} (h : ∃ r : ℝ, x = (r : EReal)) : x - x = 0 := by
  obtain ⟨r, rfl⟩ := h
  rw [← EReal.coe_sub, sub_self, EReal.coe_zero]

/-- The dimension numbers of `A · Bᵀ`: both operands contracted on axis 1, rows of each kept. -/
abbrev ntDims {m k n : ℕ} (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

/-- One product `A · Bᵀ` into the zero splat, read at `(p, q)`: the sum over the contracted coordinate of the
    products of the entries. -/
theorem matmul_nt_zero_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (p : Fin m) (q : Fin n) :
    FloatOps.matmul (ntDims w) prec A B (constant (F := Ideal) ⟨2, ![m, n]⟩ .f32 0x00000000#32) (ix2 p q)
      = ∑ c : Fin k, A (ix2 p c) * B (ix2 q c) := by
  rw [Ideal.matmul_constant_zero_apply, ← Equiv.sum_comp (contrEquiv1 (ntDims w) k rfl rfl).symm]
  refine Finset.sum_congr rfl fun c _ => ?_
  have hc := contrEquiv1_symm_val (ntDims w) k rfl rfl c
  have hl : (ntDims w).lhsIdx (ix2 p q) ((contrEquiv1 (ntDims w) k rfl rfl).symm c) = ix2 p c := by
    funext ax; apply Fin.ext
    match ax with
    | ⟨0, _⟩ => simp [DotDims.lhsIdx]; rfl
    | ⟨1, _⟩ => simp [DotDims.lhsIdx]; exact hc
  have hr : (ntDims w).rhsIdx (ix2 p q) ((contrEquiv1 (ntDims w) k rfl rfl).symm c) = ix2 q c := by
    funext ax; apply Fin.ext
    match ax with
    | ⟨0, _⟩ => simp [DotDims.rhsIdx]; rfl
    | ⟨1, _⟩ => simp [DotDims.rhsIdx]; exact hc
  rw [hl, hr]

/-- The three-product sum: with the narrowing the identity and every entry finite, the two products against a
    remainder are sums of zeros, and what is left is the inner product. -/
theorem three_matmul_apply {m k n : ℕ} {φ : FTy}
    (w : DotDims.WF ⟨2, ![m, k]⟩ ⟨2, ![n, k]⟩ ⟨2, ![m, n]⟩ [1] [1] [0] [0] [] [])
    (prec : Option ContractPrecision) (hlt : φ.bits < FTy.bits .f32)
    (A : FVec Ideal ⟨2, ![m, k]⟩ .f32) (B : FVec Ideal ⟨2, ![n, k]⟩ .f32)
    (hA : ∀ j, ∃ r : ℝ, A j = (r : EReal)) (hB : ∀ j, ∃ r : ℝ, B j = (r : EReal)) (p : Fin m) (q : Fin n) :
    addf (addf
        (matmul (ntDims w) prec (truncf φ A hlt) (truncf φ B hlt) (constant ⟨2, ![m, n]⟩ .f32 0x00000000#32))
        (matmul (ntDims w) prec (truncf φ A hlt) (truncf φ (subf B B) hlt) (constant ⟨2, ![m, n]⟩ .f32 0x00000000#32)))
        (matmul (ntDims w) prec (truncf φ (subf A A) hlt) (truncf φ B hlt) (constant ⟨2, ![m, n]⟩ .f32 0x00000000#32))
        (ix2 p q)
      = ∑ c : Fin k, A (ix2 p c) * B (ix2 q c) := by
  rw [addf_apply, addf_apply]
  simp only [matmul]
  rw [matmul_nt_zero_apply, matmul_nt_zero_apply, matmul_nt_zero_apply]
  have h2 : ∑ c : Fin k, (truncf φ A hlt : FVec Ideal _ φ) (ix2 p c) * (truncf φ (subf B B) hlt : FVec Ideal _ φ) (ix2 q c) = 0 :=
    Finset.sum_eq_zero fun c _ => by
      rw [truncf_apply, truncf_apply, subf_apply, sub_self_of_real (hB _), mul_zero]
  have h3 : ∑ c : Fin k, (truncf φ (subf A A) hlt : FVec Ideal _ φ) (ix2 p c) * (truncf φ B hlt : FVec Ideal _ φ) (ix2 q c) = 0 :=
    Finset.sum_eq_zero fun c _ => by
      rw [truncf_apply, truncf_apply, subf_apply, sub_self_of_real (hA _), zero_mul]
  rw [h2, h3, add_zero, add_zero]
  exact Finset.sum_congr rfl fun c _ => by rw [truncf_apply, truncf_apply]

/-- The term printed for a sign, `select (|x| > 0) (select (x < 0) (−1) 1) x` over a whole `f32` vector, read at an
    index: `Ideal.sign` of the element, the two infinities and zero included. -/
theorem sign_select_apply {s : Shape} (x : FVec Ideal s .f32) (i : s.Idx) :
    select (cmpf .ogt (absf x) (broadcast s (Scalar.ofBits .f32 0x00000000#32)))
        (select (cmpf .olt x (constant s .f32 0x00000000#32)) (constant s .f32 0xBF800000#32)
          (constant s .f32 0x3F800000#32)) x i
      = Ideal.sign (x i) :=
  Ideal.jnp_sign_eq_sign_f32 (x i)

end Cert.HiLoMatmul
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.LibRowLift.lean ====
/-
  A row index lifted back along the columns: for a reduction of `[M, N]` along its columns to `[M]`, the source index over
  row `r` with column coordinate `k` is `(r, k)`.
-/
import Idealize.ShloMosaic.Lib.ValueIdx
import Idealize.ShloMosaic.PureOps.Ideal.Laws

namespace Cert.RowLift

open Idealize.ShloMosaic Idealize.ShloMosaic.ValueIdx

/-- The source index over row `r` whose coordinate on the reduced column axis is `k` is `(r, k)`. -/
theorem lift_row {M N : ℕ} (h : (⟨2, ![M, N]⟩ : Shape).Reduces [(1 : Fin 2)] ⟨1, ![M]⟩) (r : Fin M) (k : Fin N) :
    h.lift (ix1 r) k = ix2 r k := by
  funext c
  apply Fin.ext
  match c with
  | ⟨0, _⟩ => rfl
  | ⟨1, _⟩ => rfl

end Cert.RowLift
-- ==== Proof.KernelPayloads.lean ====
/-
  The arithmetic of the two kernel bodies read at an index, over the extended reals.

  The projection body multiplies a block of 512 rows of x by a whole weight matrix into a zero accumulator
  (the query projection also by the constant 1/32). The attention body, at one key tile, forms the scores
  sc r j = Σ_e Q r e · K j e of its 1024 query rows against its 256 key rows, raises the running row maximum
  to m' r = max (m r) (sup_j sc r j), rescales the running denominator and accumulator by exp (m r − m' r),
  adds the tile's Σ_j exp (sc r j − m' r) to the denominator and Σ_j exp (sc r j − m' r) · V j d to the
  accumulator, and at the last tile divides the accumulator by the denominator. Each stored value is read
  here at explicit coordinates: every narrowing and widening is the identity on the extended reals, a shape
  cast keeps the row-major position, a column [1024,1] laid over the columns reads its row's entry, a lane
  sum is a sum over the 256 columns, a lane maximum from −∞ is the supremum over them, and a matrix product
  into the zero accumulator is the sum over the contracted coordinate.
-/
import proofs.«104834_j14302241096180_2_alg».proof.Proof.Gen.KernelIdeal.Skeleton
import proofs.«104834_j14302241096180_2_alg».proof.Proof.LibDenseRows
import proofs.«104834_j14302241096180_2_alg».proof.Proof.LibHiLoMatmul
import proofs.«104834_j14302241096180_2_alg».proof.Proof.LibColumnLayout
import proofs.«104834_j14302241096180_2_alg».proof.Proof.LibRowLift
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx
open Cert.KernelIdeal Cert.KernelIdeal.Gen

/-- The unscaled score of query row r against key row j of the tile: the inner product over the model axis. -/
def sc (Qb : Vec Ideal S1x1024x1024 .f32) (Kb : Vec Ideal S1x256x1024 .f32) (r : Fin 1024) (j : Fin 256) : EReal :=
  ∑ e : Fin 1024, Qb (ix3 0 r e) * Kb (ix3 0 j e)

variable (Qb : Vec Ideal S1x1024x1024 .f32) (Kb : Vec Ideal S1x256x1024 .f32)
variable (r : Fin 1024) (j : Fin 256) (d : Fin 1024)

/-! ## Constants and layout, shared -/

/-- The word of −∞. -/
theorem ofBits_negInf : Ideal.ofBits .f32 0xFF800000#32 = (⊥ : EReal) := by
  simp [Ideal.ofBits, Ideal.ieee]

/-- The word of 1/32. -/
theorem ofBits_inv32 : Ideal.ofBits .f32 0x3D000000#32 = ((1 / 32 : ℝ) : EReal) := by
  simp [Ideal.ofBits, Ideal.ieee]
  rw [← EReal.coe_mul]
  norm_num

/-! ## The attention body -/

/-- The tile's scores: both operands lose their leading unit axis and are contracted on the model axis. -/
theorem pay8_apply : k1_pay8 Qb Kb (ix2 r j) = sc Qb Kb r j := by
  unfold k1_pay8 sc
  refine (Cert.HiLoMatmul.matmul_nt_zero_apply dot_S1024x1024_S256x1024_S1024x256_1_1_0_0_n_n_wf (some .fp32)
    (shapeCast S1024x1024 Qb shapeCasts_S1x1024x1024_S1024x1024) (shapeCast S256x1024 Kb shapeCasts_S1x256x1024_S256x1024) r j).trans ?_
  refine Finset.sum_congr rfl fun e _ => ?_
  rw [shapeCast_1ab_ab_apply, shapeCast_1ab_ab_apply]

/-- The raised running maximum: the larger of the old one and the largest score of the row in this tile. -/
theorem pay9_apply (m : Vec Ideal S1024x1 .f32) :
    k1_pay9 Qb Kb m (ix2 r 0) = max (m (ix2 r 0)) (Finset.univ.sup fun j : Fin 256 => sc Qb Kb r j) := by
  unfold k1_pay9
  rw [maximumf_apply, Cert.ColumnLayout.shapeCast_a_a1_apply]
  refine congrArg (max (m (ix2 r 0)) ·) ?_
  refine (Ideal.multiReduction_maximumf_single (k1_pay8 Qb Kb) 0xFF800000#32 reduces_S1024x256_S1024 (.inl rfl) rfl (ix1 r)).trans ?_
  have hf : (fun j : Fin 256 => k1_pay8 Qb Kb ((reduces_S1024x256_S1024).lift (ix1 r) j)) = fun j : Fin 256 => sc Qb Kb r j :=
    funext fun j => (congrArg (k1_pay8 Qb Kb) (Cert.RowLift.lift_row reduces_S1024x256_S1024 r j)).trans (pay8_apply Qb Kb r j)
  show Finset.fold max (Ideal.ofBits .f32 0xFF800000#32)
    (fun j : Fin 256 => k1_pay8 Qb Kb ((reduces_S1024x256_S1024).lift (ix1 r) j)) Finset.univ = _
  rw [hf, ofBits_negInf]
  rfl

/-- The factor that carries the old running maximum to the new one. -/
theorem pay10_apply (m m' : Vec Ideal S1024x1 .f32) :
    k1_pay10 Qb Kb m m' (ix2 r 0) = Ideal.exp (m' (ix2 r 0) - k1_pay9 Qb Kb m (ix2 r 0)) := by
  unfold k1_pay10
  rfl

/-- The exponential of a score relative to the new running maximum of its row. -/
theorem pay11_apply (m : Vec Ideal S1024x1 .f32) :
    k1_pay11 Qb Kb m (ix2 r j) = Ideal.exp (sc Qb Kb r j - k1_pay9 Qb Kb m (ix2 r 0)) := by
  unfold k1_pay11
  show Ideal.exp (k1_pay8 Qb Kb (ix2 r j) - broadcastTo S1024x256 (k1_pay9 Qb Kb m) broadcasts_S1024x1_S1024x256 (ix2 r j)) = _
  rw [pay8_apply, Cert.ColumnLayout.broadcastTo_a1_ab_apply]

/-- The running denominator: the old one rescaled, plus the row's sum of the tile's exponentials. -/
theorem pay12_apply (m m' l : Vec Ideal S1024x1 .f32) :
    k1_pay12 Qb Kb m m' l (ix2 r 0)
      = k1_pay10 Qb Kb m m' (ix2 r 0) * l (ix2 r 0) + ∑ j : Fin 256, k1_pay11 Qb Kb m (ix2 r j) := by
  unfold k1_pay12
  rw [shapeCast_self, addf_apply, mulf_apply, Cert.ColumnLayout.shapeCast_a_a1_apply]
  refine congrArg (k1_pay10 Qb Kb m m' (ix2 r 0) * l (ix2 r 0) + ·) ?_
  exact Cert.DenseRows.laneSum_apply (k1_pay11 Qb Kb m) reduces_S1024x256_S1024 (.inl rfl) rfl
    (Cert.RowLift.lift_row reduces_S1024x256_S1024) r

/-- The running accumulator rescaled by the row's factor. -/
theorem pay13_apply (m m' : Vec Ideal S1024x1 .f32) (acc : Vec Ideal S1024x1024 .f32) :
    k1_pay13 Qb Kb m m' acc (ix2 r d) = k1_pay10 Qb Kb m m' (ix2 r 0) * acc (ix2 r d) := by
  unfold k1_pay13
  show broadcastTo S1024x1024 (k1_pay10 Qb Kb m m') broadcasts_S1024x1_S1024x1024 (ix2 r d) * acc (ix2 r d) = _
  rw [Cert.ColumnLayout.broadcastTo_a1_ab_apply]

/-- The accumulator plus the tile's weights times the tile's value rows. -/
theorem pay1_apply (Vb : Vec Ideal S1x256x1024 .bf16) (p : FVec Ideal S1024x256 .f32) (a : FVec Ideal S1024x1024 .f32) :
    k1_pay1 (k1_pay7 Vb) p a (ix2 r d) = a (ix2 r d) + ∑ j : Fin 256, p (ix2 r j) * Vb (ix3 0 j d) := by
  unfold k1_pay1
  rw [shapeCast_self, addf_apply]
  refine congrArg (a (ix2 r d) + ·) ?_
  refine (Cert.DenseRows.matmul_zero_plain_apply dot_S1024x256_S256x1024_S1024x1024_1_0_0_1_n_n rfl rfl rfl rfl
    (fun _ _ => rfl) (fun _ _ => rfl) (truncf .bf16 p bitsLt_bf16_f32) (k1_pay7 Vb) r d).trans ?_
  refine Finset.sum_congr rfl fun k _ => ?_
  rw [truncf_apply]
  unfold k1_pay7
  rw [shapeCast_1ab_ab_apply]

/-- The running maximum is stored as it is. -/
theorem pay2_eq (m : FVec Ideal S1024x1 .f32) : k1_pay2 m = m := by
  unfold k1_pay2
  exact shapeCast_self _ _

/-- The last tile's result: the accumulator over the denominator of its row. -/
theorem pay3_apply (acc : Vec Ideal S1024x1024 .f32) (l : Vec Ideal S1024x1 .f32) :
    k1_pay3 acc l (ix3 0 r d) = Ideal.div (acc (ix2 r d)) (l (ix2 r 0)) := by
  unfold k1_pay3
  rw [shapeCast_ab_1ab_apply]
  show Ideal.div (acc (ix2 r d)) (broadcastTo S1024x1024 l broadcasts_S1024x1_S1024x1024 (ix2 r d)) = _
  rw [Cert.ColumnLayout.broadcastTo_a1_ab_apply]

/-- The first tile starts the running maximum at −∞ … -/
theorem pay4_apply : k1_pay4 (F := Ideal) (ix2 r 0) = ⊥ := by
  unfold k1_pay4
  rw [shapeCast_self]
  exact ofBits_negInf

/-- … the running denominator at zero … -/
theorem pay5_apply : k1_pay5 (F := Ideal) (ix2 r 0) = 0 := by
  unfold k1_pay5
  rw [shapeCast_self]
  exact Ideal.ofBits_zero_f32

/-- … and the accumulator at zero. -/
theorem pay6_apply : k1_pay6 (F := Ideal) (ix2 r d) = 0 := by
  unfold k1_pay6
  rw [shapeCast_self]
  exact Ideal.ofBits_zero_f32

/-! ## The projection body -/

variable (x0 : Vec Ideal S512x1024 .f32) (w : Vec Ideal S1024x1024 .f32) (p : Fin 512) (q : Fin 1024)

/-- A block of x against a whole weight matrix into the zero accumulator, at (p, q). -/
theorem proj_apply :
    matmul dot_S512x1024_S1024x1024_S512x1024_1_0_0_1_n_n none (k0_pay1 x0) (truncf .bf16 w bitsLt_bf16_f32)
        (constant (F := Ideal) S512x1024 .f32 0x00000000#32) (ix2 p q)
      = ∑ k : Fin 1024, x0 (ix2 p k) * w (ix2 k q) := by
  refine (Cert.DenseRows.matmul_zero_plain_apply dot_S512x1024_S1024x1024_S512x1024_1_0_0_1_n_n rfl rfl rfl rfl
    (fun _ _ => rfl) (fun _ _ => rfl) (k0_pay1 x0) (truncf .bf16 w bitsLt_bf16_f32) p q).trans ?_
  refine Finset.sum_congr rfl fun k _ => ?_
  unfold k0_pay1
  rw [truncf_apply, truncf_apply, shapeCast_self]

/-- The query projection, scaled by 1/32. -/
theorem pay0_2_apply :
    k0_pay2 x0 w (ix2 p q) = (∑ k : Fin 1024, x0 (ix2 p k) * w (ix2 k q)) * ((1 / 32 : ℝ) : EReal) := by
  unfold k0_pay2
  rw [mulf_apply, proj_apply, broadcast_apply]
  exact congrArg (_ * ·) ofBits_inv32

/-- The key projection. -/
theorem pay0_3_apply : k0_pay3 x0 w (ix2 p q) = ∑ k : Fin 1024, x0 (ix2 p k) * w (ix2 k q) := by
  unfold k0_pay3
  exact proj_apply x0 w p q

/-- The value projection (its narrowing is the identity). -/
theorem pay0_4_apply : k0_pay4 x0 w (ix2 p q) = ∑ k : Fin 1024, x0 (ix2 p k) * w (ix2 k q) := by
  unfold k0_pay4
  rw [truncf_apply]
  exact proj_apply x0 w p q

end Cert.KernelIdeal.Pay

end
-- ==== Proof.Region0Value.lean ====
/-
  From blocks to arrays for the projection call: what the three projected arrays hold after its 16 grid points.

  Point t hands the body rows 512·t … 512·t + 511 of the activations x (viewed [8192, 1024]) and a whole weight
  matrix, and writes rows 512·t … 512·t + 511 of each projected array back. Row r of a projected array is therefore
  written by point r / 512, from row r − 512·(r / 512) of that point's block of x, which is row r of x: at (r, e) the
  array holds Σ_k x (r, k) · w (k, e) (the query projection times 1/32). Each projected array is stated as ONE
  function of the arrays the call finds (projRows, projRowsScaled); a point's write-back is that function read
  through the point's block of rows; the blocks of the 16 points cover all 8192 rows.
-/
import proofs.«104834_j14302241096180_2_alg».proof.Proof.Region0
import proofs.«104834_j14302241096180_2_alg».proof.Proof.KernelPayloads
import Idealize.ShloMosaic.Lib.Pipeline.Value
import Idealize.ShloMosaic.Lib.ValueIdx

noncomputable section

open scoped BigOperators

namespace Cert.KernelIdeal.Hand

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

/-- x·w over whole arrays: at (r, e), the contraction of row r of x with column e of w. -/
def projRows (x : S8192x1024.Idx → EReal) (w : S1024x1024.Idx → EReal) : S8192x1024.Idx → EReal :=
  fun i => ∑ k : Fin 1024, x (ix2 (i 0) k) * w (ix2 k (i 1))

/-- The same times 1/32. -/
def projRowsScaled (x : S8192x1024.Idx → EReal) (w : S1024x1024.Idx → EReal) : S8192x1024.Idx → EReal :=
  fun i => (∑ k : Fin 1024, x (ix2 (i 0) k) * w (ix2 k (i 1))) * ((1 / 32 : ℝ) : EReal)

-- the core's buffer contents when the region is entered
variable (V : (c : Dev nD) → (b : Ref sig .tc) → Buf (Elt Ideal) ((c : Thread nD τ).loc b))

/-- The arrays the call finds, as functions of coordinates: x viewed [8192, 1024], and the three weights. -/
abbrev inX (c : Dev nD) : S8192x1024.Idx → EReal := V c main_v0
abbrev inWq (c : Dev nD) : S1024x1024.Idx → EReal := V c main_arg1
abbrev inWk (c : Dev nD) : S1024x1024.Idx → EReal := V c main_arg2
abbrev inWv (c : Dev nD) : S1024x1024.Idx → EReal := V c main_arg3

/-- The three projected arrays after the call's last point. -/
abbrev arrQ (c : Dev nD) : S8192x1024.Idx → EReal := (dat0 (F := Ideal) V c).arrAt 4 cfg0.N
abbrev arrK (c : Dev nD) : S8192x1024.Idx → EReal := (dat0 (F := Ideal) V c).arrAt 5 cfg0.N
abbrev arrV (c : Dev nD) : S8192x1024.Idx → EReal := (dat0 (F := Ideal) V c).arrAt 6 cfg0.N

/-! ## The scaled query projection (window 4) -/

/-- One point's query block at a block index, when the block of x holds the rows of `X` under `i` and the weight block is `W`. -/
theorem queryBlock_apply (X : S8192x1024.Idx → EReal) (W : S1024x1024.Idx → EReal)
    (x0 : Vec Ideal S512x1024 .f32) (w : Vec Ideal S1024x1024 .f32) (j : S512x1024.Idx) (i : S8192x1024.Idx)
    (hx : ∀ k : Fin 1024, x0 (ix2 (j 0) k) = X (ix2 (i 0) k)) (hw : ∀ k : Fin 1024, w (ix2 k (j 1)) = W (ix2 k (i 1))) :
    k0_pay2 x0 w j = projRowsScaled X W i := by
  obtain ⟨p, q, rfl⟩ : ∃ (p : Fin 512) (q : Fin 1024), j = ix2 p q := ⟨j 0, j 1, eq_ix2 j⟩
  rw [pay0_2_apply]
  exact congrArg (· * ((1 / 32 : ℝ) : EReal)) (Finset.sum_congr rfl fun k _ => congrArg₂ (· * ·) (hx k) (hw k))

/-- The index maps over the grid: point t's block of x and of the result start at row block t, column block 0; the
    weight's one block is the whole matrix. -/
theorem idx_facts4 : ∀ t : Fin cfg0.N, win0_0.index t (0 : Fin 2) = t.val ∧ win0_0.index t (1 : Fin 2) = 0
    ∧ win0_1.index t (0 : Fin 2) = 0 ∧ win0_1.index t (1 : Fin 2) = 0
    ∧ win0_4.index t (0 : Fin 2) = t.val ∧ win0_4.index t (1 : Fin 2) = 0 :=
  (by decide +kernel : ∀ t : Fin grid0.N, _)

/-- What point t writes back is the rows of the whole-array product under its block. -/
theorem flushed4_eq (c : Dev nD) (t : Fin cfg0.N) :
    (dat0 (F := Ideal) V c).flushed 4 t = ((cfg0.win 4).blk t).view.read (Elt Ideal) (projRowsScaled (inX V c) (inWq V c)) := by
  show (cfg0.win 4).cut (grid0.coords t) ((dat0 (F := Ideal) V c).after 4 t) = _
  rw [after0_4]
  obtain ⟨e0, e1, e2, e3, e4, e5⟩ := idx_facts4 t
  funext j
  show k0_pay2 (iblk0 V c 0 t) (iblk0 V c 1 t) j = projRowsScaled (inX V c) (inWq V c) (((cfg0.win 4).blk t).view.emb j)
  refine queryBlock_apply (inX V c) (inWq V c) (iblk0 V c 0 t) (iblk0 V c 1 t) j (((cfg0.win 4).blk t).view.emb j) (fun k => ?_) (fun k => ?_)
  · show V c main_v0 (((cfg0.win 0).blk t).view.emb (ix2 (j 0) k)) = V c main_v0 (ix2 ((((cfg0.win 4).blk t).view.emb j) 0) k)
    refine congrArg (V c main_v0) (funext fun a => Fin.ext ?_)
    match a with
    | ⟨0, _⟩ => show win0_0.index t (0 : Fin 2) * 512 + 1 * (j 0).val = win0_4.index t (0 : Fin 2) * 512 + 1 * (j 0).val; omega
    | ⟨1, _⟩ => show win0_0.index t (1 : Fin 2) * 1024 + 1 * k.val = k.val; omega
  · show V c main_arg1 (((cfg0.win 1).blk t).view.emb (ix2 k (j 1))) = V c main_arg1 (ix2 k ((((cfg0.win 4).blk t).view.emb j) 1))
    refine congrArg (V c main_arg1) (funext fun a => Fin.ext ?_)
    match a with
    | ⟨0, _⟩ => show win0_1.index t (0 : Fin 2) * 1024 + 1 * k.val = k.val; omega
    | ⟨1, _⟩ => show win0_1.index t (1 : Fin 2) * 1024 + 1 * (j 1).val = win0_4.index t (1 : Fin 2) * 1024 + 1 * (j 1).val; omega

/-- An index of the array is under point t's block iff each coordinate is in the block's range on its axis. -/
theorem mem_blk4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v1_0).slice (win0_4.rect t)).set ↔ _
  rw [View.set_slice_whole, Rect.mem_set_unit]
  exact Iff.rfl

/-- Row r is under the block of point r / 512. -/
theorem cover4 (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  have ht : (i 0).val / 512 < cfg0.N := by show _ < grid0.N; rw [N_0]; omega
  obtain ⟨e0, e1, e2, e3, e4, e5⟩ := idx_facts4 ⟨(i 0).val / 512, ht⟩
  refine ⟨⟨(i 0).val / 512, ht⟩, flush0_4 _, ?_⟩
  rw [mem_blk4]
  intro a
  match a with
  | ⟨0, _⟩ =>
    show win0_4.index ⟨(i 0).val / 512, ht⟩ (0 : Fin 2) * 512 ≤ (i 0).val
      ∧ (i 0).val < win0_4.index ⟨(i 0).val / 512, ht⟩ (0 : Fin 2) * 512 + 512
    have e4' : win0_4.index ⟨(i 0).val / 512, ht⟩ (0 : Fin 2) = (i 0).val / 512 := e4
    omega
  | ⟨1, _⟩ =>
    show win0_4.index ⟨(i 0).val / 512, ht⟩ (1 : Fin 2) * 1024 ≤ (i 1).val
      ∧ (i 1).val < win0_4.index ⟨(i 0).val / 512, ht⟩ (1 : Fin 2) * 1024 + 1024
    omega

/-- The array after the last point is the whole-array product. -/
theorem arrQ_eq (c : Dev nD) : arrQ V c = projRowsScaled (inX V c) (inWq V c) :=
  (dat0 (F := Ideal) V c).arrAt_eq_of_cover 4 (projRowsScaled (inX V c) (inWq V c)) (fun t _ => flushed4_eq V c t) cover4

/-- The query array at (r, e): row r of x against column e of the query weight, times 1/32. -/
theorem arrAt0_4 (c : Dev nD) (r : Fin 8192) (e : Fin 1024) :
    arrQ V c (ix2 r e) = (∑ k : Fin 1024, inX V c (ix2 r k) * inWq V c (ix2 k e)) * ((1 / 32 : ℝ) : EReal) :=
  congrFun (arrQ_eq V c) (ix2 r e)

/-! ## The key projection (window 5) -/

/-- One point's key block at a block index, when the block of x holds the rows of `X` under `i` and the weight block is `W`. -/
theorem keyBlock_apply (X : S8192x1024.Idx → EReal) (W : S1024x1024.Idx → EReal)
    (x0 : Vec Ideal S512x1024 .f32) (w : Vec Ideal S1024x1024 .f32) (j : S512x1024.Idx) (i : S8192x1024.Idx)
    (hx : ∀ k : Fin 1024, x0 (ix2 (j 0) k) = X (ix2 (i 0) k)) (hw : ∀ k : Fin 1024, w (ix2 k (j 1)) = W (ix2 k (i 1))) :
    k0_pay3 x0 w j = projRows X W i := by
  obtain ⟨p, q, rfl⟩ : ∃ (p : Fin 512) (q : Fin 1024), j = ix2 p q := ⟨j 0, j 1, eq_ix2 j⟩
  rw [pay0_3_apply]
  exact Finset.sum_congr rfl fun k _ => congrArg₂ (· * ·) (hx k) (hw k)

/-- The index maps over the grid: point t's block of x and of the result start at row block t, column block 0; the
    weight's one block is the whole matrix. -/
theorem idx_facts5 : ∀ t : Fin cfg0.N, win0_0.index t (0 : Fin 2) = t.val ∧ win0_0.index t (1 : Fin 2) = 0
    ∧ win0_2.index t (0 : Fin 2) = 0 ∧ win0_2.index t (1 : Fin 2) = 0
    ∧ win0_5.index t (0 : Fin 2) = t.val ∧ win0_5.index t (1 : Fin 2) = 0 :=
  (by decide +kernel : ∀ t : Fin grid0.N, _)

/-- What point t writes back is the rows of the whole-array product under its block. -/
theorem flushed5_eq (c : Dev nD) (t : Fin cfg0.N) :
    (dat0 (F := Ideal) V c).flushed 5 t = ((cfg0.win 5).blk t).view.read (Elt Ideal) (projRows (inX V c) (inWk V c)) := by
  show (cfg0.win 5).cut (grid0.coords t) ((dat0 (F := Ideal) V c).after 5 t) = _
  rw [after0_5]
  obtain ⟨e0, e1, e2, e3, e4, e5⟩ := idx_facts5 t
  funext j
  show k0_pay3 (iblk0 V c 0 t) (iblk0 V c 2 t) j = projRows (inX V c) (inWk V c) (((cfg0.win 5).blk t).view.emb j)
  refine keyBlock_apply (inX V c) (inWk V c) (iblk0 V c 0 t) (iblk0 V c 2 t) j (((cfg0.win 5).blk t).view.emb j) (fun k => ?_) (fun k => ?_)
  · show V c main_v0 (((cfg0.win 0).blk t).view.emb (ix2 (j 0) k)) = V c main_v0 (ix2 ((((cfg0.win 5).blk t).view.emb j) 0) k)
    refine congrArg (V c main_v0) (funext fun a => Fin.ext ?_)
    match a with
    | ⟨0, _⟩ => show win0_0.index t (0 : Fin 2) * 512 + 1 * (j 0).val = win0_5.index t (0 : Fin 2) * 512 + 1 * (j 0).val; omega
    | ⟨1, _⟩ => show win0_0.index t (1 : Fin 2) * 1024 + 1 * k.val = k.val; omega
  · show V c main_arg2 (((cfg0.win 2).blk t).view.emb (ix2 k (j 1))) = V c main_arg2 (ix2 k ((((cfg0.win 5).blk t).view.emb j) 1))
    refine congrArg (V c main_arg2) (funext fun a => Fin.ext ?_)
    match a with
    | ⟨0, _⟩ => show win0_2.index t (0 : Fin 2) * 1024 + 1 * k.val = k.val; omega
    | ⟨1, _⟩ => show win0_2.index t (1 : Fin 2) * 1024 + 1 * (j 1).val = win0_5.index t (1 : Fin 2) * 1024 + 1 * (j 1).val; omega

/-- An index of the array is under point t's block iff each coordinate is in the block's range on its axis. -/
theorem mem_blk5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v1_1).slice (win0_5.rect t)).set ↔ _
  rw [View.set_slice_whole, Rect.mem_set_unit]
  exact Iff.rfl

/-- Row r is under the block of point r / 512. -/
theorem cover5 (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  have ht : (i 0).val / 512 < cfg0.N := by show _ < grid0.N; rw [N_0]; omega
  obtain ⟨e0, e1, e2, e3, e4, e5⟩ := idx_facts5 ⟨(i 0).val / 512, ht⟩
  refine ⟨⟨(i 0).val / 512, ht⟩, flush0_5 _, ?_⟩
  rw [mem_blk5]
  intro a
  match a with
  | ⟨0, _⟩ =>
    show win0_5.index ⟨(i 0).val / 512, ht⟩ (0 : Fin 2) * 512 ≤ (i 0).val
      ∧ (i 0).val < win0_5.index ⟨(i 0).val / 512, ht⟩ (0 : Fin 2) * 512 + 512
    have e4' : win0_5.index ⟨(i 0).val / 512, ht⟩ (0 : Fin 2) = (i 0).val / 512 := e4
    omega
  | ⟨1, _⟩ =>
    show win0_5.index ⟨(i 0).val / 512, ht⟩ (1 : Fin 2) * 1024 ≤ (i 1).val
      ∧ (i 1).val < win0_5.index ⟨(i 0).val / 512, ht⟩ (1 : Fin 2) * 1024 + 1024
    omega

/-- The array after the last point is the whole-array product. -/
theorem arrK_eq (c : Dev nD) : arrK V c = projRows (inX V c) (inWk V c) :=
  (dat0 (F := Ideal) V c).arrAt_eq_of_cover 5 (projRows (inX V c) (inWk V c)) (fun t _ => flushed5_eq V c t) cover5

/-- The key array at (r, e): row r of x against column e of the key weight. -/
theorem arrAt0_5 (c : Dev nD) (r : Fin 8192) (e : Fin 1024) :
    arrK V c (ix2 r e) = ∑ k : Fin 1024, inX V c (ix2 r k) * inWk V c (ix2 k e) :=
  congrFun (arrK_eq V c) (ix2 r e)

/-! ## The value projection (window 6) -/

/-- One point's value block at a block index, when the block of x holds the rows of `X` under `i` and the weight block is `W`. -/
theorem valueBlock_apply (X : S8192x1024.Idx → EReal) (W : S1024x1024.Idx → EReal)
    (x0 : Vec Ideal S512x1024 .f32) (w : Vec Ideal S1024x1024 .f32) (j : S512x1024.Idx) (i : S8192x1024.Idx)
    (hx : ∀ k : Fin 1024, x0 (ix2 (j 0) k) = X (ix2 (i 0) k)) (hw : ∀ k : Fin 1024, w (ix2 k (j 1)) = W (ix2 k (i 1))) :
    k0_pay4 x0 w j = projRows X W i := by
  obtain ⟨p, q, rfl⟩ : ∃ (p : Fin 512) (q : Fin 1024), j = ix2 p q := ⟨j 0, j 1, eq_ix2 j⟩
  rw [pay0_4_apply]
  exact Finset.sum_congr rfl fun k _ => congrArg₂ (· * ·) (hx k) (hw k)

/-- The index maps over the grid: point t's block of x and of the result start at row block t, column block 0; the
    weight's one block is the whole matrix. -/
theorem idx_facts6 : ∀ t : Fin cfg0.N, win0_0.index t (0 : Fin 2) = t.val ∧ win0_0.index t (1 : Fin 2) = 0
    ∧ win0_3.index t (0 : Fin 2) = 0 ∧ win0_3.index t (1 : Fin 2) = 0
    ∧ win0_6.index t (0 : Fin 2) = t.val ∧ win0_6.index t (1 : Fin 2) = 0 :=
  (by decide +kernel : ∀ t : Fin grid0.N, _)

/-- What point t writes back is the rows of the whole-array product under its block. -/
theorem flushed6_eq (c : Dev nD) (t : Fin cfg0.N) :
    (dat0 (F := Ideal) V c).flushed 6 t = ((cfg0.win 6).blk t).view.read (Elt Ideal) (projRows (inX V c) (inWv V c)) := by
  show (cfg0.win 6).cut (grid0.coords t) ((dat0 (F := Ideal) V c).after 6 t) = _
  rw [after0_6]
  obtain ⟨e0, e1, e2, e3, e4, e5⟩ := idx_facts6 t
  funext j
  show k0_pay4 (iblk0 V c 0 t) (iblk0 V c 3 t) j = projRows (inX V c) (inWv V c) (((cfg0.win 6).blk t).view.emb j)
  refine valueBlock_apply (inX V c) (inWv V c) (iblk0 V c 0 t) (iblk0 V c 3 t) j (((cfg0.win 6).blk t).view.emb j) (fun k => ?_) (fun k => ?_)
  · show V c main_v0 (((cfg0.win 0).blk t).view.emb (ix2 (j 0) k)) = V c main_v0 (ix2 ((((cfg0.win 6).blk t).view.emb j) 0) k)
    refine congrArg (V c main_v0) (funext fun a => Fin.ext ?_)
    match a with
    | ⟨0, _⟩ => show win0_0.index t (0 : Fin 2) * 512 + 1 * (j 0).val = win0_6.index t (0 : Fin 2) * 512 + 1 * (j 0).val; omega
    | ⟨1, _⟩ => show win0_0.index t (1 : Fin 2) * 1024 + 1 * k.val = k.val; omega
  · show V c main_arg3 (((cfg0.win 3).blk t).view.emb (ix2 k (j 1))) = V c main_arg3 (ix2 k ((((cfg0.win 6).blk t).view.emb j) 1))
    refine congrArg (V c main_arg3) (funext fun a => Fin.ext ?_)
    match a with
    | ⟨0, _⟩ => show win0_3.index t (0 : Fin 2) * 1024 + 1 * k.val = k.val; omega
    | ⟨1, _⟩ => show win0_3.index t (1 : Fin 2) * 1024 + 1 * (j 1).val = win0_6.index t (1 : Fin 2) * 1024 + 1 * (j 1).val; omega

/-- An index of the array is under point t's block iff each coordinate is in the block's range on its axis. -/
theorem mem_blk6 (t : Fin cfg0.N) (i : S8192x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v1_2).slice (win0_6.rect t)).set ↔ _
  rw [View.set_slice_whole, Rect.mem_set_unit]
  exact Iff.rfl

/-- Row r is under the block of point r / 512. -/
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have ht : (i 0).val / 512 < cfg0.N := by show _ < grid0.N; rw [N_0]; omega
  obtain ⟨e0, e1, e2, e3, e4, e5⟩ := idx_facts6 ⟨(i 0).val / 512, ht⟩
  refine ⟨⟨(i 0).val / 512, ht⟩, flush0_6 _, ?_⟩
  rw [mem_blk6]
  intro a
  match a with
  | ⟨0, _⟩ =>
    show win0_6.index ⟨(i 0).val / 512, ht⟩ (0 : Fin 2) * 512 ≤ (i 0).val
      ∧ (i 0).val < win0_6.index ⟨(i 0).val / 512, ht⟩ (0 : Fin 2) * 512 + 512
    have e4' : win0_6.index ⟨(i 0).val / 512, ht⟩ (0 : Fin 2) = (i 0).val / 512 := e4
    omega
  | ⟨1, _⟩ =>
    show win0_6.index ⟨(i 0).val / 512, ht⟩ (1 : Fin 2) * 1024 ≤ (i 1).val
      ∧ (i 1).val < win0_6.index ⟨(i 0).val / 512, ht⟩ (1 : Fin 2) * 1024 + 1024
    omega

/-- The array after the last point is the whole-array product. -/
theorem arrV_eq (c : Dev nD) : arrV V c = projRows (inX V c) (inWv V c) :=
  (dat0 (F := Ideal) V c).arrAt_eq_of_cover 6 (projRows (inX V c) (inWv V c)) (fun t _ => flushed6_eq V c t) cover6

/-- The value array at (r, e): row r of x against column e of the value weight. -/
theorem arrAt0_6 (c : Dev nD) (r : Fin 8192) (e : Fin 1024) :
    arrV V c (ix2 r e) = ∑ k : Fin 1024, inX V c (ix2 r k) * inWv V c (ix2 k e) :=
  congrFun (arrV_eq V c) (ix2 r e)

end Cert.KernelIdeal.Hand

end
-- ==== Proof.Region1Blocks.lean ====
/-
  The attention call's blocks and its output array, read at coordinates.

  The call runs on a grid of 4 · 2 · 8 = 64 points; the point at position t has batch b = t / 16, query tile
  qi = t / 8 mod 2 and key tile ki = t mod 8. It is handed rows qi·1024 … qi·1024 + 1023 of batch b of the query
  array and rows ki·256 … ki·256 + 255 of batch b of the key and value arrays, and at its last key tile (ki = 7) it
  writes rows qi·1024 … qi·1024 + 1023 of batch b of the output array back. So row q of batch b of the output is
  written by the point b·16 + (q / 1024)·8 + 7 and by no other: if at every writing point the block written is the
  block of ONE function O of the output's coordinates, the output array ends holding O.
-/
import proofs.«104834_j14302241096180_2_alg».proof.Proof.Region1
import proofs.«104834_j14302241096180_2_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- the core's buffer contents when the region is entered
variable (V : (c : Dev nD) → (b : Ref sig .tc) → Buf (Elt Ideal) ((c : Thread nD τ).loc b))

/-- The arrays the call finds, as functions of coordinates (batch, row, column): queries, keys, values. -/
abbrev inQ (c : Dev nD) : Cert.Attn.SX.Idx → EReal := V c main_v2
abbrev inK (c : Dev nD) : Cert.Attn.SX.Idx → EReal := V c main_v3
abbrev inV (c : Dev nD) : Cert.Attn.SX.Idx → EReal := V c main_v4

/-- The output array after the call's last point. -/
abbrev arrO (c : Dev nD) : Cert.Attn.SX.Idx → EReal := (dat1 (F := Ideal) V c).arrAt 3 cfg1.N

/-! ## A point's coordinates are in range -/

theorem pt_lt (t : Fin cfg1.N) : t.val < 64 := by
  have h : t.val < grid1.N := t.isLt
  rw [N_1] at h
  exact h

theorem batch_lt (t : Fin cfg1.N) : t.val / 16 < 4 := by have := pt_lt t; omega
theorem qrow_lt (t : Fin cfg1.N) (r : Fin 1024) : (t.val / 8 % 2) * 1024 + r.val < 2048 := by have := r.isLt; omega
theorem krow_lt (t : Fin cfg1.N) (j : Fin 256) : (t.val % 8) * 256 + j.val < 2048 := by have := j.isLt; omega

/-! ## The index maps over the grid -/

/-- The query window's and the output window's block index at position t is (t / 16, t / 8 mod 2, 0); the key and
    value windows' is (t / 16, t mod 8, 0). Decided over the 64 points. -/
theorem idx_facts1 : ∀ t : Fin cfg1.N,
    win1_0.index t (0 : Fin 3) = t.val / 16 ∧ win1_0.index t (1 : Fin 3) = t.val / 8 % 2 ∧ win1_0.index t (2 : Fin 3) = 0
    ∧ win1_1.index t (0 : Fin 3) = t.val / 16 ∧ win1_1.index t (1 : Fin 3) = t.val % 8 ∧ win1_1.index t (2 : Fin 3) = 0
    ∧ win1_2.index t (0 : Fin 3) = t.val / 16 ∧ win1_2.index t (1 : Fin 3) = t.val % 8 ∧ win1_2.index t (2 : Fin 3) = 0
    ∧ win1_3.index t (0 : Fin 3) = t.val / 16 ∧ win1_3.index t (1 : Fin 3) = t.val / 8 % 2 ∧ win1_3.index t (2 : Fin 3) = 0 :=
  (by decide +kernel : ∀ t : Fin grid1.N, _)

/-! ## The blocks read at coordinates -/

/-- The query block at position t, row r: row qi·1024 + r of batch b of the query array. -/
theorem qBlock_apply (c : Dev nD) (t : Fin cfg1.N) (r : Fin 1024) (e : Fin 1024) :
    iblk1 (F := Ideal) V c 0 t (ix3 (0 : Fin 1) r e : S1x1024x1024.Idx)
      = inQ V c (ix3 ⟨t.val / 16, batch_lt t⟩ ⟨(t.val / 8 % 2) * 1024 + r.val, qrow_lt t r⟩ e) := by
  obtain ⟨f0, f1, f2, -⟩ := idx_facts1 t
  show V c main_v2 (((cfg1.win 0).blk t).view.emb (ix3 (0 : Fin 1) r e : S1x1024x1024.Idx)) = V c main_v2 _
  refine congrArg (V c main_v2) (funext fun a => Fin.ext ?_)
  match a with
  | ⟨0, _⟩ => show win1_0.index t (0 : Fin 3) * 1 + 1 * 0 = t.val / 16; omega
  | ⟨1, _⟩ => show win1_0.index t (1 : Fin 3) * 1024 + 1 * r.val = (t.val / 8 % 2) * 1024 + r.val; omega
  | ⟨2, _⟩ => show win1_0.index t (2 : Fin 3) * 1024 + 1 * e.val = e.val; omega

/-- The key block at position t, row j: row ki·256 + j of batch b of the key array. -/
theorem kBlock_apply (c : Dev nD) (t : Fin cfg1.N) (j : Fin 256) (e : Fin 1024) :
    iblk1 (F := Ideal) V c 1 t (ix3 (0 : Fin 1) j e : S1x256x1024.Idx)
      = inK V c (ix3 ⟨t.val / 16, batch_lt t⟩ ⟨(t.val % 8) * 256 + j.val, krow_lt t j⟩ e) := by
  obtain ⟨-, -, -, f0, f1, f2, -⟩ := idx_facts1 t
  show V c main_v3 (((cfg1.win 1).blk t).view.emb (ix3 (0 : Fin 1) j e : S1x256x1024.Idx)) = V c main_v3 _
  refine congrArg (V c main_v3) (funext fun a => Fin.ext ?_)
  match a with
  | ⟨0, _⟩ => show win1_1.index t (0 : Fin 3) * 1 + 1 * 0 = t.val / 16; omega
  | ⟨1, _⟩ => show win1_1.index t (1 : Fin 3) * 256 + 1 * j.val = (t.val % 8) * 256 + j.val; omega
  | ⟨2, _⟩ => show win1_1.index t (2 : Fin 3) * 1024 + 1 * e.val = e.val; omega

/-- The value block at position t, row j: row ki·256 + j of batch b of the value array. -/
theorem vBlock_apply (c : Dev nD) (t : Fin cfg1.N) (j : Fin 256) (e : Fin 1024) :
    iblk1 (F := Ideal) V c 2 t (ix3 (0 : Fin 1) j e : S1x256x1024.Idx)
      = inV V c (ix3 ⟨t.val / 16, batch_lt t⟩ ⟨(t.val % 8) * 256 + j.val, krow_lt t j⟩ e) := by
  obtain ⟨-, -, -, -, -, -, f0, f1, f2, -⟩ := idx_facts1 t
  show V c main_v4 (((cfg1.win 2).blk t).view.emb (ix3 (0 : Fin 1) j e : S1x256x1024.Idx)) = V c main_v4 _
  refine congrArg (V c main_v4) (funext fun a => Fin.ext ?_)
  match a with
  | ⟨0, _⟩ => show win1_2.index t (0 : Fin 3) * 1 + 1 * 0 = t.val / 16; omega
  | ⟨1, _⟩ => show win1_2.index t (1 : Fin 3) * 256 + 1 * j.val = (t.val % 8) * 256 + j.val; omega
  | ⟨2, _⟩ => show win1_2.index t (2 : Fin 3) * 1024 + 1 * e.val = e.val; omega

/-! ## From the written blocks to the array -/

/-- A block of 1024 rows that agrees, row by row, with rows qi·1024 … of batch b of O is O read at every index whose
    coordinates are the block's shifted by (b, qi·1024, 0). -/
theorem outBlock_read (O : Cert.Attn.SX.Idx → EReal) (B : Vec Ideal S1x1024x1024 .f32) (b : Fin 4) (qi : ℕ) (hq : ∀ r : Fin 1024, qi * 1024 + r.val < 2048)
    (h : ∀ (r : Fin 1024) (e : Fin 1024), B (ix3 (0 : Fin 1) r e) = O (ix3 b ⟨qi * 1024 + r.val, hq r⟩ e))
    (y : S1x1024x1024.Idx) (i : Cert.Attn.SX.Idx) (h0 : (i 0).val = b.val) (h1 : (i 1).val = qi * 1024 + (y 1).val)
    (h2 : (i 2).val = (y 2).val) : B y = O i := by
  obtain ⟨u, r, e, rfl⟩ : ∃ (u : Fin 1) (r : Fin 1024) (e : Fin 1024), y = ix3 u r e := ⟨y 0, y 1, y 2, eq_ix3 y⟩
  obtain rfl : u = 0 := Subsingleton.elim _ _
  rw [h r e]
  refine congrArg O (funext fun a => Fin.ext ?_)
  match a with
  | ⟨0, _⟩ => exact h0.symm
  | ⟨1, _⟩ => exact h1.symm
  | ⟨2, _⟩ => exact h2.symm

/-- What a writing point hands to the write-back is O read through the point's block. -/
theorem flushed1_3_eq (c : Dev nD) (O : Cert.Attn.SX.Idx → EReal) (t : Fin cfg1.N)
    (h : ∀ (r : Fin 1024) (e : Fin 1024), outOf (scrAt1 (F := Ideal) V c t.val t.isLt) (ix3 (0 : Fin 1) r e)
        = O (ix3 ⟨t.val / 16, batch_lt t⟩ ⟨(t.val / 8 % 2) * 1024 + r.val, qrow_lt t r⟩ e)) :
    (dat1 (F := Ideal) V c).flushed 3 t = ((cfg1.win 3).blk t).view.read (Elt Ideal) O := by
  show (cfg1.win 3).cut (grid1.coords t) ((dat1 (F := Ideal) V c).after 3 t) = _
  rw [after1_3]
  obtain ⟨-, -, -, -, -, -, -, -, -, g0, g1, g2⟩ := idx_facts1 t
  funext y
  show outOf (scrAt1 (F := Ideal) V c t.val t.isLt) y = O (((cfg1.win 3).blk t).view.emb y)
  have hy0 : (y 0).val < 1 := (y 0).isLt
  refine outBlock_read O (outOf (scrAt1 (F := Ideal) V c t.val t.isLt)) ⟨t.val / 16, batch_lt t⟩ (t.val / 8 % 2) (qrow_lt t) h y
    (((cfg1.win 3).blk t).view.emb y) ?_ ?_ ?_
  · show win1_3.index t (0 : Fin 3) * 1 + 1 * (y 0).val = t.val / 16; omega
  · show win1_3.index t (1 : Fin 3) * 1024 + 1 * (y 1).val = (t.val / 8 % 2) * 1024 + (y 1).val; omega
  · show win1_3.index t (2 : Fin 3) * 1024 + 1 * (y 2).val = (y 2).val; omega

/-- An index of the output array is under the block of position t iff each coordinate is in the block's range. -/
theorem mem_blk1_3 (t : Fin cfg1.N) (i : Cert.Attn.SX.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v5).slice (win1_3.rect t)).set ↔ _
  rw [View.set_slice_whole, Rect.mem_set_unit]
  exact Iff.rfl

/-- Row q of batch b is under the block of the writing point b·16 + (q / 1024)·8 + 7. -/
theorem cover1_3 (i : Cert.Attn.SX.Idx) : ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  have ht : (i 0).val * 16 + (i 1).val / 1024 * 8 + 7 < cfg1.N := by show _ < grid1.N; rw [N_1]; omega
  obtain ⟨-, -, -, -, -, -, -, -, -, g0, g1, g2⟩ := idx_facts1 ⟨(i 0).val * 16 + (i 1).val / 1024 * 8 + 7, ht⟩
  have g0' : win1_3.index ⟨(i 0).val * 16 + (i 1).val / 1024 * 8 + 7, ht⟩ (0 : Fin 3) = ((i 0).val * 16 + (i 1).val / 1024 * 8 + 7) / 16 := g0
  have g1' : win1_3.index ⟨(i 0).val * 16 + (i 1).val / 1024 * 8 + 7, ht⟩ (1 : Fin 3) = ((i 0).val * 16 + (i 1).val / 1024 * 8 + 7) / 8 % 2 := g1
  refine ⟨⟨(i 0).val * 16 + (i 1).val / 1024 * 8 + 7, ht⟩, (flush1_3 _).mpr (by show ((i 0).val * 16 + (i 1).val / 1024 * 8 + 7) % 8 = 7; omega), ?_⟩
  rw [mem_blk1_3]
  intro a
  match a with
  | ⟨0, _⟩ =>
    show win1_3.index ⟨(i 0).val * 16 + (i 1).val / 1024 * 8 + 7, ht⟩ (0 : Fin 3) * 1 ≤ (i 0).val
      ∧ (i 0).val < win1_3.index ⟨(i 0).val * 16 + (i 1).val / 1024 * 8 + 7, ht⟩ (0 : Fin 3) * 1 + 1
    omega
  | ⟨1, _⟩ =>
    show win1_3.index ⟨(i 0).val * 16 + (i 1).val / 1024 * 8 + 7, ht⟩ (1 : Fin 3) * 1024 ≤ (i 1).val
      ∧ (i 1).val < win1_3.index ⟨(i 0).val * 16 + (i 1).val / 1024 * 8 + 7, ht⟩ (1 : Fin 3) * 1024 + 1024
    omega
  | ⟨2, _⟩ =>
    show win1_3.index ⟨(i 0).val * 16 + (i 1).val / 1024 * 8 + 7, ht⟩ (2 : Fin 3) * 1024 ≤ (i 2).val
      ∧ (i 2).val < win1_3.index ⟨(i 0).val * 16 + (i 1).val / 1024 * 8 + 7, ht⟩ (2 : Fin 3) * 1024 + 1024
    omega

/-- If at every writing point the block written is the block of one function O there, the output array ends at O. -/
theorem arrO_eq_of_blocks (c : Dev nD) (O : Cert.Attn.SX.Idx → EReal)
    (h : ∀ t : Fin cfg1.N, t.val % 8 = 7 → ∀ (r : Fin 1024) (e : Fin 1024),
      outOf (scrAt1 (F := Ideal) V c t.val t.isLt) (ix3 (0 : Fin 1) r e)
        = O (ix3 ⟨t.val / 16, batch_lt t⟩ ⟨(t.val / 8 % 2) * 1024 + r.val, qrow_lt t r⟩ e)) :
    arrO V c = O :=
  (dat1 (F := Ideal) V c).arrAt_eq_of_cover 3 O (fun t hf => flushed1_3_eq V c O t (h t ((flush1_3 t).mp hf))) cover1_3

end Cert.KernelIdeal.Hand

end
-- ==== Proof.LibERealExpSum.lean ====
/-
  Exponential sums on the extended reals, taken relative to a maximum.

  On the extended reals the exponential sends -∞ to 0, a real r to the real exponential of r, and +∞ to +∞; it is
  nowhere negative.  For scores that are real or -∞, and a maximum M over a finite set of them, this file proves:

  * rescaling: for x ≤ M ≤ M' with M' below +∞, exp (M - M') * exp (x - M) = exp (x - M') (a score at -∞ gives
    0 on both sides; otherwise all three are real and this is exp (a + b) = exp a * exp b);
  * a product distributes over a finite sum of nonnegative extended reals;
  * one accumulation step: the sum of exp (z - sup A) over A, rescaled by exp (sup A - sup (A ∪ B)) and joined by
    the sum of exp (z - sup (A ∪ B)) over a disjoint B, is the sum of exp (z - sup (A ∪ B)) over A ∪ B.  The set
    A may be empty (its maximum is then -∞ and its sum 0);
  * relative to a real m that bounds the scores, the sum of exp (z - m) is a real; positive if some score is real;
  * a finite sum of coerced reals is the coerced sum; a supremum over a finite type is unchanged by reindexing
    along a bijection.
-/
import Idealize.ShloMosaic.PureOps.Ideal

namespace ERealExpSum

open Finset Idealize.ShloMosaic

variable {α : Type*}

/-- The coercion of the reals into the extended reals commutes with finite sums. -/
theorem coe_sum (J : Finset α) (f : α → ℝ) : ((∑ j ∈ J, f j : ℝ) : EReal) = ∑ j ∈ J, (f j : EReal) := by
  classical
  induction J using Finset.induction_on with
  | empty => simp
  | insert a J ha ih => rw [sum_insert ha, sum_insert ha, EReal.coe_add, ih]

/-- An extended real that is neither infinity is a real. -/
theorem exists_real {x : EReal} (hb : x ≠ ⊥) (ht : x ≠ ⊤) : ∃ r : ℝ, x = (r : EReal) :=
  ⟨x.toReal, (EReal.coe_toReal ht hb).symm⟩

/-- The exponential is nowhere negative. -/
theorem exp_nonneg (x : EReal) : 0 ≤ Ideal.exp x := by
  induction x using EReal.rec with
  | bot => rw [Ideal.exp_bot]
  | coe r => rw [Ideal.exp_coe]; exact EReal.coe_nonneg.2 (Real.exp_pos r).le
  | top => rw [Ideal.exp_top]; exact le_top

/-- The exponential of a difference of reals. -/
theorem exp_sub_coe (r m : ℝ) : Ideal.exp ((r : EReal) - (m : EReal)) = ((Real.exp (r - m) : ℝ) : EReal) := by
  rw [← EReal.coe_sub, Ideal.exp_coe]

/-- A product distributes over a finite sum of nonnegative terms. -/
theorem mul_sum_of_nonneg (c : EReal) (J : Finset α) (f : α → EReal) (hf : ∀ j, 0 ≤ f j) :
    c * ∑ j ∈ J, f j = ∑ j ∈ J, c * f j := by
  classical
  induction J using Finset.induction_on with
  | empty => simp
  | insert a J ha ih =>
    rw [sum_insert ha, sum_insert ha, EReal.left_distrib_of_nonneg (hf a) (Finset.sum_nonneg fun j _ => hf j), ih]

/-- Rescaling one term from the maximum M to a later maximum M'. -/
theorem exp_rescale {x M M' : EReal} (hx : x ≤ M) (hM : M ≤ M') (ht : M' ≠ ⊤) :
    Ideal.exp (M - M') * Ideal.exp (x - M) = Ideal.exp (x - M') := by
  induction x using EReal.rec with
  | bot => rw [EReal.bot_sub, EReal.bot_sub, Ideal.exp_bot, mul_zero]
  | top => exact absurd (top_le_iff.mp (hx.trans hM)) ht
  | coe r =>
    induction M using EReal.rec with
    | bot => exact absurd (le_bot_iff.mp hx) (EReal.coe_ne_bot r)
    | top => exact absurd (top_le_iff.mp hM) ht
    | coe m =>
      induction M' using EReal.rec with
      | bot => exact absurd (le_bot_iff.mp hM) (EReal.coe_ne_bot m)
      | top => exact absurd rfl ht
      | coe m' =>
        rw [exp_sub_coe, exp_sub_coe, exp_sub_coe, ← EReal.coe_mul, ← Real.exp_add]
        congr 2
        ring

/-- A maximum of finitely many values below +∞ is below +∞. -/
theorem sup_ne_top (J : Finset α) (z : α → EReal) (hz : ∀ j ∈ J, z j ≠ ⊤) : J.sup z ≠ ⊤ :=
  ((Finset.sup_lt_iff bot_lt_top).2 fun j hj => lt_top_iff_ne_top.2 (hz j hj)).ne

/-- One accumulation step: the sum over A relative to A's maximum, rescaled to the maximum of A ∪ B, plus the sum
    over B relative to that maximum, is the sum over A ∪ B relative to it. -/
theorem sup_expsum_step [DecidableEq α] (A B : Finset α) (hAB : Disjoint A B) (z : α → EReal)
    (hz : ∀ j, z j ≠ ⊤) :
    Ideal.exp (A.sup z - max (A.sup z) (B.sup z)) * (∑ a ∈ A, Ideal.exp (z a - A.sup z))
        + ∑ b ∈ B, Ideal.exp (z b - max (A.sup z) (B.sup z))
      = ∑ j ∈ A ∪ B, Ideal.exp (z j - (A ∪ B).sup z) := by
  have hM : max (A.sup z) (B.sup z) = (A ∪ B).sup z := by rw [Finset.sup_union]
  rw [hM, sum_union hAB, mul_sum_of_nonneg _ _ _ (fun j => exp_nonneg _)]
  congr 1
  refine sum_congr rfl fun a ha => ?_
  exact exp_rescale (Finset.le_sup ha) (Finset.sup_mono subset_union_left) (sup_ne_top _ _ fun j _ => hz j)

/-- Relative to a real bound m, the exponential of a score is a nonnegative real. -/
theorem exp_sub_real {x : EReal} {m : ℝ} (hx : x ≤ (m : EReal)) :
    ∃ e : ℝ, 0 ≤ e ∧ Ideal.exp (x - (m : EReal)) = (e : EReal) := by
  induction x using EReal.rec with
  | bot => exact ⟨0, le_rfl, by rw [EReal.bot_sub, Ideal.exp_bot, EReal.coe_zero]⟩
  | top => exact absurd (top_le_iff.mp hx) (EReal.coe_ne_top m)
  | coe r => exact ⟨Real.exp (r - m), (Real.exp_pos _).le, exp_sub_coe r m⟩

/-- If every score is at most the real m and one of them is real, the sum of exp (score - m) is a positive real. -/
theorem expsum_pos_real (J : Finset α) (z : α → EReal) (m : ℝ) (hz : ∀ j ∈ J, z j ≤ (m : EReal))
    (h1 : ∃ j ∈ J, ∃ r : ℝ, z j = (r : EReal)) :
    ∃ l : ℝ, 0 < l ∧ ∑ j ∈ J, Ideal.exp (z j - (m : EReal)) = (l : EReal) := by
  have hterm : ∀ j ∈ J, Ideal.exp (z j - (m : EReal)) = (((Ideal.exp (z j - (m : EReal))).toReal : ℝ) : EReal)
      ∧ 0 ≤ (Ideal.exp (z j - (m : EReal))).toReal := by
    intro j hj
    obtain ⟨e, he0, he⟩ := exp_sub_real (hz j hj)
    rw [he, EReal.toReal_coe]
    exact ⟨rfl, he0⟩
  refine ⟨∑ j ∈ J, (Ideal.exp (z j - (m : EReal))).toReal, ?_, ?_⟩
  · obtain ⟨j, hj, r, hr⟩ := h1
    refine Finset.sum_pos' (fun i hi => (hterm i hi).2) ⟨j, hj, ?_⟩
    rw [hr, exp_sub_coe, EReal.toReal_coe]
    exact Real.exp_pos _
  · rw [coe_sum]
    exact sum_congr rfl fun j hj => (hterm j hj).1

/-- A supremum over a finite type is unchanged by reindexing along a bijection. -/
theorem sup_univ_equiv {β γ : Type*} [Fintype α] [Fintype β] [SemilatticeSup γ] [OrderBot γ] (e : α ≃ β)
    (f : β → γ) : Finset.univ.sup (fun a => f (e a)) = Finset.univ.sup f := by
  apply le_antisymm
  · exact Finset.sup_le fun a _ => Finset.le_sup (f := f) (Finset.mem_univ (e a))
  · refine Finset.sup_le fun b _ => ?_
    have h := Finset.le_sup (f := fun a => f (e a)) (Finset.mem_univ (e.symm b))
    simpa using h

end ERealExpSum
-- ==== Proof.LibFlashRow.lean ====
/-
  One row of attention, evaluated tile by tile.

  A row of scores is cut into n tiles of columns.  A running state holds the largest score met so far (m), the sum of
  exp (score - m) over the columns met so far (l), and for each output coordinate d the sum of exp (score - m) * value
  (acc).  Meeting a new tile raises m to the new maximum m', multiplies the old l and acc by exp (m - m') (which turns
  every old exp (score - m) into exp (score - m')), and adds the new tile's terms.  This file proves that, for scores
  below +∞, the state after k tiles is exactly (maximum, sum, weighted sum) over the columns of the first k tiles, taken
  relative to that maximum; and that for real scores the final quotient acc / l is the softmax-weighted sum of the values
  over all columns, however the (tile, column) pairs are numbered.
-/
import Idealize.ShloMosaic.PureOps.Ideal
import proofs.«104834_j14302241096180_2_alg».proof.Proof.LibERealExpSum

noncomputable section

open scoped BigOperators

namespace Cert.FlashRow

open Finset Idealize.ShloMosaic ERealExpSum

/-- The running state of one row: the largest score so far, the normaliser so far, the weighted sums so far. -/
structure St (D : Type) where
  m : EReal
  l : EReal
  acc : D → EReal

/-- the state before any tile -/
def init (D : Type) : St D := ⟨⊥, 0, fun _ => 0⟩

/-- one key tile: T is the tile's column index type, s the tile's scores, v its value rows -/
def step {T D : Type} [Fintype T] (s : T → EReal) (v : T → D → EReal) (st : St D) : St D :=
  let m' := max st.m (Finset.univ.sup s)
  let a := Ideal.exp (st.m - m')
  { m := m'
    l := a * st.l + ∑ j, Ideal.exp (s j - m')
    acc := fun d => a * st.acc d + ∑ j, Ideal.exp (s j - m') * v j d }

/-- the state after the first k of n tiles -/
def iter {n : ℕ} {T D : Type} [Fintype T] (s : Fin n → T → EReal) (v : Fin n → T → D → EReal) : ℕ → St D
  | 0 => init D
  | k + 1 => if h : k < n then step (s ⟨k, h⟩) (v ⟨k, h⟩) (iter s v k) else iter s v k

variable {α : Type*}

/-- The exponential of a difference M - M' with M ≤ M' < +∞ is below +∞. -/
theorem exp_sub_ne_top {M M' : EReal} (hM : M ≤ M') (ht : M' ≠ ⊤) : Ideal.exp (M - M') ≠ ⊤ := by
  induction M using EReal.rec with
  | bot => rw [EReal.bot_sub, Ideal.exp_bot]; exact EReal.zero_ne_top
  | top => exact absurd (top_le_iff.mp hM) ht
  | coe m =>
    induction M' using EReal.rec with
    | bot => exact absurd (le_bot_iff.mp hM) (EReal.coe_ne_bot m)
    | top => exact absurd rfl ht
    | coe m' => rw [exp_sub_coe]; exact EReal.coe_ne_top _

/-- A nonnegative factor below +∞ distributes over any finite sum of extended reals. -/
theorem mul_sum_of_nonneg_ne_top {c : EReal} (h0 : 0 ≤ c) (ht : c ≠ ⊤) (J : Finset α) (f : α → EReal) :
    c * ∑ j ∈ J, f j = ∑ j ∈ J, c * f j := by
  classical
  induction J using Finset.induction_on with
  | empty => simp
  | insert a J ha ih =>
    rw [sum_insert ha, sum_insert ha, EReal.left_distrib_of_nonneg_of_ne_top h0 ht, ih]

/-- One accumulation step with weights: the weighted sum over A relative to A's maximum, rescaled to the maximum of
    A ∪ B, plus the weighted sum over a disjoint B relative to that maximum, is the weighted sum over A ∪ B. -/
theorem sup_expsum_step_weighted [DecidableEq α] (A B : Finset α) (hAB : Disjoint A B) (z : α → EReal)
    (hz : ∀ j, z j ≠ ⊤) (w : α → EReal) :
    Ideal.exp (A.sup z - max (A.sup z) (B.sup z)) * (∑ a ∈ A, Ideal.exp (z a - A.sup z) * w a)
        + ∑ b ∈ B, Ideal.exp (z b - max (A.sup z) (B.sup z)) * w b
      = ∑ j ∈ A ∪ B, Ideal.exp (z j - (A ∪ B).sup z) * w j := by
  have hM : max (A.sup z) (B.sup z) = (A ∪ B).sup z := by rw [Finset.sup_union]
  have hle : A.sup z ≤ (A ∪ B).sup z := Finset.sup_mono subset_union_left
  have hnt : (A ∪ B).sup z ≠ ⊤ := sup_ne_top _ _ fun j _ => hz j
  rw [hM, sum_union hAB, mul_sum_of_nonneg_ne_top (exp_nonneg _) (exp_sub_ne_top hle hnt)]
  congr 1
  refine sum_congr rfl fun a ha => ?_
  rw [← mul_assoc, exp_rescale (Finset.le_sup ha) hle hnt]

section tiles

variable {n : ℕ} {T D : Type} [Fintype T]

/-- The (tile, column) pairs of the first k tiles. -/
def seen (n : ℕ) (T : Type) [Fintype T] (k : ℕ) : Finset (Fin n × T) :=
  Finset.univ.filter fun p => p.1.val < k

/-- The (tile, column) pairs of tile t. -/
def tile (t : Fin n) : Finset (Fin n × T) :=
  Finset.univ.map ⟨fun j => (t, j), fun _ _ h => (Prod.mk.inj h).2⟩

/-- The maximum over a tile's pairs is the maximum over its columns. -/
theorem sup_tile (z : Fin n × T → EReal) (t : Fin n) : (tile t).sup z = Finset.univ.sup fun j => z (t, j) := by
  rw [tile, Finset.sup_map]; rfl

/-- A sum over a tile's pairs is the sum over its columns. -/
theorem sum_tile (f : Fin n × T → EReal) (t : Fin n) : ∑ p ∈ tile t, f p = ∑ j, f (t, j) := by
  rw [tile, Finset.sum_map]; rfl

/-- Before any tile no pair has been met. -/
theorem seen_zero : seen n T 0 = ∅ := by
  ext p; simp [seen]

/-- After all n tiles every pair has been met. -/
theorem seen_all : seen n T n = Finset.univ := by
  ext p; simp [seen, p.1.isLt]

/-- The pairs met after k + 1 tiles are those met after k tiles together with tile k. -/
theorem seen_succ [DecidableEq (Fin n × T)] (k : ℕ) (h : k < n) :
    seen n T (k + 1) = seen n T k ∪ tile ⟨k, h⟩ := by
  ext p
  simp only [seen, tile, mem_filter, mem_univ, true_and, mem_union, mem_map, Function.Embedding.coeFn_mk]
  constructor
  · intro hp
    rcases Nat.lt_succ_iff_lt_or_eq.mp hp with h1 | h1
    · exact Or.inl h1
    · exact Or.inr ⟨p.2, Prod.ext (Fin.ext h1.symm) rfl⟩
  · rintro (h1 | ⟨j, rfl⟩)
    · exact Nat.lt_succ_of_lt h1
    · exact Nat.lt_succ_self k

/-- Tile k is disjoint from the first k tiles. -/
theorem seen_disjoint_tile (k : ℕ) (h : k < n) : Disjoint (seen n T k) (tile (T := T) ⟨k, h⟩) := by
  rw [Finset.disjoint_left]
  intro p hp hq
  simp only [seen, mem_filter, mem_univ, true_and] at hp
  simp only [tile, mem_map, mem_univ, true_and, Function.Embedding.coeFn_mk] at hq
  obtain ⟨j, rfl⟩ := hq
  exact lt_irrefl _ hp

/-- The state after k tiles: for scores below +∞, m is the maximum over the pairs met, l the sum of
    exp (score - m) over them, and acc d the sum of exp (score - m) * value over them. -/
theorem iter_inv (z : Fin n × T → EReal) (w : Fin n × T → D → EReal) (hz : ∀ p, z p ≠ ⊤) (k : ℕ) (hk : k ≤ n) :
    (iter (fun t j => z (t, j)) (fun t j d => w (t, j) d) k).m = (seen n T k).sup z ∧
    (iter (fun t j => z (t, j)) (fun t j d => w (t, j) d) k).l
        = ∑ p ∈ seen n T k, Ideal.exp (z p - (seen n T k).sup z) ∧
    ∀ d, (iter (fun t j => z (t, j)) (fun t j d => w (t, j) d) k).acc d
        = ∑ p ∈ seen n T k, Ideal.exp (z p - (seen n T k).sup z) * w p d := by
  classical
  induction k with
  | zero =>
    rw [seen_zero]
    exact ⟨rfl, by simp [iter, init], fun d => by simp [iter, init]⟩
  | succ k ih =>
    have h : k < n := hk
    obtain ⟨hm, hl, hacc⟩ := ih h.le
    have hstep : iter (fun t j => z (t, j)) (fun t j d => w (t, j) d) (k + 1)
        = step (fun j => z (⟨k, h⟩, j)) (fun j d => w (⟨k, h⟩, j) d)
            (iter (fun t j => z (t, j)) (fun t j d => w (t, j) d) k) := by
      simp only [iter, dif_pos h]
    rw [hstep, seen_succ k h]
    unfold step
    dsimp only
    rw [hm, hl, ← sup_tile z ⟨k, h⟩]
    refine ⟨(Finset.sup_union).symm, ?_, fun d => ?_⟩
    · rw [← sum_tile (fun p => Ideal.exp (z p - max ((seen n T k).sup z) ((tile ⟨k, h⟩).sup z))) ⟨k, h⟩]
      exact sup_expsum_step _ _ (seen_disjoint_tile k h) z hz
    · rw [hacc d,
        ← sum_tile (fun p => Ideal.exp (z p - max ((seen n T k).sup z) ((tile ⟨k, h⟩).sup z)) * w p d) ⟨k, h⟩]
      exact sup_expsum_step_weighted _ _ (seen_disjoint_tile k h) z hz fun p => w p d

end tiles

/-- MAIN THEOREM: with real scores and values, after all n tiles acc / l is the softmax-weighted sum over all
    columns, re-indexed along any equivalence e of (tile, column) pairs with a flat column type κ. -/
theorem flash_row {n : ℕ} {T κ D : Type} [Fintype T] [Fintype κ] [Nonempty κ]
    (e : Fin n × T ≃ κ) (s : κ → ℝ) (v : κ → D → ℝ) (d : D) :
    let S : κ → EReal := fun k => (s k : EReal)
    let M : EReal := Finset.univ.sup S
    Ideal.div ((iter (fun t j => S (e (t, j))) (fun t j d => (v (e (t, j)) d : EReal)) n).acc d)
              ((iter (fun t j => S (e (t, j))) (fun t j d => (v (e (t, j)) d : EReal)) n).l)
      = ∑ k, Ideal.div (Ideal.exp (S k - M)) (∑ k', Ideal.exp (S k' - M)) * (v k d : EReal) := by
  intro S M
  classical
  -- the state after all tiles, as sums over all (tile, column) pairs
  have hz : ∀ p : Fin n × T, (fun p => S (e p)) p ≠ ⊤ := fun p => EReal.coe_ne_top _
  obtain ⟨-, hl, hacc⟩ :=
    iter_inv (D := D) (fun p => S (e p)) (fun p d => (v (e p) d : EReal)) hz n le_rfl
  beta_reduce at hl hacc
  rw [hl, hacc d, seen_all]
  -- renumber the pairs by the flat column type
  have hsup : (Finset.univ.sup fun p : Fin n × T => S (e p)) = M := sup_univ_equiv e S
  rw [hsup]
  have h1 : ∑ p, Ideal.exp (S (e p) - M) * (v (e p) d : EReal) = ∑ k, Ideal.exp (S k - M) * (v k d : EReal) :=
    Equiv.sum_comp e fun k => Ideal.exp (S k - M) * (v k d : EReal)
  have h2 : ∑ p, Ideal.exp (S (e p) - M) = ∑ k, Ideal.exp (S k - M) :=
    Equiv.sum_comp e fun k => Ideal.exp (S k - M)
  rw [h1, h2]
  -- the maximum is a real and the normaliser a positive real
  obtain ⟨k0⟩ := ‹Nonempty κ›
  have hMt : M ≠ ⊤ := sup_ne_top _ _ fun j _ => EReal.coe_ne_top _
  have hMb : M ≠ ⊥ := by
    intro hb
    have hle : S k0 ≤ M := Finset.le_sup (f := S) (mem_univ k0)
    rw [hb] at hle
    exact EReal.coe_ne_bot _ (le_bot_iff.mp hle)
  obtain ⟨mr, hmr⟩ := exists_real hMb hMt
  obtain ⟨L, hL0, hL⟩ := expsum_pos_real Finset.univ S mr
    (fun j _ => by rw [← hmr]; exact Finset.le_sup (f := S) (mem_univ j)) ⟨k0, mem_univ _, s k0, rfl⟩
  rw [← hmr] at hL
  -- dividing by a positive real is multiplying by its reciprocal, which distributes over the sum
  rw [hL, Ideal.div_coe hL0.ne', mul_comm,
    mul_sum_of_nonneg_ne_top (EReal.coe_nonneg.2 (by positivity)) (EReal.coe_ne_top _)]
  refine sum_congr rfl fun k _ => ?_
  rw [Ideal.div_coe hL0.ne', mul_left_comm, mul_assoc]

end Cert.FlashRow

end
-- ==== Proof.AttnU.lean ====
/-
  Softmax attention over queries that already carry the scale: for a batch b and a query row q,
    su k = Σ_e Qs b q e · K b k e,   attnU b q d = Σ_k (exp (su k − sup su) / Σ_k' exp (su k' − sup su)) · V b k d.
  This is the arrangement the flash-attention pallas_call computes (the scale 1/32 was multiplied into the queries
  by the projection pallas_call); against the specification's arrangement, which scales the score, the two agree
  on real entries (proved where both are in scope).
-/
import proofs.«104834_j14302241096180_2_alg».proof.Proof.Spec

noncomputable section

open scoped BigOperators

namespace Cert.Attn

open Idealize.ShloMosaic Idealize.ShloMosaic.ValueIdx

/-- The unscaled score of query row q against key row k. -/
def su (Qs K : SX.Idx → EReal) (b : Fin 4) (q k : Fin 2048) : EReal :=
  ∑ e : Fin 1024, Qs (ix3 b q e) * K (ix3 b k e)

/-- Softmax attention of already-scaled queries: row (b, q) against all 2048 keys. -/
def attnU (Qs K Vv : SX.Idx → EReal) (b : Fin 4) (q : Fin 2048) (d : Fin 1024) : EReal :=
  ∑ k : Fin 2048, Ideal.div (Ideal.exp (su Qs K b q k - Finset.univ.sup fun k' : Fin 2048 => su Qs K b q k'))
      (∑ k' : Fin 2048, Ideal.exp (su Qs K b q k' - Finset.univ.sup fun k'' : Fin 2048 => su Qs K b q k'')) * Vv (ix3 b k d)

end Cert.Attn

end
-- ==== Proof.Region1Value.lean ====
/-
  What the flash-attention call leaves in its output array.

  Grid point t = 16·b + 8·qi + ki holds query rows 1024·qi … 1024·qi + 1023 and key rows 256·ki … 256·ki + 255 of
  batch b. Along the eight key blocks of one (b, qi) the scratch buffers carry, for every query row of the block,
  the running maximum, the running denominator and the running weighted sum of that row; one key block's update of a
  row is one step of the streaming softmax recurrence on the row's 256 scores against the block's keys and the
  block's 256 value rows. After the eighth block the row's accumulator over its denominator is therefore the
  softmax-weighted sum of the value rows over all 2048 keys; that quotient is what the last key block writes back,
  into rows 1024·qi … 1024·qi + 1023 of batch b of the output. The 8 write-backs (one per (b, qi)) cover the array.
-/
import proofs.«104834_j14302241096180_2_alg».proof.Proof.Region1
import proofs.«104834_j14302241096180_2_alg».proof.Proof.Region1Blocks
import proofs.«104834_j14302241096180_2_alg».proof.Proof.KernelPayloads
import proofs.«104834_j14302241096180_2_alg».proof.Proof.LibFlashRow
import proofs.«104834_j14302241096180_2_alg».proof.Proof.AttnU
import Idealize.ShloMosaic.Lib.Pipeline.Value
import Idealize.ShloMosaic.Lib.ValueIdx

noncomputable section

open scoped BigOperators

namespace Cert.KernelIdeal.Hand

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

-- the core's buffer contents when the region is entered
variable (V : (c : Dev nD) → (b : Ref sig .tc) → Buf (Elt Ideal) ((c : Thread nD τ).loc b))

open Cert.FlashRow (St init step iter)

/-- One key block's update, read at query row r: one step of the streaming recurrence on the row's scores against
    the block's keys and the block's value rows. -/
theorem upd_row (Qb : Vec Ideal S1x1024x1024 .f32) (Kb : Vec Ideal S1x256x1024 .f32) (Vb : Vec Ideal S1x256x1024 .bf16)
    (st : Scr Ideal) (r : Fin 1024) (σ : St (Fin 1024))
    (hm : st.1 (ix2 r 0) = σ.m) (hl : st.2.1 (ix2 r 0) = σ.l) (hacc : ∀ d : Fin 1024, st.2.2 (ix2 r d) = σ.acc d) :
    (upd Qb Kb Vb st).1 (ix2 r 0) = (step (fun j => sc Qb Kb r j) (fun j d => Vb (ix3 0 j d)) σ).m
    ∧ (upd Qb Kb Vb st).2.1 (ix2 r 0) = (step (fun j => sc Qb Kb r j) (fun j d => Vb (ix3 0 j d)) σ).l
    ∧ ∀ d : Fin 1024, (upd Qb Kb Vb st).2.2 (ix2 r d)
        = (step (fun j => sc Qb Kb r j) (fun j d => Vb (ix3 0 j d)) σ).acc d := by
  have h9 : k1_pay9 Qb Kb st.1 (ix2 r 0) = max σ.m (Finset.univ.sup fun j : Fin 256 => sc Qb Kb r j) := by
    rw [pay9_apply, hm]
  have h10 : k1_pay10 Qb Kb st.1 st.1 (ix2 r 0)
      = Ideal.exp (σ.m - max σ.m (Finset.univ.sup fun j : Fin 256 => sc Qb Kb r j)) := by
    rw [pay10_apply, h9, hm]
  have h11 : ∀ j : Fin 256, k1_pay11 Qb Kb st.1 (ix2 r j)
      = Ideal.exp (sc Qb Kb r j - max σ.m (Finset.univ.sup fun j : Fin 256 => sc Qb Kb r j)) := by
    intro j; rw [pay11_apply, h9]
  refine ⟨?_, ?_, fun d => ?_⟩
  · show k1_pay2 (k1_pay9 Qb Kb st.1) (ix2 r 0) = _
    rw [pay2_eq, h9]; rfl
  · show k1_pay12 Qb Kb st.1 st.1 st.2.1 (ix2 r 0) = _
    rw [pay12_apply, h10, hl]
    simp only [h11]; rfl
  · show k1_pay1 (k1_pay7 Vb) (k1_pay11 Qb Kb st.1) (k1_pay13 Qb Kb st.1 st.1 st.2.2) (ix2 r d) = _
    rw [pay1_apply, pay13_apply, h10, hacc d]
    simp only [h11]; rfl

/-- The reset contents at row r are the recurrence's starting state. -/
theorem scr0_row (r : Fin 1024) :
    (scr0 (F := Ideal)).1 (ix2 r 0) = (init (Fin 1024)).m ∧ (scr0 (F := Ideal)).2.1 (ix2 r 0) = (init (Fin 1024)).l
    ∧ ∀ d : Fin 1024, (scr0 (F := Ideal)).2.2 (ix2 r d) = (init (Fin 1024)).acc d :=
  ⟨pay4_apply r, pay5_apply r, fun d => pay6_apply r d⟩

/-- Key row ki·256 + j of the 2048: the (key block, row in block) pairs numbered in order. -/
def keyEquiv : Fin 8 × Fin 256 ≃ Fin 2048 where
  toFun p := ⟨p.1.val * 256 + p.2.val, by have := p.1.isLt; have := p.2.isLt; omega⟩
  invFun k := (⟨k.val / 256, by have := k.isLt; omega⟩, ⟨k.val % 256, Nat.mod_lt _ (by norm_num)⟩)
  left_inv p := by
    have h1 := p.1.isLt; have h2 := p.2.isLt
    refine Prod.ext (Fin.ext ?_) (Fin.ext ?_)
    · show (p.1.val * 256 + p.2.val) / 256 = p.1.val; omega
    · show (p.1.val * 256 + p.2.val) % 256 = p.2.val; omega
  right_inv k := by
    refine Fin.ext ?_
    show k.val / 256 * 256 + k.val % 256 = k.val; omega

/-- A finite sum of products of reals is a real. -/
theorem sum_mul_real {ι : Type} [Fintype ι] (x y : ι → EReal) (hx : ∀ i, ∃ a : ℝ, x i = (a : EReal))
    (hy : ∀ i, ∃ a : ℝ, y i = (a : EReal)) : ∃ a : ℝ, ∑ i, x i * y i = (a : EReal) := by
  choose a ha using hx
  choose b hb using hy
  refine ⟨∑ i, a i * b i, ?_⟩
  rw [ERealExpSum.coe_sum]
  exact Finset.sum_congr rfl fun i _ => by rw [ha i, hb i, EReal.coe_mul]

/-- Row r of the scratch contents st is the recurrence's state σ. -/
def rowIs (st : Scr Ideal) (r : Fin 1024) (σ : St (Fin 1024)) : Prop :=
  st.1 (ix2 r 0) = σ.m ∧ st.2.1 (ix2 r 0) = σ.l ∧ ∀ d : Fin 1024, st.2.2 (ix2 r d) = σ.acc d

/-- The scores of query row (b, q) against the 256 keys of each of the 8 key blocks. -/
def rowS (c : Dev nD) (b : Fin 4) (q : Fin 2048) : Fin 8 → Fin 256 → EReal :=
  fun ki j => Cert.Attn.su (inQ V c) (inK V c) b q (keyEquiv (ki, j))

/-- The value rows of batch b, by key block. -/
def rowV (c : Dev nD) (b : Fin 4) : Fin 8 → Fin 256 → Fin 1024 → EReal :=
  fun ki j d => inV V c (ix3 b (keyEquiv (ki, j)) d)

/-- The recurrence after k + 1 blocks is one step from the recurrence after k. -/
theorem iter_succ {n : ℕ} {T D : Type} [Fintype T] (s : Fin n → T → EReal) (v : Fin n → T → D → EReal) (k : ℕ)
    (h : k < n) : iter s v (k + 1) = step (s ⟨k, h⟩) (v ⟨k, h⟩) (iter s v k) := by
  simp only [iter, dif_pos h]

/-- One grid point's update at query row r: one step of the row's recurrence, on the point's key block. -/
theorem point_row (c : Dev nD) (t : Fin cfg1.N) (r : Fin 1024) (b : Fin 4) (q : Fin 2048) (k : Fin 8)
    (hb : b.val = t.val / 16) (hq : q.val = t.val / 8 % 2 * 1024 + r.val) (hk : k.val = t.val % 8)
    (st : Scr Ideal) (σ : St (Fin 1024)) (h : rowIs st r σ) :
    rowIs (upd (iblk1 V c 0 t) (iblk1 V c 1 t) (iblk1 V c 2 t) st) r (step (rowS V c b q k) (rowV V c b k) σ) := by
  have hb' : (⟨t.val / 16, by have := pt_lt t; omega⟩ : Fin 4) = b := Fin.ext hb.symm
  have hq' : (⟨t.val / 8 % 2 * 1024 + r.val, by have := r.isLt; omega⟩ : Fin 2048) = q := Fin.ext hq.symm
  have hk' : ∀ j : Fin 256, (⟨t.val % 8 * 256 + j.val, by have := j.isLt; omega⟩ : Fin 2048) = keyEquiv (k, j) :=
    fun j => Fin.ext (by show t.val % 8 * 256 + j.val = k.val * 256 + j.val; rw [hk])
  have hS : (fun j : Fin 256 => sc (iblk1 V c 0 t) (iblk1 V c 1 t) r j) = rowS V c b q k := by
    funext j
    unfold sc rowS Cert.Attn.su
    refine Finset.sum_congr rfl fun e _ => ?_
    rw [qBlock_apply V c t r e, kBlock_apply V c t j e, hb', hq', hk' j]
  have hV : (fun (j : Fin 256) (d : Fin 1024) => iblk1 V c 2 t (ix3 0 j d)) = rowV V c b k := by
    funext j d
    unfold rowV
    rw [vBlock_apply V c t j d, hb', hk' j]
  have h1 := upd_row (iblk1 V c 0 t) (iblk1 V c 1 t) (iblk1 V c 2 t) st r σ h.1 h.2.1 h.2.2
  rw [hS, hV] at h1
  exact h1

/-- Two positions of the same value hold the same scratch contents. -/
theorem scrAt1_congr (c : Dev nD) {n n' : ℕ} (h : n = n') (hn : n < cfg1.N) (hn' : n' < cfg1.N) :
    scrAt1 V c n hn = scrAt1 V c n' hn' := by subst h; rfl

/-- After the point at position n, row r of the scratch buffers is the recurrence of query row (b, q) after the
    n % 8 + 1 key blocks met since the last reset. -/
theorem scr_row (c : Dev nD) (r : Fin 1024) (b : Fin 4) (q : Fin 2048) :
    ∀ (n : ℕ) (hn : n < cfg1.N), b.val = n / 16 → q.val = n / 8 % 2 * 1024 + r.val →
      rowIs (scrAt1 V c n hn) r (iter (rowS V c b q) (rowV V c b) (n % 8 + 1)) := by
  intro n
  induction n with
  | zero =>
    intro hn hb hq
    rw [iter_succ _ _ (0 % 8) (by norm_num), scrAt1_first V c ⟨0, hn⟩ rfl]
    exact point_row V c ⟨0, hn⟩ r b q ⟨0 % 8, by norm_num⟩ hb hq rfl scr0 (init _) (scr0_row r)
  | succ m ih =>
    intro hn hb hq
    have hm : m < cfg1.N := Nat.lt_of_succ_lt hn
    have h64 : m + 1 < 64 := pt_lt ⟨m + 1, hn⟩
    rw [iter_succ _ _ ((m + 1) % 8) (Nat.mod_lt _ (by norm_num))]
    by_cases h0 : (m + 1) % 8 = 0
    · rw [scrAt1_first V c ⟨m + 1, hn⟩ h0,
        show iter (rowS V c b q) (rowV V c b) ((m + 1) % 8) = init _ from by rw [h0]; rfl]
      exact point_row V c ⟨m + 1, hn⟩ r b q ⟨(m + 1) % 8, Nat.mod_lt _ (by norm_num)⟩ hb hq rfl scr0 (init _) (scr0_row r)
    · rw [scrAt1_next V c ⟨m + 1, hn⟩ h0, scrAt1_congr V c (show (m + 1) - 1 = m from rfl) _ hm,
        show iter (rowS V c b q) (rowV V c b) ((m + 1) % 8) = iter (rowS V c b q) (rowV V c b) (m % 8 + 1) from by
          congr 1; omega]
      exact point_row V c ⟨m + 1, hn⟩ r b q ⟨(m + 1) % 8, Nat.mod_lt _ (by norm_num)⟩ hb hq rfl _ _
        (ih hm (by omega) (by omega))

/-- What the last key block of a (batch, query block) stores at row r: softmax attention of that query row
    against all 2048 keys. The eight key blocks, numbered (block, row in block), are the 2048 keys in order; real
    entries make every score real, so the streaming recurrence's quotient is the softmax-weighted sum. -/
theorem out_row (c : Dev nD)
    (hQ : ∀ i, ∃ r : ℝ, inQ V c i = (r : EReal)) (hK : ∀ i, ∃ r : ℝ, inK V c i = (r : EReal))
    (hV : ∀ i, ∃ r : ℝ, inV V c i = (r : EReal))
    (t : Fin cfg1.N) (h7 : t.val % 8 = 7) (r : Fin 1024) (d : Fin 1024) (b : Fin 4) (q : Fin 2048)
    (hb : b.val = t.val / 16) (hq : q.val = t.val / 8 % 2 * 1024 + r.val) :
    outOf (scrAt1 V c t.val t.isLt) (ix3 0 r d) = Cert.Attn.attnU (inQ V c) (inK V c) (inV V c) b q d := by
  have hrow := scr_row V c r b q t.val t.isLt hb hq
  have h8 : t.val % 8 + 1 = 8 := by omega
  rw [h8] at hrow
  unfold outOf
  rw [pay3_apply, hrow.2.2 d, hrow.2.1]
  -- real witnesses of the scores and of the value entries
  have hsum : ∀ k : Fin 2048, ∃ a : ℝ, Cert.Attn.su (inQ V c) (inK V c) b q k = (a : EReal) :=
    fun k => sum_mul_real _ _ (fun e => hQ _) (fun e => hK _)
  choose sR hsR using hsum
  choose vR hvR using fun (k : Fin 2048) (d : Fin 1024) => hV (ix3 b k d)
  have hS : rowS V c b q = fun ki j => (sR (keyEquiv (ki, j)) : EReal) := by
    funext ki j; exact hsR _
  have hVl : rowV V c b = fun ki j d => (vR (keyEquiv (ki, j)) d : EReal) := by
    funext ki j d; exact hvR _ _
  rw [hS, hVl]
  have key := Cert.FlashRow.flash_row keyEquiv sR vR d
  dsimp only at key
  rw [key]
  unfold Cert.Attn.attnU
  simp only [hsR, hvR]

/-- The output array after the region: at (b, q, d), softmax attention of query row (b, q) against all keys. -/
theorem arrAt1_3 (c : Dev nD)
    (hQ : ∀ i, ∃ r : ℝ, inQ V c i = (r : EReal)) (hK : ∀ i, ∃ r : ℝ, inK V c i = (r : EReal))
    (hV : ∀ i, ∃ r : ℝ, inV V c i = (r : EReal)) (b : Fin 4) (q : Fin 2048) (d : Fin 1024) :
    arrO V c (ix3 b q d) = Cert.Attn.attnU (inQ V c) (inK V c) (inV V c) b q d := by
  have h := arrO_eq_of_blocks V c
    (fun i => Cert.Attn.attnU (inQ V c) (inK V c) (inV V c) (i 0) (i 1) (i 2))
    (fun t h7 r e => out_row V c hQ hK hV t h7 r e _ _ rfl rfl)
  rw [h]

end Cert.KernelIdeal.Hand

end
-- ==== Proof.AttnBridge.lean ====
/-
  The two arrangements of the scale agree on real entries.

  The kernel multiplies the scale 1/32 into the queries before the score, the specification scales the score:
    Σ_e (Q e · c) · K e = (Σ_e Q e · K e) · c,
  an identity of real numbers (on the extended reals the product does not distribute over a sum in general, so the
  entries are first shown to be real: a projection of real arrays is a finite sum of products of reals). With the
  scores equal, the two softmax-weighted sums are the same expression. Last, a function on the result's index set
  that is x on the first half of the last axis and the attention output on the second is the specification.
-/
import proofs.«104834_j14302241096180_2_alg».proof.Proof.Spec
import proofs.«104834_j14302241096180_2_alg».proof.Proof.AttnU

noncomputable section

open scoped BigOperators

namespace Cert.Attn

open Idealize.ShloMosaic Idealize.ShloMosaic.ValueIdx

/-- The coercion of the reals into the extended reals commutes with finite sums. -/
theorem coe_finsum {α : Type} (J : Finset α) (f : α → ℝ) :
    ((∑ j ∈ J, f j : ℝ) : EReal) = ∑ j ∈ J, (f j : EReal) := by
  classical
  induction J using Finset.induction_on with
  | empty => simp
  | insert a s ha ih => rw [Finset.sum_insert ha, Finset.sum_insert ha, EReal.coe_add, ih]

/-- A projection of real arrays is real. -/
theorem proj_real (x : SX.Idx → EReal) (w : SW.Idx → EReal) (hx : ∀ i, ∃ r : ℝ, x i = (r : EReal))
    (hw : ∀ i, ∃ r : ℝ, w i = (r : EReal)) (b : Fin 4) (s : Fin 2048) (e : Fin 1024) :
    ∃ r : ℝ, proj x w b s e = (r : EReal) := by
  choose fx hfx using hx
  choose fw hfw using hw
  refine ⟨∑ d : Fin 1024, fx (ix3 b s d) * fw (ix2 d e), ?_⟩
  unfold proj
  rw [coe_finsum]
  refine Finset.sum_congr rfl fun d _ => ?_
  rw [hfx, hfw, EReal.coe_mul]

/-- A scaled projection of real arrays is real. -/
theorem proj_scale_real (x : SX.Idx → EReal) (w : SW.Idx → EReal) (hx : ∀ i, ∃ r : ℝ, x i = (r : EReal))
    (hw : ∀ i, ∃ r : ℝ, w i = (r : EReal)) (b : Fin 4) (s : Fin 2048) (e : Fin 1024) :
    ∃ r : ℝ, proj x w b s e * scale = (r : EReal) := by
  obtain ⟨r, hr⟩ := proj_real x w hx hw b s e
  refine ⟨r * (1 / 32), ?_⟩
  rw [hr]
  unfold scale
  rw [EReal.coe_mul]

/-- The score of scaled queries is the scaled score, on real entries. -/
theorem su_eq_score (x : SX.Idx → EReal) (wq wk : SW.Idx → EReal)
    (hx : ∀ i, ∃ r : ℝ, x i = (r : EReal)) (hq : ∀ i, ∃ r : ℝ, wq i = (r : EReal)) (hk : ∀ i, ∃ r : ℝ, wk i = (r : EReal))
    (Qs K : SX.Idx → EReal)
    (hQs : ∀ b s e, Qs (ix3 b s e) = proj x wq b s e * scale) (hK : ∀ b s e, K (ix3 b s e) = proj x wk b s e)
    (b : Fin 4) (q k : Fin 2048) :
    su Qs K b q k = score (proj x wq) (proj x wk) b q k := by
  choose fq hfq using fun e => proj_real x wq hx hq b q e
  choose fk hfk using fun e => proj_real x wk hx hk b k e
  have h1 : ∀ e : Fin 1024, Qs (ix3 b q e) * K (ix3 b k e) = (((fq e * (1 / 32)) * fk e : ℝ) : EReal) := fun e => by
    rw [hQs, hK, hfq, hfk]
    unfold scale
    rw [← EReal.coe_mul, ← EReal.coe_mul]
  have h2 : ∀ e : Fin 1024, proj x wq b q e * proj x wk b k e = ((fq e * fk e : ℝ) : EReal) := fun e => by
    rw [hfq, hfk, EReal.coe_mul]
  unfold su score
  rw [Finset.sum_congr rfl (fun e _ => h1 e), Finset.sum_congr rfl (fun e _ => h2 e), ← coe_finsum, ← coe_finsum]
  unfold scale
  rw [← EReal.coe_mul]
  congr 1
  rw [Finset.sum_mul]
  refine Finset.sum_congr rfl fun e _ => ?_
  ring

/-- Softmax attention of scaled queries is the specification's attention, on real entries. -/
theorem attnU_eq_attn (x : SX.Idx → EReal) (wq wk wv : SW.Idx → EReal)
    (hx : ∀ i, ∃ r : ℝ, x i = (r : EReal)) (hq : ∀ i, ∃ r : ℝ, wq i = (r : EReal)) (hk : ∀ i, ∃ r : ℝ, wk i = (r : EReal)) (hv : ∀ i, ∃ r : ℝ, wv i = (r : EReal))
    (Qs K Vv : SX.Idx → EReal)
    (hQs : ∀ b s e, Qs (ix3 b s e) = proj x wq b s e * scale) (hK : ∀ b s e, K (ix3 b s e) = proj x wk b s e) (hV : ∀ b s e, Vv (ix3 b s e) = proj x wv b s e)
    (b : Fin 4) (q : Fin 2048) (d : Fin 1024) :
    attnU Qs K Vv b q d = attn (proj x wq) (proj x wk) (proj x wv) b q d := by
  have key : ∀ k : Fin 2048, su Qs K b q k = score (proj x wq) (proj x wk) b q k :=
    fun k => su_eq_score x wq wk hx hq hk Qs K hQs hK b q k
  unfold attnU attn den wexp top
  simp only [key, hV]

/-- A function that is x on the first half of the last axis and the attention output on the second half is the
    specification. -/
theorem G_of_parts (x : SX.Idx → EReal) (wq wk wv : SW.Idx → EReal) (out : SO.Idx → EReal)
    (hl : ∀ (b : Fin 4) (s : Fin 2048) (j : Fin 2048) (h : j.val < 1024), out (ix3 b s j) = x (ix3 b s ⟨j.val, h⟩))
    (hr : ∀ (b : Fin 4) (s : Fin 2048) (j : Fin 2048) (h : ¬ j.val < 1024), out (ix3 b s j) = attn (proj x wq) (proj x wk) (proj x wv) b s ⟨j.val - 1024, by have := j.isLt; omega⟩) :
    out = G x wq wk wv := by
  funext i
  obtain ⟨b, s, j, rfl⟩ : ∃ (b : Fin 4) (s : Fin 2048) (j : Fin 2048), i = ix3 b s j := ⟨i 0, i 1, i 2, eq_ix3 i⟩
  by_cases h : j.val < 1024
  · rw [hl b s j h]
    symm
    unfold G
    exact dif_pos h
  · rw [hr b s j h]
    symm
    unfold G
    exact dif_neg h

end Cert.Attn

end
-- ==== Proof.LibFiniteInputs.lean ====
/-
  A precondition "every element of the input has absolute value below +∞", read back: the input's elements are real
  numbers.

  On the extended reals the absolute value max x (-x) is below ⊤ exactly when x is neither ⊤ nor ⊥, that is when x is
  a real number. The precondition is printed as the conjunction, over all elements, of the one-bit comparisons
  |x| < (the pattern 0x7F800000, which denotes ⊤); when that conjunction is 1 every comparison is 1.
-/
import Idealize.ShloMosaic.Lib.ReduceAll
import Idealize.ShloMosaic.PureOps.Ideal.Laws

noncomputable section

namespace Cert.FiniteInputs

open Idealize.ShloMosaic

/-- The single-precision pattern 0x7F800000 denotes +∞. -/
theorem ofBits_f32_inf : Ideal.ofBits .f32 0x7F800000#32 = ⊤ := by
  simp [Ideal.ofBits, Ideal.ieee]

/-- The absolute value of an extended real is below ⊤ exactly when it is a real number. -/
theorem abs_lt_top_iff (x : EReal) : max x (-x) < ⊤ ↔ ∃ r : ℝ, x = (r : EReal) := by
  induction x using EReal.rec with
  | bot =>
    constructor
    · intro h
      rw [EReal.neg_bot, max_eq_right bot_le] at h
      exact absurd h (lt_irrefl _)
    · rintro ⟨r, hr⟩
      exact absurd hr.symm (EReal.coe_ne_bot r)
  | top =>
    constructor
    · intro h
      rw [max_eq_left (le_top)] at h
      exact absurd h (lt_irrefl _)
    · rintro ⟨r, hr⟩
      exact absurd hr.symm (EReal.coe_ne_top r)
  | coe r =>
    constructor
    · intro _
      exact ⟨r, rfl⟩
    · intro _
      rw [← EReal.coe_neg]
      exact max_lt (EReal.coe_lt_top r) (EReal.coe_lt_top (-r))

/-- One element of the precondition: the comparison |x| < T with T = ⊤, as a one-bit word equal to 1, says x is real. -/
theorem real_of_cmp_abs_lt {x T : EReal} (hT : T = ⊤) (h : Ideal.cmp .olt (max x (-x)) T = 1#1) :
    ∃ r : ℝ, x = (r : EReal) := by
  subst hT
  refine (abs_lt_top_iff x).mp ?_
  by_contra hn
  simp [Ideal.cmp, hn] at h

/-- THE PRECONDITION READ BACK: when the conjunction over all elements of the comparisons |v i| < top i is 1, top being
    ⊤ everywhere, every element of v is a real number. -/
theorem all_real_of_all_finite {s t u : Shape} {axes : List (Fin s.rank)} [Subsingleton t.Idx]
    (v top : FVec Ideal s .f32) (htop : ∀ i, top i = ⊤) (init : u.Idx → BitVec 1) (h : s.ReducesTo axes t)
    (hu : 0 < u.numel) (j : t.Idx)
    (e : Host.reduce IntOp.andi (cmpf .olt (Host.absf v) top) init h hu j = 1#1) (i : s.Idx) :
    ∃ r : ℝ, v i = (r : EReal) := by
  have hi : Ideal.cmp .olt (max (v i) (-(v i))) (top i) = 1#1 := Host.reduce_andi_all _ init h hu j e i
  exact real_of_cmp_abs_lt (htop i) hi

end Cert.FiniteInputs
-- ==== Proof.PreReal.lean ====
/-
  Finiteness out of the precondition: when the printed predicate "every input's every element has absolute
  value below +∞" is 1, each of the four argument arrays holds real numbers.

  The predicate is the conjunction of four reductions by `and` over all elements of the comparisons |x| < +∞;
  a conjunction that is 1 has every conjunct 1, a reduction by `and` that is 1 met only 1s, and an extended
  real whose absolute value is below ⊤ is a real number.
-/
import proofs.«104834_j14302241096180_2_alg».proof.Defs
import proofs.«104834_j14302241096180_2_alg».proof.Proof.LibFiniteInputs
import Idealize.ShloMosaic.Lib.ReduceAll
import Idealize.ShloMosaic.Lib.ValueIdx

noncomputable section

open Idealize.ShloMosaic Idealize.ShloMosaic.TcCoe Idealize.SL.Sem

namespace Cert.PreReal

/-- The scalar shape has one index. -/
instance subsingleton_scalar_idx : Subsingleton Cert.Pre_finite_inputs.S_.Idx :=
  ⟨fun _ _ => funext fun d => d.elim0⟩

/-- The printed predicate all ones: every element of every argument array is a real number. -/
theorem real_of_fn [hP : Cert.Pre_finite_inputs.Facts]
    (x : FVec Ideal Cert.Pre_finite_inputs.S4x2048x1024 .f32)
    (w1 w2 w3 : FVec Ideal Cert.Pre_finite_inputs.S1024x1024 .f32)
    (h : Cert.Pre_finite_inputs.fn (F := Ideal) x w1 w2 w3 = fun _ => 1#1) :
    (∀ i, ∃ r : ℝ, x i = (r : EReal)) ∧ (∀ i, ∃ r : ℝ, w1 i = (r : EReal))
      ∧ (∀ i, ∃ r : ℝ, w2 i = (r : EReal)) ∧ (∀ i, ∃ r : ℝ, w3 i = (r : EReal)) := by
  have h0 := congrFun h ValueIdx.ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨fun i => Cert.FiniteInputs.all_real_of_all_finite x _ (fun _ => Cert.FiniteInputs.ofBits_f32_inf) _ _ _ _ e0 i,
    fun i => Cert.FiniteInputs.all_real_of_all_finite w1 _ (fun _ => Cert.FiniteInputs.ofBits_f32_inf) _ _ _ _ e1 i,
    fun i => Cert.FiniteInputs.all_real_of_all_finite w2 _ (fun _ => Cert.FiniteInputs.ofBits_f32_inf) _ _ _ _ e2 i,
    fun i => Cert.FiniteInputs.all_real_of_all_finite w3 _ (fun _ => Cert.FiniteInputs.ofBits_f32_inf) _ _ _ _ e3 i⟩

/-- The claim's precondition gives, on every device, four argument arrays of real numbers. -/
theorem real_of_pre [hP : Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    (∀ i, ∃ r : ℝ, (m ((c.tc : Thread Cert.KernelIdeal.nD Cert.KernelIdeal.τ).loc Cert.KernelIdeal.main_arg0) : Cert.KernelIdeal.S4x2048x1024.Idx → EReal) i = (r : EReal))
    ∧ (∀ i, ∃ r : ℝ, (m ((c.tc : Thread _ _).loc Cert.KernelIdeal.main_arg1) : Cert.KernelIdeal.S1024x1024.Idx → EReal) i = (r : EReal))
    ∧ (∀ i, ∃ r : ℝ, (m ((c.tc : Thread _ _).loc Cert.KernelIdeal.main_arg2) : Cert.KernelIdeal.S1024x1024.Idx → EReal) i = (r : EReal))
    ∧ (∀ i, ∃ r : ℝ, (m ((c.tc : Thread _ _).loc Cert.KernelIdeal.main_arg3) : Cert.KernelIdeal.S1024x1024.Idx → EReal) i = (r : EReal)) :=
  real_of_fn _ _ _ _ (h c)

end Cert.PreReal

end
-- ==== Proof.KernelValue.lean ====
/-
  The idealized kernel program's result is the specification's function of its four arguments.

  Walking the program backwards from its last buffer: the result is x beside the flash-attention call's output
  (a concatenation along the last axis); that output is, row by row, softmax attention of the scaled queries against
  the keys and values the call finds; those are the projection call's three outputs viewed as [4, 2048, 1024], which
  at (b, s, e) hold Σ_d x (b, s, d) · W (d, e) — the queries times 1/32 — because row b·2048 + s of x viewed as
  [8192, 1024] is row (b, s) of x. With finite arguments every entry on the way is a real, and on reals scaling the
  queries or scaling the scores is the same.
-/
import proofs.«104834_j14302241096180_2_alg».proof.Defs
import proofs.«104834_j14302241096180_2_alg».proof.Proof.Run
import proofs.«104834_j14302241096180_2_alg».proof.Proof.HostStages
import proofs.«104834_j14302241096180_2_alg».proof.Proof.Region0Value
import proofs.«104834_j14302241096180_2_alg».proof.Proof.Region1Value
import proofs.«104834_j14302241096180_2_alg».proof.Proof.AttnBridge
import proofs.«104834_j14302241096180_2_alg».proof.Proof.PreReal
import proofs.«104834_j14302241096180_2_alg».proof.Proof.Gen.Pre_finite_inputs

noncomputable section

open scoped BigOperators

namespace Cert.KernelIdeal.Hand

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

/-- The four arguments as functions of coordinates. -/
abbrev ax : Cert.Attn.SX.Idx → EReal := m ((c.tc : Thread nD τ).loc main_arg0)
abbrev awq : Cert.Attn.SW.Idx → EReal := m ((c.tc : Thread nD τ).loc main_arg1)
abbrev awk : Cert.Attn.SW.Idx → EReal := m ((c.tc : Thread nD τ).loc main_arg2)
abbrev awv : Cert.Attn.SW.Idx → EReal := m ((c.tc : Thread nD τ).loc main_arg3)

theorem row_lt (b : Fin 4) (s : Fin 2048) : b.val * 2048 + s.val < 8192 := by
  have := b.isLt; have := s.isLt; omega

/-- Row b·2048 + s of x viewed as [8192, 1024] is row (b, s) of x. -/
theorem inX_apply (b : Fin 4) (s : Fin 2048) (k : Fin 1024) :
    inX (V1 m ρ) c (ix2 (⟨b.val * 2048 + s.val, row_lt b s⟩ : Fin 8192) k) = ax m c (ix3 b s k) := by
  refine (W1_v0_apply m ρ c _ k).trans ?_
  have hb : (b.val * 2048 + s.val) / 2048 = b.val := by have := s.isLt; omega
  have hs : (b.val * 2048 + s.val) % 2048 = s.val := by have := s.isLt; omega
  show ax m c (ix3 _ _ k) = ax m c (ix3 b s k)
  congr 1
  funext a
  match a with
  | ⟨0, _⟩ => exact Fin.ext hb
  | ⟨1, _⟩ => exact Fin.ext hs
  | ⟨2, _⟩ => rfl

/-- The projection call finds the weights as launched. -/
theorem inWq_eq : inWq (V1 m ρ) c = awq m c := W1_of m ρ c main_arg1 (by decide)
theorem inWk_eq : inWk (V1 m ρ) c = awk m c := W1_of m ρ c main_arg2 (by decide)
theorem inWv_eq : inWv (V1 m ρ) c = awv m c := W1_of m ρ c main_arg3 (by decide)

/-- The queries the flash-attention call finds: the projection times 1/32. -/
theorem Qs_apply (b : Fin 4) (s : Fin 2048) (e : Fin 1024) :
    inQ (V3 m ρ) c (ix3 b s e) = Cert.Attn.proj (ax m c) (awq m c) b s e * Cert.Attn.scale := by
  refine (W3_v2_apply m ρ c b s e).trans ?_
  have h2 : (W2 m ρ c (Proc.devRef .tc main_v1_0) : S8192x1024.Idx → EReal) = arrQ (V1 m ρ) c := W2_arr m ρ c 4
  refine (congrFun h2 _).trans ?_
  rw [arrAt0_4]
  unfold Cert.Attn.proj Cert.Attn.scale
  refine congrArg (· * ((1 / 32 : ℝ) : EReal)) (Finset.sum_congr rfl fun k _ => ?_)
  rw [inX_apply, inWq_eq]

/-- The keys it finds. -/
theorem Ks_apply (b : Fin 4) (s : Fin 2048) (e : Fin 1024) :
    inK (V3 m ρ) c (ix3 b s e) = Cert.Attn.proj (ax m c) (awk m c) b s e := by
  refine (W3_v3_apply m ρ c b s e).trans ?_
  have h2 : (W2 m ρ c (Proc.devRef .tc main_v1_1) : S8192x1024.Idx → EReal) = arrK (V1 m ρ) c := W2_arr m ρ c 5
  refine (congrFun h2 _).trans ?_
  rw [arrAt0_5]
  unfold Cert.Attn.proj
  refine Finset.sum_congr (M := EReal) rfl fun k _ => ?_
  rw [inX_apply, inWk_eq]

/-- The values it finds. -/
theorem Vs_apply (b : Fin 4) (s : Fin 2048) (e : Fin 1024) :
    inV (V3 m ρ) c (ix3 b s e) = Cert.Attn.proj (ax m c) (awv m c) b s e := by
  refine (W3_v4_apply m ρ c b s e).trans ?_
  have h2 : (W2 m ρ c (Proc.devRef .tc main_v1_2) : S8192x1024.Idx → EReal) = arrV (V1 m ρ) c := W2_arr m ρ c 6
  refine (congrFun h2 _).trans ?_
  rw [arrAt0_6]
  unfold Cert.Attn.proj
  refine Finset.sum_congr (M := EReal) rfl fun k _ => ?_
  rw [inX_apply, inWv_eq]

/-- The program's last buffer is the specification's function of the arguments, the arguments being finite. -/
theorem kernel_G (hpre : Cert.Pre_KernelIdeal (hPre_finite_inputs := Cert.Pre_finite_inputs.Gen.facts) m) :
    (W5 m ρ c (Proc.devRef .tc main_v6) : Cert.Attn.SO.Idx → EReal)
      = Cert.Attn.G (m ((c.tc : Thread nD τ).loc main_arg0)) (m ((c.tc : Thread nD τ).loc main_arg1))
          (m ((c.tc : Thread nD τ).loc main_arg2)) (m ((c.tc : Thread nD τ).loc main_arg3)) := by
  obtain ⟨hx, hq, hk, hv⟩ := Cert.PreReal.real_of_pre (hP := Cert.Pre_finite_inputs.Gen.facts) m hpre c
  have hQ : ∀ i, ∃ r : ℝ, inQ (V3 m ρ) c i = (r : EReal) := fun i => by
    obtain ⟨b, s, e, rfl⟩ : ∃ (b : Fin 4) (s : Fin 2048) (e : Fin 1024), i = ix3 b s e := ⟨i 0, i 1, i 2, eq_ix3 i⟩
    rw [Qs_apply]; exact Cert.Attn.proj_scale_real _ _ hx hq _ _ _
  have hK : ∀ i, ∃ r : ℝ, inK (V3 m ρ) c i = (r : EReal) := fun i => by
    obtain ⟨b, s, e, rfl⟩ : ∃ (b : Fin 4) (s : Fin 2048) (e : Fin 1024), i = ix3 b s e := ⟨i 0, i 1, i 2, eq_ix3 i⟩
    rw [Ks_apply]; exact Cert.Attn.proj_real _ _ hx hk _ _ _
  have hV : ∀ i, ∃ r : ℝ, inV (V3 m ρ) c i = (r : EReal) := fun i => by
    obtain ⟨b, s, e, rfl⟩ : ∃ (b : Fin 4) (s : Fin 2048) (e : Fin 1024), i = ix3 b s e := ⟨i 0, i 1, i 2, eq_ix3 i⟩
    rw [Vs_apply]; exact Cert.Attn.proj_real _ _ hx hv _ _ _
  refine Cert.Attn.G_of_parts (ax m c) (awq m c) (awk m c) (awv m c) _ (fun b s j h => ?_) (fun b s j h => ?_)
  · refine (W5_v6_left m ρ c b s j h).trans ?_
    exact congrFun (W4_main_arg0 m ρ c) _
  · refine (W5_v6_right m ρ c b s j h).trans ?_
    have h4 : (W4 m ρ c (Proc.devRef .tc main_v5) : Cert.Attn.SX.Idx → EReal) = arrO (V3 m ρ) c := W4_arr m ρ c 3
    refine (congrFun h4 _).trans ?_
    rw [arrAt1_3 (V3 m ρ) c hQ hK hV]
    exact Cert.Attn.attnU_eq_attn (ax m c) (awq m c) (awk m c) (awv m c) hx hq hk hv _ _ _
      (Qs_apply m ρ c) (Ks_apply m ρ c) (Vs_apply m ρ c) _ _ _

end Cert.KernelIdeal.Hand

end
-- ==== Proof.lean ====
/-
  Single-head self-attention with three projections, its result laid beside the input: a Pallas program of two
  pallas_calls (the projections with the scale 1/32 folded into the queries; flash attention with a running maximum,
  denominator and weighted sum carried across the key blocks) against plain jnp (softmax of the scaled scores times
  the values). Both programs run to the end and leave their arguments unchanged; at the ideal instance both results
  are the one function Cert.Attn.G of the four argument arrays, index by index, the arguments being finite.
-/
import proofs.«104834_j14302241096180_2_alg».proof.Defs
import proofs.«104834_j14302241096180_2_alg».proof.Proof.Gen.Kernel
import proofs.«104834_j14302241096180_2_alg».proof.Proof.Gen.KernelIdeal
import proofs.«104834_j14302241096180_2_alg».proof.Proof.Gen.ReferenceIdeal
import proofs.«104834_j14302241096180_2_alg».proof.Proof.Gen.Pre_finite_inputs
import proofs.«104834_j14302241096180_2_alg».proof.Proof.Run
import proofs.«104834_j14302241096180_2_alg».proof.Proof.RunK
import proofs.«104834_j14302241096180_2_alg».proof.Proof.RefSide
import proofs.«104834_j14302241096180_2_alg».proof.Proof.KernelValue
import Idealize.ShloMosaic.Adequacy
import Idealize.ShloMosaic.Init

noncomputable section

namespace Cert.Proof

open Idealize.ShloMosaic Idealize.ShloMosaic.TcCoe Idealize.SL.Sem

/-- The word-level program runs to the end and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefSide.run_G m ρ)

/-- Both idealized programs end with the specification's function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun _ h c =>
      ⟨(h c Cert.KernelIdeal.main_v6 (by decide)).trans (Cert.KernelIdeal.Hand.kernel_G m ρ c hpre),
       (h c Cert.KernelIdeal.main_arg0 (by decide)).trans (Cert.KernelIdeal.Hand.W5_main_arg0 m ρ c),
       (h c Cert.KernelIdeal.main_arg1 (by decide)).trans (Cert.KernelIdeal.Hand.W5_main_arg1 m ρ c),
       (h c Cert.KernelIdeal.main_arg2 (by decide)).trans (Cert.KernelIdeal.Hand.W5_main_arg2 m ρ c),
       (h c Cert.KernelIdeal.main_arg3 (by decide)).trans (Cert.KernelIdeal.Hand.W5_main_arg3 m ρ c)⟩)
      (Cert.KernelIdeal.Hand.run_all m ρ)
  · refine (θ_run Cert.ReferenceIdeal.defs _ _).mono (fun _ h c => ⟨?_, (h c).2⟩) (Cert.RefSide.run_G m' ρ')
    rw [(h c).1, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
